-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel

variable [Facts]

def fn_part1 {F : FTy → Type} [FloatOps F] (main_v13 : IVec S_ 1) (main_v16 : IVec S2000000x3 1) : IVec S_ 1 :=
  let main_c_5 : IVec S_ 1 := constantI S_ 1 1#1
  let main_v17 : IVec S_ 1 := (fun x v => Host.reduce IntOp.andi x v reducesTo_S2000000x3_S_d0_1 h_S_) main_v16 main_c_5
  let main_v18 : IVec S_ 1 := andi main_v13 main_v17
  main_v18

def fn {F : FTy → Type} [FloatOps F] (main_arg0 : FVec F S2000000x3 .f32) (main_arg1 : FVec F S2000000x3 .f32) (main_arg2 : FVec F S2000000x3 .f32) (main_arg3 : FVec F S2000000x3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S2000000x3 .f32 := Host.absf main_arg2
  let main_cst_2 : FVec F S_ .f32 := constant S_ .f32 0x7F800000#32
  let main_v10 : FVec F S2000000x3 .f32 := broadcastInDim S2000000x3 ![] bcast_S_S2000000x3 main_cst_2
  let main_v11 : IVec S2000000x3 1 := cmpf .olt main_v9 main_v10
  let main_c_3 : IVec S_ 1 := constantI S_ 1 1#1
  let main_v12 : IVec S_ 1 := (fun x v => Host.reduce IntOp.andi x v reducesTo_S2000000x3_S_d0_1 h_S_) main_v11 main_c_3
  let main_v13 : IVec S_ 1 := andi main_v8 main_v12
  let main_v14 : FVec F S2000000x3 .f32 := Host.absf main_arg3
  let main_cst_4 : FVec F S_ .f32 := constant S_ .f32 0x7F800000#32
  let main_v15 : FVec F S2000000x3 .f32 := broadcastInDim S2000000x3 ![] bcast_S_S2000000x3 main_cst_4
  let main_v16 : IVec S2000000x3 1 := cmpf .olt main_v14 main_v15
  fn_part1 (F := F) main_v13 main_v16
-- ==== Kernel.lean ====
abbrev S2000000x3 : Shape := ⟨2, ![2000000, 3]⟩
abbrev S_ : Shape := ⟨0, ![]⟩
abbrev S2097152x3 : Shape := ⟨2, ![2097152, 3]⟩
abbrev S3x2097152 : Shape := ⟨2, ![3, 2097152]⟩
abbrev S3x16384x128 : Shape := ⟨3, ![3, 16384, 128]⟩
abbrev S3x4x16384x128 : Shape := ⟨4, ![3, 4, 16384, 128]⟩
abbrev S3x512x128 : Shape := ⟨3, ![3, 512, 128]⟩
abbrev S3x4x512x128 : Shape := ⟨4, ![3, 4, 512, 128]⟩
abbrev S1x512x128 : Shape := ⟨3, ![1, 512, 128]⟩
abbrev S512x128 : Shape := ⟨2, ![512, 128]⟩
abbrev S1x1x512x128 : Shape := ⟨4, ![1, 1, 512, 128]⟩
abbrev S16384x128x3x4 : Shape := ⟨4, ![16384, 128, 3, 4]⟩
abbrev S2097152x3x4 : Shape := ⟨3, ![2097152, 3, 4]⟩
abbrev S2000000x3x4 : Shape := ⟨3, ![2000000, 3, 4]⟩

abbrev nBuf : Space → Nat
  | .hbm => 28
  | .vmem => 10
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000x3, .f32⟩
  | .hbm, ⟨3, _⟩ => ⟨S2000000x3, .f32⟩
  | .hbm, ⟨4, _⟩ => ⟨S_, .i32⟩
  | .hbm, ⟨5, _⟩ => ⟨S_, .f32⟩
  | .hbm, ⟨6, _⟩ => ⟨S2097152x3, .f32⟩
  | .hbm, ⟨7, _⟩ => ⟨S3x2097152, .f32⟩
  | .hbm, ⟨8, _⟩ => ⟨S3x16384x128, .f32⟩
  | .hbm, ⟨9, _⟩ => ⟨S_, .i32⟩
  | .hbm, ⟨10, _⟩ => ⟨S_, .f32⟩
  | .hbm, ⟨11, _⟩ => ⟨S2097152x3, .f32⟩
  | .hbm, ⟨12, _⟩ => ⟨S3x2097152, .f32⟩
  | .hbm, ⟨13, _⟩ => ⟨S3x16384x128, .f32⟩
  | .hbm, ⟨14, _⟩ => ⟨S_, .i32⟩
  | .hbm, ⟨15, _⟩ => ⟨S_, .f32⟩
  | .hbm, ⟨16, _⟩ => ⟨S2097152x3, .f32⟩
  | .hbm, ⟨17, _⟩ => ⟨S3x2097152, .f32⟩
  | .hbm, ⟨18, _⟩ => ⟨S3x16384x128, .f32⟩
  | .hbm, ⟨19, _⟩ => ⟨S_, .i32⟩
  | .hbm, ⟨20, _⟩ => ⟨S_, .f32⟩
  | .hbm, ⟨21, _⟩ => ⟨S2097152x3, .f32⟩
  | .hbm, ⟨22, _⟩ => ⟨S3x2097152, .f32⟩
  | .hbm, ⟨23, _⟩ => ⟨S3x16384x128, .f32⟩
  | .hbm, ⟨24, _⟩ => ⟨S3x4x16384x128, .f32⟩
  | .hbm, ⟨25, _⟩ => ⟨S16384x128x3x4, .f32⟩
  | .hbm, ⟨26, _⟩ => ⟨S2097152x3x4, .f32⟩
  | .hbm, ⟨27, _⟩ => ⟨S2000000x3x4, .f32⟩
  | .local _ .vmem, ⟨0, _⟩ => ⟨S3x512x128, .f32⟩
  | .local _ .vmem, ⟨1, _⟩ => ⟨S3x512x128, .f32⟩
  | .local _ .vmem, ⟨2, _⟩ => ⟨S3x512x128, .f32⟩
  | .local _ .vmem, ⟨3, _⟩ => ⟨S3x512x128, .f32⟩
  | .local _ .vmem, ⟨4, _⟩ => ⟨S3x512x128, .f32⟩
  | .local _ .vmem, ⟨5, _⟩ => ⟨S3x512x128, .f32⟩
  | .local _ .vmem, ⟨6, _⟩ => ⟨S3x512x128, .f32⟩
  | .local _ .vmem, ⟨7, _⟩ => ⟨S3x512x128, .f32⟩
  | .local _ .vmem, ⟨8, _⟩ => ⟨S3x4x512x128, .f32⟩
  | .local _ .vmem, ⟨9, _⟩ => ⟨S3x4x512x128, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S3x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S2000000x3_S2097152x3_0971520_000 : S2000000x3.Pads (![0, 0] : Fin 2 → Nat) ![97152, 0] ![0, 0] S2097152x3
  h_S_ : 0 < S_.numel
  transposes_S2097152x3_S3x2097152_1_0 : S2097152x3.Transposes [1, 0] S3x2097152
  shapeCasts_S3x2097152_S3x16384x128 : S3x2097152.ShapeCasts S3x16384x128
  inb_S3x512x128_S1x512x128_0_0_0 : ∀ a, (![0, 0, 0] : Fin 3 → Nat) a + S1x512x128.size a ≤ S3x512x128.size a
  h_S1x512x128 : 0 < S1x512x128.numel
  shapeCasts_S1x512x128_S512x128 : S1x512x128.ShapeCasts S512x128
  inb_S3x512x128_S1x512x128_1_0_0 : ∀ a, (![1, 0, 0] : Fin 3 → Nat) a + S1x512x128.size a ≤ S3x512x128.size a
  inb_S3x512x128_S1x512x128_2_0_0 : ∀ a, (![2, 0, 0] : Fin 3 → Nat) a + S1x512x128.size a ≤ S3x512x128.size a
  inb_S3x4x512x128_S1x1x512x128_0_0_0_0 : ∀ a, (![0, 0, 0, 0] : Fin 4 → Nat) a + S1x1x512x128.size a ≤ S3x4x512x128.size a
  h_S1x1x512x128 : 0 < S1x1x512x128.numel
  shapeCasts_S1x1x512x128_S512x128 : S1x1x512x128.ShapeCasts S512x128
  shapeCasts_S512x128_S1x1x512x128 : S512x128.ShapeCasts S1x1x512x128
  inb_S3x4x512x128_S1x1x512x128_0_1_0_0 : ∀ a, (![0, 1, 0, 0] : Fin 4 → Nat) a + S1x1x512x128.size a ≤ S3x4x512x128.size a
  inb_S3x4x512x128_S1x1x512x128_0_2_0_0 : ∀ a, (![0, 2, 0, 0] : Fin 4 → Nat) a + S1x1x512x128.size a ≤ S3x4x512x128.size a
  inb_S3x4x512x128_S1x1x512x128_0_3_0_0 : ∀ a, (![0, 3, 0, 0] : Fin 4 → Nat) a + S1x1x512x128.size a ≤ S3x4x512x128.size a
  inb_S3x4x512x128_S1x1x512x128_1_0_0_0 : ∀ a, (![1, 0, 0, 0] : Fin 4 → Nat) a + S1x1x512x128.size a ≤ S3x4x512x128.size a
  inb_S3x4x512x128_S1x1x512x128_1_1_0_0 : ∀ a, (![1, 1, 0, 0] : Fin 4 → Nat) a + S1x1x512x128.size a ≤ S3x4x512x128.size a
  inb_S3x4x512x128_S1x1x512x128_1_2_0_0 : ∀ a, (![1, 2, 0, 0] : Fin 4 → Nat) a + S1x1x512x128.size a ≤ S3x4x512x128.size a
  inb_S3x4x512x128_S1x1x512x128_1_3_0_0 : ∀ a, (![1, 3, 0, 0] : Fin 4 → Nat) a + S1x1x512x128.size a ≤ S3x4x512x128.size a
  inb_S3x4x512x128_S1x1x512x128_2_0_0_0 : ∀ a, (![2, 0, 0, 0] : Fin 4 → Nat) a + S1x1x512x128.size a ≤ S3x4x512x128.size a
  inb_S3x4x512x128_S1x1x512x128_2_1_0_0 : ∀ a, (![2, 1, 0, 0] : Fin 4 → Nat) a + S1x1x512x128.size a ≤ S3x4x512x128.size a
  inb_S3x4x512x128_S1x1x512x128_2_2_0_0 : ∀ a, (![2, 2, 0, 0] : Fin 4 → Nat) a + S1x1x512x128.size a ≤ S3x4x512x128.size a
  inb_S3x4x512x128_S1x1x512x128_2_3_0_0 : ∀ a, (![2, 3, 0, 0] : Fin 4 → Nat) a + S1x1x512x128.size a ≤ S3x4x512x128.size a
  transposes_S3x4x16384x128_S16384x128x3x4_2_3_0_1 : S3x4x16384x128.Transposes [2, 3, 0, 1] S16384x128x3x4
  shapeCasts_S16384x128x3x4_S2097152x3x4 : S16384x128x3x4.ShapeCasts S2097152x3x4
  slices_S2097152x3x4_S2000000x3x4_0_0_0 : S2097152x3x4.Slices ![0, 0, 0] S2000000x3x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x512x128.size a ≤ S3x16384x128.size a
  hwx0_0 : ∀ i : grid0.Coords, EltTy.bits .f32 = 32 ∨ (Rect.block (s := S3x16384x128) S3x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x512x128.size a ≤ S3x16384x128.size a
  hwx0_1 : ∀ i : grid0.Coords, EltTy.bits .f32 = 32 ∨ (Rect.block (s := S3x16384x128) S3x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x512x128.size a ≤ S3x16384x128.size a
  hwx0_2 : ∀ i : grid0.Coords, EltTy.bits .f32 = 32 ∨ (Rect.block (s := S3x16384x128) S3x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x512x128.size a ≤ S3x16384x128.size a
  hwx0_3 : ∀ i : grid0.Coords, EltTy.bits .f32 = 32 ∨ (Rect.block (s := S3x16384x128) S3x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x4x512x128.size a ≤ S3x4x16384x128.size a
  hwx0_4 : ∀ i : grid0.Coords, EltTy.bits .f32 = 32 ∨ (Rect.block (s := S3x4x16384x128) S3x4x512x128.size (cc0_transform_4 i) (hinb0_4 i)).WholeWords (EltTy.packing .f32)

variable [Facts₀]

abbrev win0_0 : Pipeline.Window sig grid0 :=
  Pipeline.Window.ofSpec (Memref.whole main_v2) S3x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S3x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S3x512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S3x4x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S_ : Shape := ⟨0, ![]⟩
abbrev S2000000 : Shape := ⟨1, ![2000000]⟩
abbrev S2000000x1 : Shape := ⟨2, ![2000000, 1]⟩
abbrev S2000000x1x3 : Shape := ⟨3, ![2000000, 1, 3]⟩
abbrev S2000000x3x3 : Shape := ⟨3, ![2000000, 3, 3]⟩
abbrev S3x3 : Shape := ⟨2, ![3, 3]⟩
abbrev S2000000x1x1 : Shape := ⟨3, ![2000000, 1, 1]⟩
abbrev S1x3x3 : Shape := ⟨3, ![1, 3, 3]⟩
abbrev S2000000x3x1 : Shape := ⟨3, ![2000000, 3, 1]⟩
abbrev S2000000x3x4 : Shape := ⟨3, ![2000000, 3, 4]⟩

abbrev nBuf : Space → Nat
  | .hbm => 179
  | .vmem => 0
  | .smem => 0
  | _ => 0

abbrev hbmTy0_0 (i : Nat) : BufTy := match i % 128 with
  | 0 => ⟨S2000000x3, .f32⟩
  | 1 => ⟨S2000000x3, .f32⟩
  | 2 => ⟨S2000000x3, .f32⟩
  | 3 => ⟨S2000000x3, .f32⟩
  | 4 => ⟨S2000000x3, .f32⟩
  | 5 => ⟨S_, .f32⟩
  | 6 => ⟨S2000000, .f32⟩
  | 7 => ⟨S2000000, .f32⟩
  | 8 => ⟨S_, .f32⟩
  | 9 => ⟨S2000000, .f32⟩
  | 10 => ⟨S2000000, .i1⟩
  | 11 => ⟨S_, .f32⟩
  | 12 => ⟨S_, .f32⟩
  | 13 => ⟨S2000000, .f32⟩
  | 14 => ⟨S2000000, .f32⟩
  | 15 => ⟨S_, .f32⟩
  | 16 => ⟨S_, .f32⟩
  | 17 => ⟨S2000000, .f32⟩
  | 18 => ⟨S2000000, .f32⟩
  | 19 => ⟨S2000000, .f32⟩
  | 20 => ⟨S2000000, .f32⟩
  | 21 => ⟨S_, .f32⟩
  | 22 => ⟨S_, .f32⟩
  | 23 => ⟨S2000000, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .f32⟩
  | 30 => ⟨S_, .f32⟩
  | 31 => ⟨S_, .f32⟩
  | 32 => ⟨S2000000, .f32⟩
  | 33 => ⟨S2000000, .f32⟩
  | 34 => ⟨S2000000x1, .f32⟩
  | 35 => ⟨S2000000, .f32⟩
  | 36 => ⟨S_, .f32⟩
  | 37 => ⟨S2000000, .f32⟩
  | 38 => ⟨S2000000x1, .f32⟩
  | 39 => ⟨S2000000, .f32⟩
  | 40 => ⟨S2000000, .f32⟩
  | 41 => ⟨S2000000x1, .f32⟩
  | 42 => ⟨S2000000, .f32⟩
  | 43 => ⟨S2000000x1, .f32⟩
  | 44 => ⟨S2000000x1, .f32⟩
  | 45 => ⟨S2000000x1, .f32⟩
  | 46 => ⟨S2000000x3, .f32⟩
  | 47 => ⟨S2000000x1, .f32⟩
  | 48 => ⟨S2000000, .f32⟩
  | 49 => ⟨S2000000x1, .f32⟩
  | 50 => ⟨S2000000, .f32⟩
  | 51 => ⟨S2000000, .f32⟩
  | 52 => ⟨S2000000x1, .f32⟩
  | 53 => ⟨S2000000x1, .f32⟩
  | 54 => ⟨S2000000x1, .f32⟩
  | 55 => ⟨S2000000x3, .f32⟩
  | 56 => ⟨S2000000x1, .f32⟩
  | 57 => ⟨S2000000, .f32⟩
  | 58 => ⟨S2000000, .f32⟩
  | 59 => ⟨S2000000x1, .f32⟩
  | 60 => ⟨S2000000, .f32⟩
  | 61 => ⟨S2000000x1, .f32⟩
  | 62 => ⟨S2000000x1, .f32⟩
  | 63 => ⟨S2000000x1, .f32⟩
  | 64 => ⟨S2000000x3, .f32⟩
  | 65 => ⟨S2000000x1x3, .f32⟩
  | 66 => ⟨S2000000x1x3, .f32⟩
  | 67 => ⟨S2000000x1x3, .f32⟩
  | 68 => ⟨S2000000x3x3, .f32⟩
  | 69 => ⟨S3x3, .i32⟩
  | 70 => ⟨S3x3, .i32⟩
  | 71 => ⟨S_, .i32⟩
  | 72 => ⟨S3x3, .i32⟩
  | 73 => ⟨S3x3, .i32⟩
  | 74 => ⟨S3x3, .i1⟩
  | 75 => ⟨S3x3, .f32⟩
  | 76 => ⟨S2000000x1x1, .f32⟩
  | 77 => ⟨S2000000x3x3, .f32⟩
  | 78 => ⟨S2000000x3x3, .f32⟩
  | 79 => ⟨S1x3x3, .f32⟩
  | 80 => ⟨S2000000x3x3, .f32⟩
  | 81 => ⟨S2000000x3x3, .f32⟩
  | 82 => ⟨S2000000x1x1, .f32⟩
  | 83 => ⟨S2000000x3x3, .f32⟩
  | 84 => ⟨S2000000x3x3, .f32⟩
  | 85 => ⟨S2000000x3x3, .f32⟩
  | 86 => ⟨S2000000x3x3, .f32⟩
  | 87 => ⟨S2000000x3, .f32⟩
  | 88 => ⟨S_, .f32⟩
  | 89 => ⟨S2000000, .f32⟩
  | 90 => ⟨S2000000, .f32⟩
  | 91 => ⟨S_, .f32⟩
  | 92 => ⟨S2000000, .f32⟩
  | 93 => ⟨S2000000, .i1⟩
  | 94 => ⟨S_, .f32⟩
  | 95 => ⟨S_, .f32⟩
  | 96 => ⟨S2000000, .f32⟩
  | 97 => ⟨S2000000, .f32⟩
  | 98 => ⟨S_, .f32⟩
  | 99 => ⟨S_, .f32⟩
  | 100 => ⟨S2000000, .f32⟩
  | 101 => ⟨S2000000, .f32⟩
  | 102 => ⟨S2000000, .f32⟩
  | 103 => ⟨S2000000, .f32⟩
  | 104 => ⟨S_, .f32⟩
  | 105 => ⟨S_, .f32⟩
  | 106 => ⟨S2000000, .f32⟩
  | 107 => ⟨S2000000, .f32⟩
  | 108 => ⟨S2000000, .f32⟩
  | 109 => ⟨S_, .f32⟩
  | 110 => ⟨S2000000, .f32⟩
  | 111 => ⟨S2000000, .f32⟩
  | 112 => ⟨S2000000, .f32⟩
  | 113 => ⟨S_, .f32⟩
  | 114 => ⟨S_, .f32⟩
  | 115 => ⟨S2000000, .f32⟩
  | 116 => ⟨S2000000, .f32⟩
  | 117 => ⟨S2000000x1, .f32⟩
  | 118 => ⟨S2000000, .f32⟩
  | 119 => ⟨S_, .f32⟩
  | 120 => ⟨S2000000, .f32⟩
  | 121 => ⟨S2000000x1, .f32⟩
  | 122 => ⟨S2000000, .f32⟩
  | 123 => ⟨S2000000, .f32⟩
  | 124 => ⟨S2000000x1, .f32⟩
  | 125 => ⟨S2000000, .f32⟩
  | 126 => ⟨S2000000x1, .f32⟩
  | 127 => ⟨S2000000x1, .f32⟩
  | _ => ⟨S2000000x3, .f32⟩

abbrev hbmTy0_1 (i : Nat) : BufTy := match i % 128 with
  | 0 => ⟨S2000000x1, .f32⟩
  | 1 => ⟨S2000000x3, .f32⟩
  | 2 => ⟨S2000000x1, .f32⟩
  | 3 => ⟨S2000000, .f32⟩
  | 4 => ⟨S2000000x1, .f32⟩
  | 5 => ⟨S2000000, .f32⟩
  | 6 => ⟨S2000000, .f32⟩
  | 7 => ⟨S2000000x1, .f32⟩
  | 8 => ⟨S2000000x1, .f32⟩
  | 9 => ⟨S2000000x1, .f32⟩
  | 10 => ⟨S2000000x3, .f32⟩
  | 11 => ⟨S2000000x1, .f32⟩
  | 12 => ⟨S2000000, .f32⟩
  | 13 => ⟨S2000000, .f32⟩
  | 14 => ⟨S2000000x1, .f32⟩
  | 15 => ⟨S2000000, .f32⟩
  | 16 => ⟨S2000000x1, .f32⟩
  | 17 => ⟨S2000000x1, .f32⟩
  | 18 => ⟨S2000000x1, .f32⟩
  | 19 => ⟨S2000000x3, .f32⟩
  | 20 => ⟨S2000000x1x3, .f32⟩
  | 21 => ⟨S2000000x1x3, .f32⟩
  | 22 => ⟨S2000000x1x3, .f32⟩
  | 23 => ⟨S2000000x3x3, .f32⟩
  | 24 => ⟨S3x3, .i32⟩
  | 25 => ⟨S3x3, .i32⟩
  | 26 => ⟨S_, .i32⟩
  | 27 => ⟨S3x3, .i32⟩
  | 28 => ⟨S3x3, .i32⟩
  | 29 => ⟨S3x3, .i1⟩
  | 30 => ⟨S3x3, .f32⟩
  | 31 => ⟨S2000000x1x1, .f32⟩
  | 32 => ⟨S2000000x3x3, .f32⟩
  | 33 => ⟨S2000000x3x3, .f32⟩
  | 34 => ⟨S1x3x3, .f32⟩
  | 35 => ⟨S2000000x3x3, .f32⟩
  | 36 => ⟨S2000000x3x3, .f32⟩
  | 37 => ⟨S2000000x1x1, .f32⟩
  | 38 => ⟨S2000000x3x3, .f32⟩
  | 39 => ⟨S2000000x3x3, .f32⟩
  | 40 => ⟨S2000000x3x3, .f32⟩
  | 41 => ⟨S2000000x3x3, .f32⟩
  | 42 => ⟨S2000000x3, .f32⟩
  | 43 => ⟨S2000000x3x3, .f32⟩
  | 44 => ⟨S2000000x3x1, .f32⟩
  | 45 => ⟨S2000000x3x3, .f32⟩
  | 46 => ⟨S2000000x3x3, .f32⟩
  | 47 => ⟨S2000000x3x3, .f32⟩
  | 48 => ⟨S2000000x3x3, .f32⟩
  | 49 => ⟨S2000000x3x1, .f32⟩
  | 50 => ⟨S2000000x3x4, .f32⟩
  | _ => ⟨S2000000x3, .f32⟩

abbrev hbmTy (i : Nat) : BufTy := match i / 128 with
  | 0 => hbmTy0_0 i
  | 1 => hbmTy0_1 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_call2_v0 : Ref sig .tc := ⟨.hbm, 22, rfl⟩
abbrev main_call2_v1 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_call3_v0 : Ref sig .tc := ⟨.hbm, 31, rfl⟩
abbrev main_call3_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_cst_8 : Ref sig .tc := ⟨.hbm, 91, rfl⟩
abbrev main_v69 : Ref sig .tc := ⟨.hbm, 92, rfl⟩
abbrev main_v70 : Ref sig .tc := ⟨.hbm, 93, rfl⟩
abbrev main_cst_9 : Ref sig .tc := ⟨.hbm, 94, rfl⟩
abbrev main_call4_v0 : Ref sig .tc := ⟨.hbm, 95, rfl⟩
abbrev main_call4_v1 : Ref sig .tc := ⟨.hbm, 96, rfl⟩
abbrev main_v71 : Ref sig .tc := ⟨.hbm, 97, rfl⟩
abbrev main_cst_10 : Ref sig .tc := ⟨.hbm, 98, rfl⟩
abbrev main_call5_v0 : Ref sig .tc := ⟨.hbm, 99, rfl⟩
abbrev main_call5_v1 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_11 : Ref sig .tc := ⟨.hbm, 104, rfl⟩
abbrev main_call6_v0 : Ref sig .tc := ⟨.hbm, 105, rfl⟩
abbrev main_call6_v1 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_13 : Ref sig .tc := ⟨.hbm, 113, rfl⟩
abbrev main_call7_v0 : Ref sig .tc := ⟨.hbm, 114, rfl⟩
abbrev main_call7_v1 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_c_15 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩

abbrev nD : Nat := 1
abbrev τ : Topo := Topo.v7x

variable {F : FTy → Type} [FloatOps F]

class Facts₀ : Prop where
  reducesTo_S2000000x3_S2000000_d1 : S2000000x3.ReducesTo [1] S2000000
  h_S_ : 0 < S_.numel
  bcast_S_S2000000 : S_.BroadcastsInDim S2000000 (![] : Fin 0 → Fin S2000000.rank)
  slices_S2000000x3_S2000000x1_0_0 : S2000000x3.Slices ![0, 0] S2000000x1
  shapeCasts_S2000000x1_S2000000 : S2000000x1.ShapeCasts S2000000
  slices_S2000000x3_S2000000x1_0_2 : S2000000x3.Slices ![0, 2] S2000000x1
  slices_S2000000x3_S2000000x1_0_1 : S2000000x3.Slices ![0, 1] S2000000x1
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S2000000x3_S2000000x1x3_0_2 : S2000000x3.BroadcastsInDim S2000000x1x3 (![0, 2] : Fin 2 → Fin S2000000x1x3.rank)
  concatenates_S2000000x1x3_S2000000x1x3_S2000000x1x3_S2000000x3x3_d1 : Shape.Concatenates [S2000000x1x3, S2000000x1x3, S2000000x1x3] S2000000x3x3 1
  bcast_S_S3x3 : S_.BroadcastsInDim S3x3 (![] : Fin 0 → Fin S3x3.rank)
  bcast_S2000000_S2000000x1x1_0 : S2000000.BroadcastsInDim S2000000x1x1 (![0] : Fin 1 → Fin S2000000x1x1.rank)
  bcast_S2000000x1x1_S2000000x3x3_0_1_2 : S2000000x1x1.BroadcastsInDim S2000000x3x3 (![0, 1, 2] : Fin 3 → Fin S2000000x3x3.rank)
  bcast_S3x3_S1x3x3_1_2 : S3x3.BroadcastsInDim S1x3x3 (![1, 2] : Fin 2 → Fin S1x3x3.rank)
  bcast_S1x3x3_S2000000x3x3_0_1_2 : S1x3x3.BroadcastsInDim S2000000x3x3 (![0, 1, 2] : Fin 3 → Fin S2000000x3x3.rank)
  transposes_S2000000x3x3_S2000000x3x3_0_2_1 : S2000000x3x3.Transposes [0, 2, 1] S2000000x3x3
  bcast_S2000000x3_S2000000x3x1_0_1 : S2000000x3.BroadcastsInDim S2000000x3x1 (![0, 1] : Fin 2 → Fin S2000000x3x1.rank)
  bcast_S2000000x3x1_S2000000x3x3_0_1_2 : S2000000x3x1.BroadcastsInDim S2000000x3x3 (![0, 1, 2] : Fin 3 → Fin S2000000x3x3.rank)
  concatenates_S2000000x3x3_S2000000x3x1_S2000000x3x4_d2 : Shape.Concatenates [S2000000x3x3, S2000000x3x1] S2000000x3x4 2
  dot_S2000000x3x3_S2000000x3x3_S2000000x3x3_2_1_1_2_0_0_wf : DotDims.WF S2000000x3x3 S2000000x3x3 S2000000x3x3 [2] [1] [1] [2] [0] [0]

variable [Facts₀]

def dot_S2000000x3x3_S2000000x3x3_S2000000x3x3_2_1_1_2_0_0 : DotDims S2000000x3x3 S2000000x3x3 S2000000x3x3 where
  lhsContracting := [2]
  rhsContracting := [1]
  lhsNonContracting := [1]
  rhsNonContracting := [2]
  lhsBatch := [0]
  rhsBatch := [0]
  wf := dot_S2000000x3x3_S2000000x3x3_S2000000x3x3_2_1_1_2_0_0_wf

class Facts : Prop extends Facts₀ where

variable [Facts]
-- ==== Proof.Spec.lean ====
/-
  The per-sample function both programs compute, on the extended reals.

  A sample carries four 3-vectors: a translation `t`, a rotation vector `r`, a scaling direction `w` and
  log-scales `s`. Its 3×4 result has the translation as last column and, in the first three columns,
  `R(r) · (R(w) · diag(exp s) · R(w)ᵀ)`, where `R(v) = I + a·K + b·K²` is the exponential of the skew matrix `K` of `v`
  (Rodrigues' formula) with `a = sin θ / θ`, `b = (1 - cos θ) / θ²`, `θ² = |v|²`, and the limits `a = 1`, `b = 1/2`
  for `θ` below a threshold.

  Two spellings of that function are stated here:
  * the CLOSED form (`rotC`, `midC`, `mulC`, `outC`): every entry of `R` written out with `K² = v vᵀ - θ² I`, the two
    matrix products written out as three-term sums, associated to the left;
  * the MATRIX form (`rotM`, `midM`, `mulM`, `outM`): `K` as a table of entries, `K²` and the two products as sums
    over `Fin 3`, `θ²` as a sum over `Fin 3` started at the zero word.
  Proof/SpecLaw.lean proves the two equal on real entries.
-/
import Idealize.ShloMosaic.PureOps.Ideal
import Idealize.ShloMosaic.Lib.ValueIdx

noncomputable section

namespace Cert.Spec

open Idealize.ShloMosaic

/-- The f32 words the two programs share, read as extended reals: `0.0`, `1.0`, `0.5` and the threshold `1e-6`. -/
def z0 : EReal := Ideal.ofBits .f32 0x00000000#32
def o1 : EReal := Ideal.ofBits .f32 0x3F800000#32
def hf : EReal := Ideal.ofBits .f32 0x3F000000#32
def tiny : EReal := Ideal.ofBits .f32 0x358637BD#32

/-- Is the angle `√t2` below the threshold? (one bit) -/
def small (t2 : EReal) : BitVec 1 := Ideal.cmp .olt (Ideal.sqrt t2) tiny

/-- `a = sin θ / θ` from `θ²`, and `1` for a small angle (the divisor is replaced by `1` there, so nothing divides by 0). -/
def coefA (t2 : EReal) : EReal :=
  Scalar.select (small t2) o1 (Ideal.div (Ideal.sin (Ideal.sqrt t2)) (Scalar.select (small t2) o1 (Ideal.sqrt t2)))

/-- `b = (1 - cos θ) / θ²` from `θ²`, and `1/2` for a small angle. -/
def coefB (t2 : EReal) : EReal :=
  Scalar.select (small t2) hf (Ideal.div (o1 - Ideal.cos (Ideal.sqrt t2)) (Scalar.select (small t2) o1 t2))

/-! ## The closed form -/

/-- `θ² = v₀² + v₁² + v₂²`, associated to the left. -/
def normSqC (v : Fin 3 → EReal) : EReal := v 0 * v 0 + v 1 * v 1 + v 2 * v 2

/-- The nine entries of `I + a·K + b·(v vᵀ - θ² I)`. -/
def rotC (a b t2 : EReal) (v : Fin 3 → EReal) : Fin 3 → Fin 3 → EReal :=
  ![![o1 + b * (v 0 * v 0 - t2),        (z0 - a) * v 2 + b * (v 0 * v 1),  a * v 1 + b * (v 0 * v 2)],
    ![a * v 2 + b * (v 1 * v 0),         o1 + b * (v 1 * v 1 - t2),         (z0 - a) * v 0 + b * (v 1 * v 2)],
    ![(z0 - a) * v 1 + b * (v 2 * v 0),  a * v 0 + b * (v 2 * v 1),         o1 + b * (v 2 * v 2 - t2)]]

/-- `R(v)`, closed form. -/
def rotOfC (v : Fin 3 → EReal) : Fin 3 → Fin 3 → EReal :=
  rotC (coefA (normSqC v)) (coefB (normSqC v)) (normSqC v) v

/-- `(U · diag D · Uᵀ)ᵢⱼ = Σₖ (Uᵢₖ · Dₖ) · Uⱼₖ`, written out. -/
def midC (U : Fin 3 → Fin 3 → EReal) (D : Fin 3 → EReal) (i j : Fin 3) : EReal :=
  U i 0 * D 0 * U j 0 + U i 1 * D 1 * U j 1 + U i 2 * D 2 * U j 2

/-- `(R · M)ᵢⱼ`, written out. -/
def mulC (R M : Fin 3 → Fin 3 → EReal) (i j : Fin 3) : EReal :=
  R i 0 * M 0 j + R i 1 * M 1 j + R i 2 * M 2 j

/-- One sample's result, closed form: column 3 is the translation. -/
def outC (t r w s : Fin 3 → EReal) (i : Fin 3) (j : Fin 4) : EReal :=
  if h : j.val < 3 then mulC (rotOfC r) (midC (rotOfC w) (fun k => Ideal.exp (s k))) i ⟨j.val, h⟩ else t i

/-! ## The matrix form -/

/-- `θ²` as the sum over the three components, started at the zero word. -/
def normSqM (v : Fin 3 → EReal) : EReal := z0 + ∑ k : Fin 3, v k * v k

/-- The skew matrix of `v`. -/
def skew (v : Fin 3 → EReal) : Fin 3 → Fin 3 → EReal :=
  ![![z0, -(v 2), v 1], ![v 2, z0, -(v 0)], ![-(v 1), v 0, z0]]

/-- The identity matrix's entries. -/
def eye (i j : Fin 3) : EReal := if i = j then 1 else 0

/-- `(I + a·K) + b·K²` entry by entry, `K²` a sum over `Fin 3`. -/
def rotM (a b : EReal) (v : Fin 3 → EReal) (i j : Fin 3) : EReal :=
  (eye i j + a * skew v i j) + b * ∑ k : Fin 3, skew v i k * skew v k j

/-- `R(v)`, matrix form. -/
def rotOfM (v : Fin 3 → EReal) : Fin 3 → Fin 3 → EReal :=
  rotM (coefA (normSqM v)) (coefB (normSqM v)) v

/-- `(U · (diag D · Uᵀ))ᵢⱼ = Σₖ Uᵢₖ · (Dₖ · Uⱼₖ)`. -/
def midM (U : Fin 3 → Fin 3 → EReal) (D : Fin 3 → EReal) (i j : Fin 3) : EReal :=
  ∑ k : Fin 3, U i k * (D k * U j k)

/-- `(R · M)ᵢⱼ = Σₖ Rᵢₖ · Mₖⱼ`. -/
def mulM (R M : Fin 3 → Fin 3 → EReal) (i j : Fin 3) : EReal :=
  ∑ k : Fin 3, R i k * M k j

/-- One sample's result, matrix form. -/
def outM (t r w s : Fin 3 → EReal) (i : Fin 3) (j : Fin 4) : EReal :=
  if h : j.val < 3 then mulM (rotOfM r) (midM (rotOfM w) (fun k => Ideal.exp (s k))) i ⟨j.val, h⟩ else t i

/-! ## The whole arrays -/

open Idealize.ShloMosaic.ValueIdx

/-- Row `n` of a `[2000000, 3]` array, as a 3-vector. -/
def row (x : (⟨2, ![2000000, 3]⟩ : Shape).Idx → EReal) (n : Fin 2000000) : Fin 3 → EReal := fun k => x (ix2 n k)

/-- The `[2000000, 3, 4]` result array of the four `[2000000, 3]` argument arrays, closed form. -/
def arrC (t r w s : (⟨2, ![2000000, 3]⟩ : Shape).Idx → EReal) : (⟨3, ![2000000, 3, 4]⟩ : Shape).Idx → EReal :=
  fun y => outC (row t (y 0)) (row r (y 0)) (row w (y 0)) (row s (y 0)) (y 1) (y 2)

/-- The same, matrix form. -/
def arrM (t r w s : (⟨2, ![2000000, 3]⟩ : Shape).Idx → EReal) : (⟨3, ![2000000, 3, 4]⟩ : Shape).Idx → EReal :=
  fun y => outM (row t (y 0)) (row r (y 0)) (row w (y 0)) (row s (y 0)) (y 1) (y 2)

/-! ## The component-major layout the kernel is launched on -/

/-- A `[2000000, 3]` array padded with the zero word to `2097152 = 16384 · 128` rows, transposed and cut into rows of
    128: entry `(k, r, l)` is sample `128 r + l`'s component `k`, or the zero word past the last sample. -/
def cmaj (x : (⟨2, ![2000000, 3]⟩ : Shape).Idx → EReal) : (⟨3, ![3, 16384, 128]⟩ : Shape).Idx → EReal :=
  fun y => if h : (y 1).val * 128 + (y 2).val < 2000000 then x (ix2 ⟨(y 1).val * 128 + (y 2).val, h⟩ (y 0)) else z0

end Cert.Spec

end
-- ==== Proof.SpecLaw.lean ====
/-
  The closed form and the matrix form of the specification agree on real entries.

  The two matrix products only re-associate and re-index three-term sums, which the extended reals allow without any
  hypothesis. Rodrigues' matrix is different: `I + a·K + b·K²` equals the closed form `I + a·K + b·(v vᵀ - θ² I)` by the
  identity `K² = v vᵀ - θ² I`, which uses distributivity and cancellation, valid on REAL entries only. So the vector's
  components must be real, and so must `a` and `b`: for a real `θ² ≥ 0` the angle is real; below the threshold `a = 1`
  and `b = 1/2`, and from the threshold up the angle (so also `θ²`) is positive — the threshold word is a positive
  real — and the two quotients divide by a nonzero real.
-/
import proofs.«170764_j13958643712058_2_alg».proof.Proof.Spec
import Idealize.ShloMosaic.PureOps.Ideal.Laws
import Idealize.ShloMosaic.Lib.IdealHost

noncomputable section

namespace Cert.Spec

open Idealize.ShloMosaic

/-- The zero word is 0 and the word of `1.0` is 1. -/
theorem z0_eq : z0 = 0 := Ideal.ofBits_zero_f32
theorem o1_eq : o1 = 1 := Ideal.ofBits_one_f32

/-- The word of `0.5` is a real number. -/
theorem hf_real : ∃ x : ℝ, hf = x := by
  refine ⟨(2 ^ 23 + 0 : ℕ) * (2 : ℝ) ^ ((126 : ℤ) - 127 - 23), ?_⟩
  simp [hf, Ideal.ofBits, Ideal.ieee, -EReal.coe_mul]

/-- The threshold word is a positive real number. -/
theorem tiny_pos : ∃ x : ℝ, 0 < x ∧ tiny = x := by
  refine ⟨(2 ^ 23 + 407485 : ℕ) * (2 : ℝ) ^ ((107 : ℤ) - 127 - 23), by positivity, ?_⟩
  simp [tiny, Ideal.ofBits, Ideal.ieee, -EReal.coe_mul]

/-! ## The products: re-association only -/

theorem midC_eq_midM (U : Fin 3 → Fin 3 → EReal) (D : Fin 3 → EReal) : midC U D = midM U D := by
  funext i j; simp only [midC, midM, Fin.sum_univ_three, mul_assoc]

theorem mulC_eq_mulM (R M : Fin 3 → Fin 3 → EReal) : mulC R M = mulM R M := by
  funext i j; simp only [mulC, mulM, Fin.sum_univ_three]

theorem normSqM_eq (v : Fin 3 → EReal) : normSqM v = normSqC v := by
  simp only [normSqM, normSqC, Fin.sum_univ_three, z0_eq, zero_add]

/-! ## The two coefficients are real -/

/-- The angle bit at a real `θ² ≥ 0`: set exactly when `√θ²` is below the threshold. -/
theorem small_coe (x : ℝ) (hx : 0 ≤ x) : small (x : EReal) = BitVec.ofBool (decide (((Real.sqrt x : ℝ) : EReal) < tiny)) := by
  simp only [small, Ideal.cmp, Ideal.sqrt_coe, if_neg (not_lt.mpr hx)]

/-- From the threshold up, the angle is positive. -/
theorem sqrt_pos_of_not_small (x : ℝ) (h : ¬ ((Real.sqrt x : ℝ) : EReal) < tiny) : 0 < Real.sqrt x := by
  obtain ⟨e, he, htiny⟩ := tiny_pos
  rw [htiny, EReal.coe_lt_coe_iff, not_lt] at h
  exact lt_of_lt_of_le he h

theorem coefA_real (x : ℝ) (hx : 0 ≤ x) : ∃ a : ℝ, coefA (x : EReal) = a := by
  unfold coefA
  rw [small_coe x hx]
  by_cases h : ((Real.sqrt x : ℝ) : EReal) < tiny
  · exact ⟨1, by simp [Scalar.select, h, o1_eq]⟩
  · have hp := sqrt_pos_of_not_small x h
    refine ⟨Real.sin (Real.sqrt x) * (1 / Real.sqrt x), ?_⟩
    simp only [Scalar.select, h, decide_false, BitVec.ofBool_false, Ideal.sqrt_coe, if_neg (not_lt.mpr hx), Ideal.sin_coe]
    rw [if_neg (by decide), if_neg (by decide), Ideal.div_coe hp.ne', EReal.coe_mul]

theorem coefB_real (x : ℝ) (hx : 0 ≤ x) : ∃ b : ℝ, coefB (x : EReal) = b := by
  unfold coefB
  rw [small_coe x hx]
  by_cases h : ((Real.sqrt x : ℝ) : EReal) < tiny
  · obtain ⟨y, hy⟩ := hf_real
    exact ⟨y, by simp [Scalar.select, h, hy]⟩
  · have hp := sqrt_pos_of_not_small x h
    have hx0 : x ≠ 0 := fun h0 => by rw [h0, Real.sqrt_zero] at hp; exact lt_irrefl _ hp
    refine ⟨(1 - Real.cos (Real.sqrt x)) * (1 / x), ?_⟩
    simp only [Scalar.select, h, decide_false, BitVec.ofBool_false, Ideal.sqrt_coe, if_neg (not_lt.mpr hx), Ideal.cos_coe, o1_eq]
    rw [if_neg (by decide), if_neg (by decide), Ideal.div_coe hx0]
    norm_cast

/-! ## Rodrigues' matrix: `K² = v vᵀ - θ² I` on real entries -/

theorem rotC_eq_rotM (a b : ℝ) (v : Fin 3 → ℝ) :
    rotC a b (normSqC fun k => (v k : EReal)) (fun k => (v k : EReal)) = rotM a b (fun k => (v k : EReal)) := by
  funext i j
  fin_cases i <;> fin_cases j <;>
    simp [rotC, rotM, skew, eye, normSqC, Fin.sum_univ_three, z0_eq, o1_eq] <;>
    norm_cast <;> ring

theorem rotOfC_eq_rotOfM (v : Fin 3 → ℝ) : rotOfC (fun k => (v k : EReal)) = rotOfM (fun k => (v k : EReal)) := by
  have hn : normSqC (fun k => (v k : EReal)) = ((v 0 * v 0 + v 1 * v 1 + v 2 * v 2 : ℝ) : EReal) := by
    simp only [normSqC]; norm_cast
  have h0 : 0 ≤ v 0 * v 0 + v 1 * v 1 + v 2 * v 2 :=
    add_nonneg (add_nonneg (mul_self_nonneg _) (mul_self_nonneg _)) (mul_self_nonneg _)
  obtain ⟨a, ha⟩ := coefA_real _ h0
  obtain ⟨b, hb⟩ := coefB_real _ h0
  have ha' : coefA (normSqC fun k => (v k : EReal)) = a := by rw [hn]; exact ha
  have hb' : coefB (normSqC fun k => (v k : EReal)) = b := by rw [hn]; exact hb
  unfold rotOfC rotOfM
  rw [normSqM_eq, ha', hb']
  exact rotC_eq_rotM a b v

/-! ## One sample, and the arrays -/

theorem outC_eq_outM (t r w s : Fin 3 → EReal) (hr : ∀ k, ∃ x : ℝ, r k = x) (hw : ∀ k, ∃ x : ℝ, w k = x) :
    outC t r w s = outM t r w s := by
  choose r' hr' using hr
  choose w' hw' using hw
  obtain rfl : r = fun k => (r' k : EReal) := funext hr'
  obtain rfl : w = fun k => (w' k : EReal) := funext hw'
  funext i j
  unfold outC outM
  rw [rotOfC_eq_rotOfM, rotOfC_eq_rotOfM, midC_eq_midM, mulC_eq_mulM]

/-- The closed-form array is the matrix-form array when the rotation vectors and scaling directions are real. -/
theorem arrC_eq_arrM (t r w s : (⟨2, ![2000000, 3]⟩ : Shape).Idx → EReal)
    (hr : ∀ y, ∃ x : ℝ, r y = x) (hw : ∀ y, ∃ x : ℝ, w y = x) : arrC t r w s = arrM t r w s := by
  funext y
  exact congrFun (congrFun (outC_eq_outM _ _ _ _ (fun k => hr _) (fun k => hw _)) _) _

end Cert.Spec

end
-- ==== Proof.LibRealEntry.lean ====
/-
  Finiteness of an extended real, as the comparison a precondition prints.

  On the extended reals |a| = max a (−a) is +∞ at both infinities, so the ordered comparison |a| < +∞ — against the
  binary32 pattern of +∞ — holds exactly of the real numbers.
-/
import Idealize.ShloMosaic.PureOps.Ideal

noncomputable section

namespace Cert.LibRealEntry

open Idealize.ShloMosaic

/-- An extended real whose absolute value compares below the pattern of +∞ is a real number. -/
theorem real_of_abs_lt (a : EReal)
    (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a using EReal.rec with
  | bot => simp [Ideal.cmp] at h
  | coe r => exact ⟨r, rfl⟩
  | top => simp [Ideal.cmp] at h

end Cert.LibRealEntry

end
-- ==== Proof.Finite.lean ====
/-
  What the precondition says of the inputs: every entry of the rotation vectors and of the scaling directions is a real
  number.

  The precondition is the conjunction, over the four argument arrays, of "every entry's absolute value is below +∞"; a
  conjunction of bits is 1 only if each bit is, an all-reduction by `and` is 1 only if every element is, and an extended
  real whose absolute value is below +∞ is a real number.
-/
import proofs.«170764_j13958643712058_2_alg».proof.Defs
import proofs.«170764_j13958643712058_2_alg».proof.Proof.Gen.Pre_finite_inputs
import proofs.«170764_j13958643712058_2_alg».proof.Proof.LibRealEntry
import Idealize.ShloMosaic.Lib.ReduceAll
import Idealize.ShloMosaic.Lib.ValueIdx
import Idealize.ShloMosaic.Lib.IdealHost

noncomputable section

namespace Cert.Finite

open Idealize.ShloMosaic

instance : Subsingleton Cert.Pre_finite_inputs.S_.Idx := ⟨fun a b => funext fun d => d.elim0⟩

/-- One array's conjunct: if the all-reduction of `|a| < +∞` is 1, every entry of `a` is real. -/
theorem real_of_all [Cert.Pre_finite_inputs.Facts] (a : FVec Ideal Cert.Pre_finite_inputs.S2000000x3 .f32)
    (h : Host.reduce IntOp.andi
      (cmpf .olt (Host.absf a) (broadcastInDim Cert.Pre_finite_inputs.S2000000x3 ![] Cert.Pre_finite_inputs.Facts.bcast_S_S2000000x3
        (constant (F := Ideal) Cert.Pre_finite_inputs.S_ .f32 0x7F800000#32)))
      (constantI Cert.Pre_finite_inputs.S_ 1 1#1) Cert.Pre_finite_inputs.Facts.reducesTo_S2000000x3_S_d0_1
      Cert.Pre_finite_inputs.Facts.h_S_ ValueIdx.ix0 = 1#1)
    (y : Cert.Pre_finite_inputs.S2000000x3.Idx) : ∃ x : ℝ, a y = x := by
  have e := Host.reduce_andi_all _ _ _ _ _ h y
  rw [ValueIdx.cmpf_apply, ValueIdx.broadcastInDim_scalar_apply] at e
  exact Cert.LibRealEntry.real_of_abs_lt (a y) e

/-- The precondition gives real rotation vectors (argument 1) and real scaling directions (argument 2). -/
theorem real_of_fn [Cert.Pre_finite_inputs.Facts]
    (a0 a1 a2 a3 : FVec Ideal Cert.Pre_finite_inputs.S2000000x3 .f32)
    (h : Cert.Pre_finite_inputs.fn (F := Ideal) a0 a1 a2 a3 = fun _ => 1#1) :
    (∀ y, ∃ x : ℝ, a1 y = x) ∧ (∀ y, ∃ x : ℝ, a2 y = x) := by
  have h0 := congrFun h ValueIdx.ix0
  dsimp only [Cert.Pre_finite_inputs.fn, Cert.Pre_finite_inputs.fn_part1] at h0
  obtain ⟨h123, _⟩ := IntOp.andi_eq_one.1 h0
  obtain ⟨h12, h3⟩ := IntOp.andi_eq_one.1 h123
  obtain ⟨_, h2⟩ := IntOp.andi_eq_one.1 h12
  exact ⟨real_of_all a1 h2, real_of_all a2 h3⟩

end Cert.Finite

end
-- ==== Proof.BodyPay.lean ====
/-
  The kernel body's named values, read at one index.

  Every value the body computes is a [512,128] slab obtained from the loaded [1,512,128] slabs by pointwise
  arithmetic; the only non-pointwise steps drop the leading unit axis of a loaded slab and add two leading
  unit axes to a stored one. Each lemma here reads one named value at an index from its arguments at that index.
-/
import proofs.«170764_j13958643712058_2_alg».proof.Proof.Gen.KernelIdeal.Skeleton
import proofs.«170764_j13958643712058_2_alg».proof.Proof.Spec
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal.Gen Cert.Spec

/-! ## The two shape casts -/

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-! ## The transcendental vector operations are pointwise -/

theorem vsqrt_apply {s : Shape} {φ : FTy} (a : FVec Ideal s φ) (i : s.Idx) : sqrt a i = Ideal.sqrt (a i) := rfl
theorem vsin_apply {s : Shape} {φ : FTy} (a : FVec Ideal s φ) (i : s.Idx) : sin a i = Ideal.sin (a i) := rfl
theorem vcos_apply {s : Shape} {φ : FTy} (a : FVec Ideal s φ) (i : s.Idx) : cos a i = Ideal.cos (a i) := rfl
theorem vexp_apply {s : Shape} {φ : FTy} (a : FVec Ideal s φ) (i : s.Idx) : exp a i = Ideal.exp (a i) := rfl

/-! ## Dropping the unit axis of a loaded slab -/

theorem pay3_apply (v : Vec Ideal S1x512x128 .f32) (p : Fin 512) (q : Fin 128) :
    k0_pay3 (F := Ideal) v (ix2 p q) = v (ix3 0 p q) :=
  shapeCast_1ab_ab_apply v _ p q
theorem pay4_apply (v : Vec Ideal S1x512x128 .f32) (p : Fin 512) (q : Fin 128) :
    k0_pay4 (F := Ideal) v (ix2 p q) = v (ix3 0 p q) :=
  shapeCast_1ab_ab_apply v _ p q
theorem pay5_apply (v : Vec Ideal S1x512x128 .f32) (p : Fin 512) (q : Fin 128) :
    k0_pay5 (F := Ideal) v (ix2 p q) = v (ix3 0 p q) :=
  shapeCast_1ab_ab_apply v _ p q
theorem pay22_apply (v : Vec Ideal S1x512x128 .f32) (p : Fin 512) (q : Fin 128) :
    k0_pay22 (F := Ideal) v (ix2 p q) = v (ix3 0 p q) :=
  shapeCast_1ab_ab_apply v _ p q
theorem pay23_apply (v : Vec Ideal S1x512x128 .f32) (p : Fin 512) (q : Fin 128) :
    k0_pay23 (F := Ideal) v (ix2 p q) = v (ix3 0 p q) :=
  shapeCast_1ab_ab_apply v _ p q
theorem pay24_apply (v : Vec Ideal S1x512x128 .f32) (p : Fin 512) (q : Fin 128) :
    k0_pay24 (F := Ideal) v (ix2 p q) = v (ix3 0 p q) :=
  shapeCast_1ab_ab_apply v _ p q
theorem pay63_apply (v : Vec Ideal S1x512x128 .f32) (p : Fin 512) (q : Fin 128) :
    k0_pay63 (F := Ideal) v (ix2 p q) = v (ix3 0 p q) :=
  shapeCast_1ab_ab_apply v _ p q
theorem pay64_apply (v : Vec Ideal S1x512x128 .f32) (p : Fin 512) (q : Fin 128) :
    k0_pay64 (F := Ideal) v (ix2 p q) = v (ix3 0 p q) :=
  shapeCast_1ab_ab_apply v _ p q
theorem pay65_apply (v : Vec Ideal S1x512x128 .f32) (p : Fin 512) (q : Fin 128) :
    k0_pay65 (F := Ideal) v (ix2 p q) = v (ix3 0 p q) :=
  shapeCast_1ab_ab_apply v _ p q

/-! ## Adding the two unit axes of a stored slab -/

theorem pay1_apply (v : FVec Ideal S512x128 .f32) (p : Fin 512) (q : Fin 128) :
    k0_pay1 (F := Ideal) v (ix4 0 0 p q) = v (ix2 p q) :=
  shapeCast_ab_11ab_apply v _ 0 0 p q
theorem pay2_apply (v : FVec Ideal S512x128 .f32) (p : Fin 512) (q : Fin 128) :
    k0_pay2 (F := Ideal) v (ix4 0 0 p q) = v (ix2 p q) :=
  shapeCast_ab_11ab_apply v _ 0 0 p q
theorem pay66_apply (v : FVec Ideal S512x128 .f32) (p : Fin 512) (q : Fin 128) :
    k0_pay66 (F := Ideal) v (ix4 0 0 p q) = v (ix2 p q) :=
  shapeCast_ab_11ab_apply v _ 0 0 p q
theorem pay67_apply (v : FVec Ideal S512x128 .f32) (p : Fin 512) (q : Fin 128) :
    k0_pay67 (F := Ideal) v (ix4 0 0 p q) = v (ix2 p q) :=
  shapeCast_ab_11ab_apply v _ 0 0 p q
theorem pay68_apply (v : FVec Ideal S512x128 .f32) (p : Fin 512) (q : Fin 128) :
    k0_pay68 (F := Ideal) v (ix4 0 0 p q) = v (ix2 p q) :=
  shapeCast_ab_11ab_apply v _ 0 0 p q
theorem pay69_apply (v : FVec Ideal S512x128 .f32) (p : Fin 512) (q : Fin 128) :
    k0_pay69 (F := Ideal) v (ix4 0 0 p q) = v (ix2 p q) :=
  shapeCast_ab_11ab_apply v _ 0 0 p q
theorem pay70_apply (v : FVec Ideal S512x128 .f32) (p : Fin 512) (q : Fin 128) :
    k0_pay70 (F := Ideal) v (ix4 0 0 p q) = v (ix2 p q) :=
  shapeCast_ab_11ab_apply v _ 0 0 p q
theorem pay71_apply (v : FVec Ideal S512x128 .f32) (p : Fin 512) (q : Fin 128) :
    k0_pay71 (F := Ideal) v (ix4 0 0 p q) = v (ix2 p q) :=
  shapeCast_ab_11ab_apply v _ 0 0 p q
theorem pay72_apply (v : FVec Ideal S512x128 .f32) (p : Fin 512) (q : Fin 128) :
    k0_pay72 (F := Ideal) v (ix4 0 0 p q) = v (ix2 p q) :=
  shapeCast_ab_11ab_apply v _ 0 0 p q
theorem pay73_apply (v : FVec Ideal S512x128 .f32) (p : Fin 512) (q : Fin 128) :
    k0_pay73 (F := Ideal) v (ix4 0 0 p q) = v (ix2 p q) :=
  shapeCast_ab_11ab_apply v _ 0 0 p q
theorem pay74_apply (v : FVec Ideal S512x128 .f32) (p : Fin 512) (q : Fin 128) :
    k0_pay74 (F := Ideal) v (ix4 0 0 p q) = v (ix2 p q) :=
  shapeCast_ab_11ab_apply v _ 0 0 p q
theorem pay75_apply (v : FVec Ideal S512x128 .f32) (p : Fin 512) (q : Fin 128) :
    k0_pay75 (F := Ideal) v (ix4 0 0 p q) = v (ix2 p q) :=
  shapeCast_ab_11ab_apply v _ 0 0 p q

/-! ## The rotation of the first vector: its slabs are read straight from the loads

`r` is the 3-vector the three loaded slabs hold at `(p, q)`. -/

section Rot1

variable (v0 v2 v4 : Vec Ideal S1x512x128 .f32) (r : Fin 3 → EReal) (p : Fin 512) (q : Fin 128)
  (h0 : v0 (ix3 0 p q) = r 0) (h1 : v2 (ix3 0 p q) = r 1) (h2 : v4 (ix3 0 p q) = r 2)

include h0 h1 h2

theorem pay3_eq : k0_pay3 (F := Ideal) v0 (ix2 p q) = r 0 := (pay3_apply v0 p q).trans h0
theorem pay4_eq : k0_pay4 (F := Ideal) v2 (ix2 p q) = r 1 := (pay4_apply v2 p q).trans h1
theorem pay5_eq : k0_pay5 (F := Ideal) v4 (ix2 p q) = r 2 := (pay5_apply v4 p q).trans h2

/-- The squared angle. -/
theorem pay6_eq : k0_pay6 (F := Ideal) v0 v2 v4 (ix2 p q) = normSqC r := by
  simp only [k0_pay6, addf_apply, mulf_apply, subf_apply, divf_apply, select_apply, cmpf_apply, broadcast_apply, vsqrt_apply, vsin_apply, vcos_apply, vexp_apply, pay3_eq v0 v2 v4 r p q h0 h1 h2, pay4_eq v0 v2 v4 r p q h0 h1 h2, pay5_eq v0 v2 v4 r p q h0 h1 h2]
  rfl

/-- The angle. -/
theorem pay7_eq : k0_pay7 (F := Ideal) v0 v2 v4 (ix2 p q) = Ideal.sqrt (normSqC r) := by
  show Ideal.sqrt (k0_pay6 (F := Ideal) v0 v2 v4 (ix2 p q)) = _
  rw [pay6_eq v0 v2 v4 r p q h0 h1 h2]

/-- The small-angle bit. -/
theorem pay8_eq : k0_pay8 (F := Ideal) v0 v2 v4 (ix2 p q) = small (normSqC r) := by
  show Ideal.cmp .olt (k0_pay7 (F := Ideal) v0 v2 v4 (ix2 p q)) tiny = _
  rw [pay7_eq v0 v2 v4 r p q h0 h1 h2]
  rfl

/-- `sin θ / θ`. -/
theorem pay9_eq : k0_pay9 (F := Ideal) v0 v2 v4 (ix2 p q) = coefA (normSqC r) := by
  simp only [k0_pay9, addf_apply, mulf_apply, subf_apply, divf_apply, select_apply, cmpf_apply, broadcast_apply, vsqrt_apply, vsin_apply, vcos_apply, vexp_apply, pay7_eq v0 v2 v4 r p q h0 h1 h2, pay8_eq v0 v2 v4 r p q h0 h1 h2]
  rfl

/-- `(1 - cos θ) / θ²`. -/
theorem pay10_eq : k0_pay10 (F := Ideal) v0 v2 v4 (ix2 p q) = coefB (normSqC r) := by
  simp only [k0_pay10, addf_apply, mulf_apply, subf_apply, divf_apply, select_apply, cmpf_apply, broadcast_apply, vsqrt_apply, vsin_apply, vcos_apply, vexp_apply, pay6_eq v0 v2 v4 r p q h0 h1 h2, pay7_eq v0 v2 v4 r p q h0 h1 h2, pay8_eq v0 v2 v4 r p q h0 h1 h2]
  rfl

theorem pay11_eq : k0_pay11 (F := Ideal) v0 v2 v4 (ix2 p q) = rotOfC r 0 0 := by
  simp only [k0_pay11, addf_apply, mulf_apply, subf_apply, divf_apply, select_apply, cmpf_apply, broadcast_apply, vsqrt_apply, vsin_apply, vcos_apply, vexp_apply, pay3_eq v0 v2 v4 r p q h0 h1 h2, pay6_eq v0 v2 v4 r p q h0 h1 h2, pay10_eq v0 v2 v4 r p q h0 h1 h2]
  rfl

theorem pay12_eq : k0_pay12 (F := Ideal) v0 v2 v4 (ix2 p q) = rotOfC r 0 1 := by
  simp only [k0_pay12, addf_apply, mulf_apply, subf_apply, divf_apply, select_apply, cmpf_apply, broadcast_apply, vsqrt_apply, vsin_apply, vcos_apply, vexp_apply, pay3_eq v0 v2 v4 r p q h0 h1 h2, pay4_eq v0 v2 v4 r p q h0 h1 h2, pay5_eq v0 v2 v4 r p q h0 h1 h2, pay9_eq v0 v2 v4 r p q h0 h1 h2, pay10_eq v0 v2 v4 r p q h0 h1 h2]
  rfl

theorem pay15_eq : k0_pay15 (F := Ideal) (k0_pay13 v0 v2 v4) (k0_pay14 v0 v2 v4) (ix2 p q) = rotOfC r 0 2 := by
  simp only [k0_pay15, k0_pay13, k0_pay14, addf_apply, mulf_apply, subf_apply, divf_apply, select_apply, cmpf_apply, broadcast_apply, vsqrt_apply, vsin_apply, vcos_apply, vexp_apply, pay3_eq v0 v2 v4 r p q h0 h1 h2, pay4_eq v0 v2 v4 r p q h0 h1 h2, pay5_eq v0 v2 v4 r p q h0 h1 h2, pay9_eq v0 v2 v4 r p q h0 h1 h2, pay10_eq v0 v2 v4 r p q h0 h1 h2]
  rfl

theorem pay16_eq : k0_pay16 (F := Ideal) (k0_pay3 v0) (k0_pay4 v2) (k0_pay5 v4) (k0_pay9 v0 v2 v4) (k0_pay10 v0 v2 v4) (ix2 p q)
    = rotOfC r 1 0 := by
  simp only [k0_pay16, addf_apply, mulf_apply, subf_apply, divf_apply, select_apply, cmpf_apply, broadcast_apply, vsqrt_apply, vsin_apply, vcos_apply, vexp_apply, pay3_eq v0 v2 v4 r p q h0 h1 h2, pay4_eq v0 v2 v4 r p q h0 h1 h2, pay5_eq v0 v2 v4 r p q h0 h1 h2, pay9_eq v0 v2 v4 r p q h0 h1 h2, pay10_eq v0 v2 v4 r p q h0 h1 h2]
  rfl

theorem pay17_eq : k0_pay17 (F := Ideal) (k0_pay4 v2) (k0_pay6 v0 v2 v4) (k0_pay10 v0 v2 v4) (ix2 p q) = rotOfC r 1 1 := by
  simp only [k0_pay17, addf_apply, mulf_apply, subf_apply, divf_apply, select_apply, cmpf_apply, broadcast_apply, vsqrt_apply, vsin_apply, vcos_apply, vexp_apply, pay4_eq v0 v2 v4 r p q h0 h1 h2, pay6_eq v0 v2 v4 r p q h0 h1 h2, pay10_eq v0 v2 v4 r p q h0 h1 h2]
  rfl

theorem pay18_eq : k0_pay18 (F := Ideal) (k0_pay3 v0) (k0_pay4 v2) (k0_pay5 v4) (k0_pay9 v0 v2 v4) (k0_pay10 v0 v2 v4) (ix2 p q)
    = rotOfC r 1 2 := by
  simp only [k0_pay18, addf_apply, mulf_apply, subf_apply, divf_apply, select_apply, cmpf_apply, broadcast_apply, vsqrt_apply, vsin_apply, vcos_apply, vexp_apply, pay3_eq v0 v2 v4 r p q h0 h1 h2, pay4_eq v0 v2 v4 r p q h0 h1 h2, pay5_eq v0 v2 v4 r p q h0 h1 h2, pay9_eq v0 v2 v4 r p q h0 h1 h2, pay10_eq v0 v2 v4 r p q h0 h1 h2]
  rfl

theorem pay19_eq : k0_pay19 (F := Ideal) (k0_pay3 v0) (k0_pay4 v2) (k0_pay5 v4) (k0_pay9 v0 v2 v4) (k0_pay10 v0 v2 v4) (ix2 p q)
    = rotOfC r 2 0 := by
  simp only [k0_pay19, addf_apply, mulf_apply, subf_apply, divf_apply, select_apply, cmpf_apply, broadcast_apply, vsqrt_apply, vsin_apply, vcos_apply, vexp_apply, pay3_eq v0 v2 v4 r p q h0 h1 h2, pay4_eq v0 v2 v4 r p q h0 h1 h2, pay5_eq v0 v2 v4 r p q h0 h1 h2, pay9_eq v0 v2 v4 r p q h0 h1 h2, pay10_eq v0 v2 v4 r p q h0 h1 h2]
  rfl

theorem pay20_eq : k0_pay20 (F := Ideal) (k0_pay3 v0) (k0_pay4 v2) (k0_pay5 v4) (k0_pay9 v0 v2 v4) (k0_pay10 v0 v2 v4) (ix2 p q)
    = rotOfC r 2 1 := by
  simp only [k0_pay20, addf_apply, mulf_apply, subf_apply, divf_apply, select_apply, cmpf_apply, broadcast_apply, vsqrt_apply, vsin_apply, vcos_apply, vexp_apply, pay3_eq v0 v2 v4 r p q h0 h1 h2, pay4_eq v0 v2 v4 r p q h0 h1 h2, pay5_eq v0 v2 v4 r p q h0 h1 h2, pay9_eq v0 v2 v4 r p q h0 h1 h2, pay10_eq v0 v2 v4 r p q h0 h1 h2]
  rfl

theorem pay21_eq : k0_pay21 (F := Ideal) (k0_pay5 v4) (k0_pay6 v0 v2 v4) (k0_pay10 v0 v2 v4) (ix2 p q) = rotOfC r 2 2 := by
  simp only [k0_pay21, addf_apply, mulf_apply, subf_apply, divf_apply, select_apply, cmpf_apply, broadcast_apply, vsqrt_apply, vsin_apply, vcos_apply, vexp_apply, pay5_eq v0 v2 v4 r p q h0 h1 h2, pay6_eq v0 v2 v4 r p q h0 h1 h2, pay10_eq v0 v2 v4 r p q h0 h1 h2]
  rfl

end Rot1

/-! ## The second vector's slabs, squared angle, angle and small-angle bit, from its loads -/

section Rot2Head

variable (v73 v75 v77 : Vec Ideal S1x512x128 .f32) (w : Fin 3 → EReal) (p : Fin 512) (q : Fin 128)
  (h0 : v73 (ix3 0 p q) = w 0) (h1 : v75 (ix3 0 p q) = w 1) (h2 : v77 (ix3 0 p q) = w 2)

include h0 h1 h2

theorem pay22_eq : k0_pay22 (F := Ideal) v73 (ix2 p q) = w 0 := (pay22_apply v73 p q).trans h0
theorem pay23_eq : k0_pay23 (F := Ideal) v75 (ix2 p q) = w 1 := (pay23_apply v75 p q).trans h1
theorem pay24_eq : k0_pay24 (F := Ideal) v77 (ix2 p q) = w 2 := (pay24_apply v77 p q).trans h2

/-- The squared angle. -/
theorem pay25_eq : k0_pay25 (F := Ideal) v73 v75 v77 (ix2 p q) = normSqC w := by
  simp only [k0_pay25, addf_apply, mulf_apply, subf_apply, divf_apply, select_apply, cmpf_apply, broadcast_apply, vsqrt_apply, vsin_apply, vcos_apply, vexp_apply, pay22_eq v73 v75 v77 w p q h0 h1 h2, pay23_eq v73 v75 v77 w p q h0 h1 h2, pay24_eq v73 v75 v77 w p q h0 h1 h2]
  rfl

/-- The angle. -/
theorem pay26_eq : k0_pay26 (F := Ideal) v73 v75 v77 (ix2 p q) = Ideal.sqrt (normSqC w) := by
  show Ideal.sqrt (k0_pay25 (F := Ideal) v73 v75 v77 (ix2 p q)) = _
  rw [pay25_eq v73 v75 v77 w p q h0 h1 h2]

/-- The small-angle bit. -/
theorem pay27_eq : k0_pay27 (F := Ideal) v73 v75 v77 (ix2 p q) = small (normSqC w) := by
  show Ideal.cmp .olt (k0_pay26 (F := Ideal) v73 v75 v77 (ix2 p q)) tiny = _
  rw [pay26_eq v73 v75 v77 w p q h0 h1 h2]
  rfl

end Rot2Head

/-! ## The rotation of the second vector: its slabs, squared angle, angle and small-angle bit arrive as values

`w` is the 3-vector the three slabs hold at the index `y`. -/

section Rot2

variable (v74 v76 v78 v83 v84 : FVec Ideal S512x128 .f32) (v86 : IVec S512x128 1) (w : Fin 3 → EReal) (y : S512x128.Idx)
  (h0 : v74 y = w 0) (h1 : v76 y = w 1) (h2 : v78 y = w 2)
  (h3 : v83 y = normSqC w) (h4 : v84 y = Ideal.sqrt (normSqC w)) (h6 : v86 y = small (normSqC w))

include h0 h1 h2 h3 h4 h6

/-- `sin θ / θ`. -/
theorem pay28_eq : k0_pay28 (F := Ideal) v84 v86 (Scalar.ofBits .f32 0x3F800000#32) y = coefA (normSqC w) := by
  simp only [k0_pay28, addf_apply, mulf_apply, subf_apply, divf_apply, select_apply, cmpf_apply, broadcast_apply, vsqrt_apply, vsin_apply, vcos_apply, vexp_apply, h4, h6]
  rfl

/-- `(1 - cos θ) / θ²`. -/
theorem pay29_eq : k0_pay29 (F := Ideal) v83 v84 v86 y = coefB (normSqC w) := by
  simp only [k0_pay29, addf_apply, mulf_apply, subf_apply, divf_apply, select_apply, cmpf_apply, broadcast_apply, vsqrt_apply, vsin_apply, vcos_apply, vexp_apply, h3, h4, h6]
  rfl

theorem pay30_eq : k0_pay30 (F := Ideal) v74 v83 v84 v86 y = rotOfC w 0 0 := by
  simp only [k0_pay30, addf_apply, mulf_apply, subf_apply, divf_apply, select_apply, cmpf_apply, broadcast_apply, vsqrt_apply, vsin_apply, vcos_apply, vexp_apply, pay29_eq v74 v76 v78 v83 v84 v86 w y h0 h1 h2 h3 h4 h6, h0, h3]
  rfl

theorem pay31_eq : k0_pay31 (F := Ideal) v74 v76 v78 v83 v84 v86 (Scalar.ofBits .f32 0x3F800000#32) y = rotOfC w 0 1 := by
  simp only [k0_pay31, addf_apply, mulf_apply, subf_apply, divf_apply, select_apply, cmpf_apply, broadcast_apply, vsqrt_apply, vsin_apply, vcos_apply, vexp_apply, pay28_eq v74 v76 v78 v83 v84 v86 w y h0 h1 h2 h3 h4 h6, pay29_eq v74 v76 v78 v83 v84 v86 w y h0 h1 h2 h3 h4 h6, h0, h1, h2]
  rfl

theorem pay32_eq : k0_pay32 (F := Ideal) v74 v76 v78 v83 v84 v86 (Scalar.ofBits .f32 0x3F800000#32) y = rotOfC w 0 2 := by
  simp only [k0_pay32, addf_apply, mulf_apply, subf_apply, divf_apply, select_apply, cmpf_apply, broadcast_apply, vsqrt_apply, vsin_apply, vcos_apply, vexp_apply, pay28_eq v74 v76 v78 v83 v84 v86 w y h0 h1 h2 h3 h4 h6, pay29_eq v74 v76 v78 v83 v84 v86 w y h0 h1 h2 h3 h4 h6, h0, h1, h2]
  rfl

theorem pay33_eq : k0_pay33 (F := Ideal) v74 v76 v78 v83 v84 v86 (Scalar.ofBits .f32 0x3F800000#32) y = rotOfC w 1 0 := by
  simp only [k0_pay33, addf_apply, mulf_apply, subf_apply, divf_apply, select_apply, cmpf_apply, broadcast_apply, vsqrt_apply, vsin_apply, vcos_apply, vexp_apply, pay28_eq v74 v76 v78 v83 v84 v86 w y h0 h1 h2 h3 h4 h6, pay29_eq v74 v76 v78 v83 v84 v86 w y h0 h1 h2 h3 h4 h6, h0, h1, h2]
  rfl

theorem pay34_eq : k0_pay34 (F := Ideal) v76 v83 v84 v86 y = rotOfC w 1 1 := by
  simp only [k0_pay34, addf_apply, mulf_apply, subf_apply, divf_apply, select_apply, cmpf_apply, broadcast_apply, vsqrt_apply, vsin_apply, vcos_apply, vexp_apply, pay29_eq v74 v76 v78 v83 v84 v86 w y h0 h1 h2 h3 h4 h6, h1, h3]
  rfl

theorem pay35_eq : k0_pay35 (F := Ideal) v74 v76 v78 v83 v84 v86 (Scalar.ofBits .f32 0x3F800000#32) y = rotOfC w 1 2 := by
  simp only [k0_pay35, addf_apply, mulf_apply, subf_apply, divf_apply, select_apply, cmpf_apply, broadcast_apply, vsqrt_apply, vsin_apply, vcos_apply, vexp_apply, pay28_eq v74 v76 v78 v83 v84 v86 w y h0 h1 h2 h3 h4 h6, pay29_eq v74 v76 v78 v83 v84 v86 w y h0 h1 h2 h3 h4 h6, h0, h1, h2]
  rfl

theorem pay36_eq : k0_pay36 (F := Ideal) v74 v76 v78 v83 v84 v86 (Scalar.ofBits .f32 0x3F800000#32) y = rotOfC w 2 0 := by
  simp only [k0_pay36, addf_apply, mulf_apply, subf_apply, divf_apply, select_apply, cmpf_apply, broadcast_apply, vsqrt_apply, vsin_apply, vcos_apply, vexp_apply, pay28_eq v74 v76 v78 v83 v84 v86 w y h0 h1 h2 h3 h4 h6, pay29_eq v74 v76 v78 v83 v84 v86 w y h0 h1 h2 h3 h4 h6, h0, h1, h2]
  rfl

theorem pay38_eq : k0_pay38 (F := Ideal) v76 v78 (k0_pay29 v83 v84 v86) (k0_pay37 v74 v84 v86 (Scalar.ofBits .f32 0x3F800000#32)) y = rotOfC w 2 1 := by
  simp only [k0_pay38, k0_pay37, addf_apply, mulf_apply, subf_apply, divf_apply, select_apply, cmpf_apply, broadcast_apply, vsqrt_apply, vsin_apply, vcos_apply, vexp_apply, pay28_eq v74 v76 v78 v83 v84 v86 w y h0 h1 h2 h3 h4 h6, pay29_eq v74 v76 v78 v83 v84 v86 w y h0 h1 h2 h3 h4 h6, h0, h1, h2]
  rfl

theorem pay39_eq : k0_pay39 (F := Ideal) v78 v83 (k0_pay29 v83 v84 v86) y = rotOfC w 2 2 := by
  simp only [k0_pay39, addf_apply, mulf_apply, subf_apply, divf_apply, select_apply, cmpf_apply, broadcast_apply, vsqrt_apply, vsin_apply, vcos_apply, vexp_apply, pay29_eq v74 v76 v78 v83 v84 v86 w y h0 h1 h2 h3 h4 h6, h2, h3]
  rfl

end Rot2

/-! ## The exponentials -/

theorem pay40_apply (v : Vec Ideal S1x512x128 .f32) (p : Fin 512) (q : Fin 128) :
    k0_pay40 (F := Ideal) v (ix2 p q) = Ideal.exp (v (ix3 0 p q)) :=
  congrArg Ideal.exp (shapeCast_1ab_ab_apply v _ p q)
theorem pay41_apply (v : Vec Ideal S1x512x128 .f32) (p : Fin 512) (q : Fin 128) :
    k0_pay41 (F := Ideal) v (ix2 p q) = Ideal.exp (v (ix3 0 p q)) :=
  congrArg Ideal.exp (shapeCast_1ab_ab_apply v _ p q)
theorem pay42_apply (v : Vec Ideal S1x512x128 .f32) (p : Fin 512) (q : Fin 128) :
    k0_pay42 (F := Ideal) v (ix2 p q) = Ideal.exp (v (ix3 0 p q)) :=
  congrArg Ideal.exp (shapeCast_1ab_ab_apply v _ p q)

/-! ## The two matrix products: every entry is a three-term sum of products of its arguments, pointwise -/

section Products

variable (y : S512x128.Idx)

theorem pay43_apply (v105 : FVec Ideal S512x128 .f32) (v111 : FVec Ideal S512x128 .f32) (v115 : FVec Ideal S512x128 .f32) (v146 v149 v152 : Vec Ideal S1x512x128 .f32) :
    k0_pay43 (F := Ideal) v105 v111 v115 v146 v149 v152 y
      = v105 y * k0_pay40 v146 y * v105 y + v111 y * k0_pay41 v149 y * v111 y + v115 y * k0_pay42 v152 y * v115 y := rfl
theorem pay44_apply (v105 : FVec Ideal S512x128 .f32) (v111 : FVec Ideal S512x128 .f32) (v115 : FVec Ideal S512x128 .f32) (v119 : FVec Ideal S512x128 .f32) (v124 : FVec Ideal S512x128 .f32) (v130 : FVec Ideal S512x128 .f32) (v146 v149 v152 : Vec Ideal S1x512x128 .f32) :
    k0_pay44 (F := Ideal) v105 v111 v115 v119 v124 v130 v146 v149 v152 y
      = v105 y * k0_pay40 v146 y * v119 y + v111 y * k0_pay41 v149 y * v124 y + v115 y * k0_pay42 v152 y * v130 y := rfl
theorem pay45_apply (v76 : FVec Ideal S512x128 .f32) (v78 : FVec Ideal S512x128 .f32) (v83 : FVec Ideal S512x128 .f32) (v100 : FVec Ideal S512x128 .f32) (v105 : FVec Ideal S512x128 .f32) (v111 : FVec Ideal S512x128 .f32) (v115 : FVec Ideal S512x128 .f32) (v136 : FVec Ideal S512x128 .f32) (v137 : FVec Ideal S512x128 .f32) (v146 v149 v152 : Vec Ideal S1x512x128 .f32) :
    k0_pay45 (F := Ideal) v76 v78 v83 v100 v105 v111 v115 v136 v137 v146 v149 v152 y
      = v105 y * k0_pay40 v146 y * v136 y + v111 y * k0_pay41 v149 y * k0_pay38 v76 v78 v100 v137 y
        + v115 y * k0_pay42 v152 y * k0_pay39 v78 v83 v100 y := rfl
theorem pay46_apply (v105 : FVec Ideal S512x128 .f32) (v111 : FVec Ideal S512x128 .f32) (v115 : FVec Ideal S512x128 .f32) (v119 : FVec Ideal S512x128 .f32) (v124 : FVec Ideal S512x128 .f32) (v130 : FVec Ideal S512x128 .f32) (v146 v149 v152 : Vec Ideal S1x512x128 .f32) :
    k0_pay46 (F := Ideal) v105 v111 v115 v119 v124 v130 v146 v149 v152 y
      = v119 y * k0_pay40 v146 y * v105 y + v124 y * k0_pay41 v149 y * v111 y + v130 y * k0_pay42 v152 y * v115 y := rfl
theorem pay47_apply (v119 : FVec Ideal S512x128 .f32) (v146 : Vec Ideal S1x512x128 .f32) :
    k0_pay47 (F := Ideal) v119 v146 y = v119 y * k0_pay40 v146 y := rfl
theorem pay48_apply (v119 : FVec Ideal S512x128 .f32) (v124 : FVec Ideal S512x128 .f32) (v130 : FVec Ideal S512x128 .f32) (v151 : FVec Ideal S512x128 .f32) (v154 : FVec Ideal S512x128 .f32) (v187 : FVec Ideal S512x128 .f32) :
    k0_pay48 (F := Ideal) v119 v124 v130 v151 v154 v187 y
      = v187 y * v119 y + v124 y * v151 y * v124 y + v130 y * v154 y * v130 y := rfl
theorem pay49_apply (v119 : FVec Ideal S512x128 .f32) (v124 : FVec Ideal S512x128 .f32) (v130 : FVec Ideal S512x128 .f32) (v136 : FVec Ideal S512x128 .f32) (v140 : FVec Ideal S512x128 .f32) (v145 : FVec Ideal S512x128 .f32) (v148 : FVec Ideal S512x128 .f32) (v151 : FVec Ideal S512x128 .f32) (v154 : FVec Ideal S512x128 .f32) :
    k0_pay49 (F := Ideal) v119 v124 v130 v136 v140 v145 v148 v151 v154 y
      = v119 y * v148 y * v136 y + v124 y * v151 y * v140 y + v130 y * v154 y * v145 y := rfl
theorem pay50_apply (v105 : FVec Ideal S512x128 .f32) (v111 : FVec Ideal S512x128 .f32) (v115 : FVec Ideal S512x128 .f32) (v136 : FVec Ideal S512x128 .f32) (v140 : FVec Ideal S512x128 .f32) (v145 : FVec Ideal S512x128 .f32) (v148 : FVec Ideal S512x128 .f32) (v151 : FVec Ideal S512x128 .f32) (v154 : FVec Ideal S512x128 .f32) :
    k0_pay50 (F := Ideal) v105 v111 v115 v136 v140 v145 v148 v151 v154 y
      = v136 y * v148 y * v105 y + v140 y * v151 y * v111 y + v145 y * v154 y * v115 y := rfl
theorem pay51_apply (v119 : FVec Ideal S512x128 .f32) (v124 : FVec Ideal S512x128 .f32) (v130 : FVec Ideal S512x128 .f32) (v136 : FVec Ideal S512x128 .f32) (v140 : FVec Ideal S512x128 .f32) (v145 : FVec Ideal S512x128 .f32) (v148 : FVec Ideal S512x128 .f32) (v151 : FVec Ideal S512x128 .f32) (v154 : FVec Ideal S512x128 .f32) :
    k0_pay51 (F := Ideal) v119 v124 v130 v136 v140 v145 v148 v151 v154 y
      = v136 y * v148 y * v119 y + v140 y * v151 y * v124 y + v145 y * v154 y * v130 y := rfl
theorem pay52_apply (v136 : FVec Ideal S512x128 .f32) (v140 : FVec Ideal S512x128 .f32) (v145 : FVec Ideal S512x128 .f32) (v148 : FVec Ideal S512x128 .f32) (v151 : FVec Ideal S512x128 .f32) (v154 : FVec Ideal S512x128 .f32) :
    k0_pay52 (F := Ideal) v136 v140 v145 v148 v151 v154 y
      = v136 y * v148 y * v136 y + v140 y * v151 y * v140 y + v145 y * v154 y * v145 y := rfl

theorem pay53_apply (v32 : FVec Ideal S512x128 .f32) (v38 : FVec Ideal S512x128 .f32) (v42 : FVec Ideal S512x128 .f32) (v105 : FVec Ideal S512x128 .f32) (v111 : FVec Ideal S512x128 .f32) (v115 : FVec Ideal S512x128 .f32) (v136 : FVec Ideal S512x128 .f32) (v140 : FVec Ideal S512x128 .f32) (v145 : FVec Ideal S512x128 .f32) (v148 : FVec Ideal S512x128 .f32) (v151 : FVec Ideal S512x128 .f32) (v154 : FVec Ideal S512x128 .f32) (v162 : FVec Ideal S512x128 .f32) (v186 : FVec Ideal S512x128 .f32) :
    k0_pay53 (F := Ideal) v32 v38 v42 v105 v111 v115 v136 v140 v145 v148 v151 v154 v162 v186 y
      = v32 y * v162 y + v38 y * v186 y + v42 y * k0_pay50 v105 v111 v115 v136 v140 v145 v148 v151 v154 y := rfl
theorem pay54_apply (v32 : FVec Ideal S512x128 .f32) (v38 : FVec Ideal S512x128 .f32) (v42 : FVec Ideal S512x128 .f32) (v119 : FVec Ideal S512x128 .f32) (v124 : FVec Ideal S512x128 .f32) (v130 : FVec Ideal S512x128 .f32) (v136 : FVec Ideal S512x128 .f32) (v140 : FVec Ideal S512x128 .f32) (v145 : FVec Ideal S512x128 .f32) (v148 : FVec Ideal S512x128 .f32) (v151 : FVec Ideal S512x128 .f32) (v154 : FVec Ideal S512x128 .f32) (v170 : FVec Ideal S512x128 .f32) (v187 : FVec Ideal S512x128 .f32) :
    k0_pay54 (F := Ideal) v32 v38 v42 v119 v124 v130 v136 v140 v145 v148 v151 v154 v170 v187 y
      = v32 y * v170 y + v38 y * k0_pay48 v119 v124 v130 v151 v154 v187 y
        + v42 y * k0_pay51 v119 v124 v130 v136 v140 v145 v148 v151 v154 y := rfl
theorem pay55_apply (v32 : FVec Ideal S512x128 .f32) (v38 : FVec Ideal S512x128 .f32) (v42 : FVec Ideal S512x128 .f32) (v119 : FVec Ideal S512x128 .f32) (v124 : FVec Ideal S512x128 .f32) (v130 : FVec Ideal S512x128 .f32) (v136 : FVec Ideal S512x128 .f32) (v140 : FVec Ideal S512x128 .f32) (v145 : FVec Ideal S512x128 .f32) (v148 : FVec Ideal S512x128 .f32) (v151 : FVec Ideal S512x128 .f32) (v154 : FVec Ideal S512x128 .f32) (v178 : FVec Ideal S512x128 .f32) :
    k0_pay55 (F := Ideal) v32 v38 v42 v119 v124 v130 v136 v140 v145 v148 v151 v154 v178 y
      = v32 y * v178 y + v38 y * k0_pay49 v119 v124 v130 v136 v140 v145 v148 v151 v154 y
        + v42 y * k0_pay52 v136 v140 v145 v148 v151 v154 y := rfl
theorem pay56_apply (v46 : FVec Ideal S512x128 .f32) (v51 : FVec Ideal S512x128 .f32) (v57 : FVec Ideal S512x128 .f32) (v105 : FVec Ideal S512x128 .f32) (v111 : FVec Ideal S512x128 .f32) (v115 : FVec Ideal S512x128 .f32) (v136 : FVec Ideal S512x128 .f32) (v140 : FVec Ideal S512x128 .f32) (v145 : FVec Ideal S512x128 .f32) (v148 : FVec Ideal S512x128 .f32) (v151 : FVec Ideal S512x128 .f32) (v154 : FVec Ideal S512x128 .f32) (v162 : FVec Ideal S512x128 .f32) (v186 : FVec Ideal S512x128 .f32) :
    k0_pay56 (F := Ideal) v46 v51 v57 v105 v111 v115 v136 v140 v145 v148 v151 v154 v162 v186 y
      = v46 y * v162 y + v51 y * v186 y + v57 y * k0_pay50 v105 v111 v115 v136 v140 v145 v148 v151 v154 y := rfl
theorem pay57_apply (v46 : FVec Ideal S512x128 .f32) (v170 : FVec Ideal S512x128 .f32) : k0_pay57 (F := Ideal) v46 v170 y = v46 y * v170 y := rfl
theorem pay58_apply (v51 : FVec Ideal S512x128 .f32) (v57 : FVec Ideal S512x128 .f32) (v194 : FVec Ideal S512x128 .f32) (v218 : FVec Ideal S512x128 .f32) (v247 : FVec Ideal S512x128 .f32) :
    k0_pay58 (F := Ideal) v51 v57 v194 v218 v247 y = v247 y + v51 y * v194 y + v57 y * v218 y := rfl
theorem pay59_apply (v46 : FVec Ideal S512x128 .f32) (v51 : FVec Ideal S512x128 .f32) (v57 : FVec Ideal S512x128 .f32) (v178 : FVec Ideal S512x128 .f32) (v202 : FVec Ideal S512x128 .f32) (v226 : FVec Ideal S512x128 .f32) :
    k0_pay59 (F := Ideal) v46 v51 v57 v178 v202 v226 y = v46 y * v178 y + v51 y * v202 y + v57 y * v226 y := rfl
theorem pay60_apply (v63 : FVec Ideal S512x128 .f32) (v67 : FVec Ideal S512x128 .f32) (v72 : FVec Ideal S512x128 .f32) (v162 : FVec Ideal S512x128 .f32) (v186 : FVec Ideal S512x128 .f32) (v210 : FVec Ideal S512x128 .f32) :
    k0_pay60 (F := Ideal) v63 v67 v72 v162 v186 v210 y = v63 y * v162 y + v67 y * v186 y + v72 y * v210 y := rfl
theorem pay61_apply (v63 : FVec Ideal S512x128 .f32) (v67 : FVec Ideal S512x128 .f32) (v72 : FVec Ideal S512x128 .f32) (v170 : FVec Ideal S512x128 .f32) (v194 : FVec Ideal S512x128 .f32) (v218 : FVec Ideal S512x128 .f32) :
    k0_pay61 (F := Ideal) v63 v67 v72 v170 v194 v218 y = v63 y * v170 y + v67 y * v194 y + v72 y * v218 y := rfl
theorem pay62_apply (v63 : FVec Ideal S512x128 .f32) (v67 : FVec Ideal S512x128 .f32) (v72 : FVec Ideal S512x128 .f32) (v178 : FVec Ideal S512x128 .f32) (v202 : FVec Ideal S512x128 .f32) (v226 : FVec Ideal S512x128 .f32) :
    k0_pay62 (F := Ideal) v63 v67 v72 v178 v202 v226 y = v63 y * v178 y + v67 y * v202 y + v72 y * v226 y := rfl

end Products

end Cert.KernelIdeal.Body

end
-- ==== Proof.Body.lean ====
/-
  The kernel body at one index.

  The output window's staging buffer after the body is written by twelve stores, one [1,1,512,128] slab per entry
  (i, j) of the 3×4 result. Read at `(i, j, p, q)` it is the per-sample function of the specification applied to
  the four 3-vectors the input windows hold at `(·, p, q)`: the loads read the vectors' components, the body's
  arithmetic is the closed form of the specification operation by operation, and the stores tile the buffer.
-/
import proofs.«170764_j13958643712058_2_alg».proof.Proof.BodyPay
import proofs.«170764_j13958643712058_2_alg».proof.Proof.Gen.KernelIdeal.Frame

noncomputable section

namespace Cert.KernelIdeal.Body

open Idealize.ShloMosaic Idealize.ShloMosaic.ValueIdx Cert.KernelIdeal.Gen Cert.Spec

/-! ## The loads: component `k`'s slab of a window's block -/

theorem ld0 (x : Vec Ideal S3x512x128 .f32) (p : Fin 512) (q : Fin 128) : View.ld x r0_0 (ix3 0 p q) = x (ix3 0 p q) :=
  congrArg x (funext fun a => Fin.ext (by
    match a with
    | ⟨0, _⟩ => rfl
    | ⟨1, _⟩ => show 0 + 1 * p.val = p.val; omega
    | ⟨2, _⟩ => show 0 + 1 * q.val = q.val; omega))

theorem ld1 (x : Vec Ideal S3x512x128 .f32) (p : Fin 512) (q : Fin 128) : View.ld x r0_1 (ix3 0 p q) = x (ix3 1 p q) :=
  congrArg x (funext fun a => Fin.ext (by
    match a with
    | ⟨0, _⟩ => rfl
    | ⟨1, _⟩ => show 0 + 1 * p.val = p.val; omega
    | ⟨2, _⟩ => show 0 + 1 * q.val = q.val; omega))

theorem ld2 (x : Vec Ideal S3x512x128 .f32) (p : Fin 512) (q : Fin 128) : View.ld x r0_2 (ix3 0 p q) = x (ix3 2 p q) :=
  congrArg x (funext fun a => Fin.ext (by
    match a with
    | ⟨0, _⟩ => rfl
    | ⟨1, _⟩ => show 0 + 1 * p.val = p.val; omega
    | ⟨2, _⟩ => show 0 + 1 * q.val = q.val; omega))

/-! ## Names for the body's values (each a [512,128] slab), as the buffer's pieces spell them -/

local notation "A0(" x ")" => View.ld x r0_0
local notation "A1(" x ")" => View.ld x r0_1
local notation "A2(" x ")" => View.ld x r0_2
/-- The 3-vector a window's block holds at `(·, p, q)`. -/
local notation "rd(" x "," p "," q ")" => (fun k : Fin 3 => x (ix3 k p q))
local notation "ONEW" => (Scalar.ofBits FTy.f32 0x3F800000#32)

-- the first rotation, of the vector in window `x`
local notation "Rn(" x ")" => k0_pay6 A0(x) A1(x) A2(x)
local notation "Ra(" x ")" => k0_pay9 A0(x) A1(x) A2(x)
local notation "Rb(" x ")" => k0_pay10 A0(x) A1(x) A2(x)
local notation "R00(" x ")" => k0_pay11 A0(x) A1(x) A2(x)
local notation "R01(" x ")" => k0_pay12 A0(x) A1(x) A2(x)
local notation "R02(" x ")" => k0_pay15 (k0_pay13 A0(x) A1(x) A2(x)) (k0_pay14 A0(x) A1(x) A2(x))
local notation "R10(" x ")" => k0_pay16 (k0_pay3 A0(x)) (k0_pay4 A1(x)) (k0_pay5 A2(x)) Ra(x) Rb(x)
local notation "R11(" x ")" => k0_pay17 (k0_pay4 A1(x)) Rn(x) Rb(x)
local notation "R12(" x ")" => k0_pay18 (k0_pay3 A0(x)) (k0_pay4 A1(x)) (k0_pay5 A2(x)) Ra(x) Rb(x)
local notation "R20(" x ")" => k0_pay19 (k0_pay3 A0(x)) (k0_pay4 A1(x)) (k0_pay5 A2(x)) Ra(x) Rb(x)
local notation "R21(" x ")" => k0_pay20 (k0_pay3 A0(x)) (k0_pay4 A1(x)) (k0_pay5 A2(x)) Ra(x) Rb(x)
local notation "R22(" x ")" => k0_pay21 (k0_pay5 A2(x)) Rn(x) Rb(x)

-- the second rotation, of the vector in window `x`
local notation "c0(" x ")" => k0_pay22 A0(x)
local notation "c1(" x ")" => k0_pay23 A1(x)
local notation "c2(" x ")" => k0_pay24 A2(x)
local notation "nn(" x ")" => k0_pay25 A0(x) A1(x) A2(x)
local notation "tt(" x ")" => k0_pay26 A0(x) A1(x) A2(x)
local notation "ss(" x ")" => k0_pay27 A0(x) A1(x) A2(x)
local notation "bb(" x ")" => k0_pay29 nn(x) tt(x) ss(x)
local notation "aw(" x ")" => k0_pay37 c0(x) tt(x) ss(x) ONEW
local notation "U00(" x ")" => k0_pay30 c0(x) nn(x) tt(x) ss(x)
local notation "U01(" x ")" => k0_pay31 c0(x) c1(x) c2(x) nn(x) tt(x) ss(x) ONEW
local notation "U02(" x ")" => k0_pay32 c0(x) c1(x) c2(x) nn(x) tt(x) ss(x) ONEW
local notation "U10(" x ")" => k0_pay33 c0(x) c1(x) c2(x) nn(x) tt(x) ss(x) ONEW
local notation "U11(" x ")" => k0_pay34 c1(x) nn(x) tt(x) ss(x)
local notation "U12(" x ")" => k0_pay35 c0(x) c1(x) c2(x) nn(x) tt(x) ss(x) ONEW
local notation "U20(" x ")" => k0_pay36 c0(x) c1(x) c2(x) nn(x) tt(x) ss(x) ONEW
local notation "U21(" x ")" => k0_pay38 c1(x) c2(x) bb(x) aw(x)
local notation "U22(" x ")" => k0_pay39 c2(x) nn(x) bb(x)

-- the exponentials of the log-scales in window `x`
local notation "D0(" x ")" => k0_pay40 A0(x)
local notation "D1(" x ")" => k0_pay41 A1(x)
local notation "D2(" x ")" => k0_pay42 A2(x)

-- the middle product, of the rotation of window `u` and the scales of window `s`
local notation "M00(" u "," s ")" => k0_pay43 U00(u) U01(u) U02(u) A0(s) A1(s) A2(s)
local notation "M01(" u "," s ")" => k0_pay44 U00(u) U01(u) U02(u) U10(u) U11(u) U12(u) A0(s) A1(s) A2(s)
local notation "M02(" u "," s ")" => k0_pay45 c1(u) c2(u) nn(u) bb(u) U00(u) U01(u) U02(u) U20(u) aw(u) A0(s) A1(s) A2(s)
local notation "M10(" u "," s ")" => k0_pay46 U00(u) U01(u) U02(u) U10(u) U11(u) U12(u) A0(s) A1(s) A2(s)
local notation "M11(" u "," s ")" => k0_pay48 U10(u) U11(u) U12(u) D1(s) D2(s) (k0_pay47 U10(u) A0(s))
local notation "M12(" u "," s ")" => k0_pay49 U10(u) U11(u) U12(u) U20(u) U21(u) U22(u) D0(s) D1(s) D2(s)
local notation "M20(" u "," s ")" => k0_pay50 U00(u) U01(u) U02(u) U20(u) U21(u) U22(u) D0(s) D1(s) D2(s)
local notation "M21(" u "," s ")" => k0_pay51 U10(u) U11(u) U12(u) U20(u) U21(u) U22(u) D0(s) D1(s) D2(s)
local notation "M22(" u "," s ")" => k0_pay52 U20(u) U21(u) U22(u) D0(s) D1(s) D2(s)

-- the outer product
local notation "P00(" r "," u "," s ")" =>
  k0_pay53 R00(r) R01(r) R02(r) U00(u) U01(u) U02(u) U20(u) U21(u) U22(u) D0(s) D1(s) D2(s) M00(u,s) M10(u,s)
local notation "P01(" r "," u "," s ")" =>
  k0_pay54 R00(r) R01(r) R02(r) U10(u) U11(u) U12(u) U20(u) U21(u) U22(u) D0(s) D1(s) D2(s) M01(u,s) (k0_pay47 U10(u) A0(s))
local notation "P02(" r "," u "," s ")" =>
  k0_pay55 R00(r) R01(r) R02(r) U10(u) U11(u) U12(u) U20(u) U21(u) U22(u) D0(s) D1(s) D2(s) M02(u,s)
local notation "P10(" r "," u "," s ")" =>
  k0_pay56 R10(r) R11(r) R12(r) U00(u) U01(u) U02(u) U20(u) U21(u) U22(u) D0(s) D1(s) D2(s) M00(u,s) M10(u,s)
local notation "P11(" r "," u "," s ")" => k0_pay58 R11(r) R12(r) M11(u,s) M21(u,s) (k0_pay57 R10(r) M01(u,s))
local notation "P12(" r "," u "," s ")" => k0_pay59 R10(r) R11(r) R12(r) M02(u,s) M12(u,s) M22(u,s)
local notation "P20(" r "," u "," s ")" => k0_pay60 R20(r) R21(r) R22(r) M00(u,s) M10(u,s) M20(u,s)
local notation "P21(" r "," u "," s ")" => k0_pay61 R20(r) R21(r) R22(r) M01(u,s) M11(u,s) M21(u,s)
local notation "P22(" r "," u "," s ")" => k0_pay62 R20(r) R21(r) R22(r) M02(u,s) M12(u,s) M22(u,s)

/-! ## The first rotation's entries -/

section First
variable (x : Vec Ideal S3x512x128 .f32) (p : Fin 512) (q : Fin 128)
theorem R00_eq : R00(x) (ix2 p q) = rotOfC rd(x,p,q) 0 0 := pay11_eq A0(x) A1(x) A2(x) rd(x,p,q) p q (ld0 x p q) (ld1 x p q) (ld2 x p q)
theorem R01_eq : R01(x) (ix2 p q) = rotOfC rd(x,p,q) 0 1 := pay12_eq A0(x) A1(x) A2(x) rd(x,p,q) p q (ld0 x p q) (ld1 x p q) (ld2 x p q)
theorem R02_eq : R02(x) (ix2 p q) = rotOfC rd(x,p,q) 0 2 := pay15_eq A0(x) A1(x) A2(x) rd(x,p,q) p q (ld0 x p q) (ld1 x p q) (ld2 x p q)
theorem R10_eq : R10(x) (ix2 p q) = rotOfC rd(x,p,q) 1 0 := pay16_eq A0(x) A1(x) A2(x) rd(x,p,q) p q (ld0 x p q) (ld1 x p q) (ld2 x p q)
theorem R11_eq : R11(x) (ix2 p q) = rotOfC rd(x,p,q) 1 1 := pay17_eq A0(x) A1(x) A2(x) rd(x,p,q) p q (ld0 x p q) (ld1 x p q) (ld2 x p q)
theorem R12_eq : R12(x) (ix2 p q) = rotOfC rd(x,p,q) 1 2 := pay18_eq A0(x) A1(x) A2(x) rd(x,p,q) p q (ld0 x p q) (ld1 x p q) (ld2 x p q)
theorem R20_eq : R20(x) (ix2 p q) = rotOfC rd(x,p,q) 2 0 := pay19_eq A0(x) A1(x) A2(x) rd(x,p,q) p q (ld0 x p q) (ld1 x p q) (ld2 x p q)
theorem R21_eq : R21(x) (ix2 p q) = rotOfC rd(x,p,q) 2 1 := pay20_eq A0(x) A1(x) A2(x) rd(x,p,q) p q (ld0 x p q) (ld1 x p q) (ld2 x p q)
theorem R22_eq : R22(x) (ix2 p q) = rotOfC rd(x,p,q) 2 2 := pay21_eq A0(x) A1(x) A2(x) rd(x,p,q) p q (ld0 x p q) (ld1 x p q) (ld2 x p q)
end First

/-! ## The second rotation's entries -/

section Second
variable (x : Vec Ideal S3x512x128 .f32) (p : Fin 512) (q : Fin 128)
theorem c0_eq : c0(x) (ix2 p q) = x (ix3 0 p q) := pay22_eq A0(x) A1(x) A2(x) rd(x,p,q) p q (ld0 x p q) (ld1 x p q) (ld2 x p q)
theorem c1_eq : c1(x) (ix2 p q) = x (ix3 1 p q) := pay23_eq A0(x) A1(x) A2(x) rd(x,p,q) p q (ld0 x p q) (ld1 x p q) (ld2 x p q)
theorem c2_eq : c2(x) (ix2 p q) = x (ix3 2 p q) := pay24_eq A0(x) A1(x) A2(x) rd(x,p,q) p q (ld0 x p q) (ld1 x p q) (ld2 x p q)
theorem nn_eq : nn(x) (ix2 p q) = normSqC rd(x,p,q) := pay25_eq A0(x) A1(x) A2(x) rd(x,p,q) p q (ld0 x p q) (ld1 x p q) (ld2 x p q)
theorem tt_eq : tt(x) (ix2 p q) = Ideal.sqrt (normSqC rd(x,p,q)) := pay26_eq A0(x) A1(x) A2(x) rd(x,p,q) p q (ld0 x p q) (ld1 x p q) (ld2 x p q)
theorem ss_eq : ss(x) (ix2 p q) = small (normSqC rd(x,p,q)) := pay27_eq A0(x) A1(x) A2(x) rd(x,p,q) p q (ld0 x p q) (ld1 x p q) (ld2 x p q)
theorem U00_eq : U00(x) (ix2 p q) = rotOfC rd(x,p,q) 0 0 := pay30_eq c0(x) c1(x) c2(x) nn(x) tt(x) ss(x) rd(x,p,q) (ix2 p q) (c0_eq x p q) (c1_eq x p q) (c2_eq x p q) (nn_eq x p q) (tt_eq x p q) (ss_eq x p q)
theorem U01_eq : U01(x) (ix2 p q) = rotOfC rd(x,p,q) 0 1 := pay31_eq c0(x) c1(x) c2(x) nn(x) tt(x) ss(x) rd(x,p,q) (ix2 p q) (c0_eq x p q) (c1_eq x p q) (c2_eq x p q) (nn_eq x p q) (tt_eq x p q) (ss_eq x p q)
theorem U02_eq : U02(x) (ix2 p q) = rotOfC rd(x,p,q) 0 2 := pay32_eq c0(x) c1(x) c2(x) nn(x) tt(x) ss(x) rd(x,p,q) (ix2 p q) (c0_eq x p q) (c1_eq x p q) (c2_eq x p q) (nn_eq x p q) (tt_eq x p q) (ss_eq x p q)
theorem U10_eq : U10(x) (ix2 p q) = rotOfC rd(x,p,q) 1 0 := pay33_eq c0(x) c1(x) c2(x) nn(x) tt(x) ss(x) rd(x,p,q) (ix2 p q) (c0_eq x p q) (c1_eq x p q) (c2_eq x p q) (nn_eq x p q) (tt_eq x p q) (ss_eq x p q)
theorem U11_eq : U11(x) (ix2 p q) = rotOfC rd(x,p,q) 1 1 := pay34_eq c0(x) c1(x) c2(x) nn(x) tt(x) ss(x) rd(x,p,q) (ix2 p q) (c0_eq x p q) (c1_eq x p q) (c2_eq x p q) (nn_eq x p q) (tt_eq x p q) (ss_eq x p q)
theorem U12_eq : U12(x) (ix2 p q) = rotOfC rd(x,p,q) 1 2 := pay35_eq c0(x) c1(x) c2(x) nn(x) tt(x) ss(x) rd(x,p,q) (ix2 p q) (c0_eq x p q) (c1_eq x p q) (c2_eq x p q) (nn_eq x p q) (tt_eq x p q) (ss_eq x p q)
theorem U20_eq : U20(x) (ix2 p q) = rotOfC rd(x,p,q) 2 0 := pay36_eq c0(x) c1(x) c2(x) nn(x) tt(x) ss(x) rd(x,p,q) (ix2 p q) (c0_eq x p q) (c1_eq x p q) (c2_eq x p q) (nn_eq x p q) (tt_eq x p q) (ss_eq x p q)
theorem U21_eq : U21(x) (ix2 p q) = rotOfC rd(x,p,q) 2 1 := pay38_eq c0(x) c1(x) c2(x) nn(x) tt(x) ss(x) rd(x,p,q) (ix2 p q) (c0_eq x p q) (c1_eq x p q) (c2_eq x p q) (nn_eq x p q) (tt_eq x p q) (ss_eq x p q)
theorem U22_eq : U22(x) (ix2 p q) = rotOfC rd(x,p,q) 2 2 := pay39_eq c0(x) c1(x) c2(x) nn(x) tt(x) ss(x) rd(x,p,q) (ix2 p q) (c0_eq x p q) (c1_eq x p q) (c2_eq x p q) (nn_eq x p q) (tt_eq x p q) (ss_eq x p q)
end Second

/-! ## The exponentials -/

section Scales
variable (x : Vec Ideal S3x512x128 .f32) (p : Fin 512) (q : Fin 128)
theorem D0_eq : D0(x) (ix2 p q) = Ideal.exp (x (ix3 0 p q)) := (pay40_apply A0(x) p q).trans (congrArg Ideal.exp (ld0 x p q))
theorem D1_eq : D1(x) (ix2 p q) = Ideal.exp (x (ix3 1 p q)) := (pay41_apply A1(x) p q).trans (congrArg Ideal.exp (ld1 x p q))
theorem D2_eq : D2(x) (ix2 p q) = Ideal.exp (x (ix3 2 p q)) := (pay42_apply A2(x) p q).trans (congrArg Ideal.exp (ld2 x p q))
end Scales

/-! ## The middle product `U · diag D · Uᵀ` -/

section Middle
variable (u s : Vec Ideal S3x512x128 .f32) (p : Fin 512) (q : Fin 128)
theorem M00_eq : M00(u,s) (ix2 p q) = midC (rotOfC rd(u,p,q)) (fun k => Ideal.exp (s (ix3 k p q))) 0 0 := by
  rw [pay43_apply, U00_eq, U01_eq, U02_eq, D0_eq, D1_eq, D2_eq]
  rfl
theorem M01_eq : M01(u,s) (ix2 p q) = midC (rotOfC rd(u,p,q)) (fun k => Ideal.exp (s (ix3 k p q))) 0 1 := by
  rw [pay44_apply, U00_eq, U01_eq, U02_eq, U10_eq, U11_eq, U12_eq, D0_eq, D1_eq, D2_eq]
  rfl
theorem M02_eq : M02(u,s) (ix2 p q) = midC (rotOfC rd(u,p,q)) (fun k => Ideal.exp (s (ix3 k p q))) 0 2 := by
  rw [pay45_apply, U00_eq, U01_eq, U02_eq, U20_eq, U21_eq, U22_eq, D0_eq, D1_eq, D2_eq]
  rfl
theorem M10_eq : M10(u,s) (ix2 p q) = midC (rotOfC rd(u,p,q)) (fun k => Ideal.exp (s (ix3 k p q))) 1 0 := by
  rw [pay46_apply, U00_eq, U01_eq, U02_eq, U10_eq, U11_eq, U12_eq, D0_eq, D1_eq, D2_eq]
  rfl
theorem M11_eq : M11(u,s) (ix2 p q) = midC (rotOfC rd(u,p,q)) (fun k => Ideal.exp (s (ix3 k p q))) 1 1 := by
  rw [pay48_apply, pay47_apply, U10_eq, U11_eq, U12_eq, D0_eq, D1_eq, D2_eq]
  rfl
theorem M12_eq : M12(u,s) (ix2 p q) = midC (rotOfC rd(u,p,q)) (fun k => Ideal.exp (s (ix3 k p q))) 1 2 := by
  rw [pay49_apply, U10_eq, U11_eq, U12_eq, U20_eq, U21_eq, U22_eq, D0_eq, D1_eq, D2_eq]
  rfl
theorem M20_eq : M20(u,s) (ix2 p q) = midC (rotOfC rd(u,p,q)) (fun k => Ideal.exp (s (ix3 k p q))) 2 0 := by
  rw [pay50_apply, U00_eq, U01_eq, U02_eq, U20_eq, U21_eq, U22_eq, D0_eq, D1_eq, D2_eq]
  rfl
theorem M21_eq : M21(u,s) (ix2 p q) = midC (rotOfC rd(u,p,q)) (fun k => Ideal.exp (s (ix3 k p q))) 2 1 := by
  rw [pay51_apply, U10_eq, U11_eq, U12_eq, U20_eq, U21_eq, U22_eq, D0_eq, D1_eq, D2_eq]
  rfl
theorem M22_eq : M22(u,s) (ix2 p q) = midC (rotOfC rd(u,p,q)) (fun k => Ideal.exp (s (ix3 k p q))) 2 2 := by
  rw [pay52_apply, U20_eq, U21_eq, U22_eq, D0_eq, D1_eq, D2_eq]
  rfl
end Middle

/-! ## The outer product `R · M` -/

section Outer
variable (r u s : Vec Ideal S3x512x128 .f32) (p : Fin 512) (q : Fin 128)
theorem P00_eq : P00(r,u,s) (ix2 p q)
    = mulC (rotOfC rd(r,p,q)) (midC (rotOfC rd(u,p,q)) (fun k => Ideal.exp (s (ix3 k p q)))) 0 0 := by
  rw [pay53_apply, R00_eq, R01_eq, R02_eq, M00_eq, M10_eq, M20_eq]
  rfl
theorem P01_eq : P01(r,u,s) (ix2 p q)
    = mulC (rotOfC rd(r,p,q)) (midC (rotOfC rd(u,p,q)) (fun k => Ideal.exp (s (ix3 k p q)))) 0 1 := by
  rw [pay54_apply, R00_eq, R01_eq, R02_eq, M01_eq, M11_eq, M21_eq]
  rfl
theorem P02_eq : P02(r,u,s) (ix2 p q)
    = mulC (rotOfC rd(r,p,q)) (midC (rotOfC rd(u,p,q)) (fun k => Ideal.exp (s (ix3 k p q)))) 0 2 := by
  rw [pay55_apply, R00_eq, R01_eq, R02_eq, M02_eq, M12_eq, M22_eq]
  rfl
theorem P10_eq : P10(r,u,s) (ix2 p q)
    = mulC (rotOfC rd(r,p,q)) (midC (rotOfC rd(u,p,q)) (fun k => Ideal.exp (s (ix3 k p q)))) 1 0 := by
  rw [pay56_apply, R10_eq, R11_eq, R12_eq, M00_eq, M10_eq, M20_eq]
  rfl
theorem P11_eq : P11(r,u,s) (ix2 p q)
    = mulC (rotOfC rd(r,p,q)) (midC (rotOfC rd(u,p,q)) (fun k => Ideal.exp (s (ix3 k p q)))) 1 1 := by
  rw [pay58_apply, pay57_apply, R10_eq, R11_eq, R12_eq, M01_eq, M11_eq, M21_eq]
  rfl
theorem P12_eq : P12(r,u,s) (ix2 p q)
    = mulC (rotOfC rd(r,p,q)) (midC (rotOfC rd(u,p,q)) (fun k => Ideal.exp (s (ix3 k p q)))) 1 2 := by
  rw [pay59_apply, R10_eq, R11_eq, R12_eq, M02_eq, M12_eq, M22_eq]
  rfl
theorem P20_eq : P20(r,u,s) (ix2 p q)
    = mulC (rotOfC rd(r,p,q)) (midC (rotOfC rd(u,p,q)) (fun k => Ideal.exp (s (ix3 k p q)))) 2 0 := by
  rw [pay60_apply, R20_eq, R21_eq, R22_eq, M00_eq, M10_eq, M20_eq]
  rfl
theorem P21_eq : P21(r,u,s) (ix2 p q)
    = mulC (rotOfC rd(r,p,q)) (midC (rotOfC rd(u,p,q)) (fun k => Ideal.exp (s (ix3 k p q)))) 2 1 := by
  rw [pay61_apply, R20_eq, R21_eq, R22_eq, M01_eq, M11_eq, M21_eq]
  rfl
theorem P22_eq : P22(r,u,s) (ix2 p q)
    = mulC (rotOfC rd(r,p,q)) (midC (rotOfC rd(u,p,q)) (fun k => Ideal.exp (s (ix3 k p q)))) 2 2 := by
  rw [pay62_apply, R20_eq, R21_eq, R22_eq, M02_eq, M12_eq, M22_eq]
  rfl
end Outer

/-! ## The twelve stored slabs, each at an index -/

section Slabs
variable (x0 x1 x2 x3 : Vec Ideal S3x512x128 .f32) (p : Fin 512) (q : Fin 128)
theorem slab00 : k0_pay66 P00(x1,x2,x3) (ix4 0 0 p q) = outC rd(x0,p,q) rd(x1,p,q) rd(x2,p,q) rd(x3,p,q) 0 0 :=
  (pay66_apply _ p q).trans (P00_eq x1 x2 x3 p q)
theorem slab01 : k0_pay67 P01(x1,x2,x3) (ix4 0 0 p q) = outC rd(x0,p,q) rd(x1,p,q) rd(x2,p,q) rd(x3,p,q) 0 1 :=
  (pay67_apply _ p q).trans (P01_eq x1 x2 x3 p q)
theorem slab02 : k0_pay68 P02(x1,x2,x3) (ix4 0 0 p q) = outC rd(x0,p,q) rd(x1,p,q) rd(x2,p,q) rd(x3,p,q) 0 2 :=
  (pay68_apply _ p q).trans (P02_eq x1 x2 x3 p q)
theorem slab10 : k0_pay70 P10(x1,x2,x3) (ix4 0 0 p q) = outC rd(x0,p,q) rd(x1,p,q) rd(x2,p,q) rd(x3,p,q) 1 0 :=
  (pay70_apply _ p q).trans (P10_eq x1 x2 x3 p q)
theorem slab11 : k0_pay71 P11(x1,x2,x3) (ix4 0 0 p q) = outC rd(x0,p,q) rd(x1,p,q) rd(x2,p,q) rd(x3,p,q) 1 1 :=
  (pay71_apply _ p q).trans (P11_eq x1 x2 x3 p q)
theorem slab12 : k0_pay72 P12(x1,x2,x3) (ix4 0 0 p q) = outC rd(x0,p,q) rd(x1,p,q) rd(x2,p,q) rd(x3,p,q) 1 2 :=
  (pay72_apply _ p q).trans (P12_eq x1 x2 x3 p q)
theorem slab20 : k0_pay74 P20(x1,x2,x3) (ix4 0 0 p q) = outC rd(x0,p,q) rd(x1,p,q) rd(x2,p,q) rd(x3,p,q) 2 0 :=
  (pay74_apply _ p q).trans (P20_eq x1 x2 x3 p q)
theorem slab21 : k0_pay75 P21(x1,x2,x3) (ix4 0 0 p q) = outC rd(x0,p,q) rd(x1,p,q) rd(x2,p,q) rd(x3,p,q) 2 1 :=
  (pay75_apply _ p q).trans (P21_eq x1 x2 x3 p q)
theorem slab22 : k0_pay1 P22(x1,x2,x3) (ix4 0 0 p q) = outC rd(x0,p,q) rd(x1,p,q) rd(x2,p,q) rd(x3,p,q) 2 2 :=
  (pay1_apply _ p q).trans (P22_eq x1 x2 x3 p q)
theorem slab03 : k0_pay69 (k0_pay63 A0(x0)) (ix4 0 0 p q) = outC rd(x0,p,q) rd(x1,p,q) rd(x2,p,q) rd(x3,p,q) 0 3 :=
  (pay69_apply _ p q).trans ((pay63_apply _ p q).trans (ld0 x0 p q))
theorem slab13 : k0_pay73 (k0_pay64 A1(x0)) (ix4 0 0 p q) = outC rd(x0,p,q) rd(x1,p,q) rd(x2,p,q) rd(x3,p,q) 1 3 :=
  (pay73_apply _ p q).trans ((pay64_apply _ p q).trans (ld1 x0 p q))
theorem slab23 : k0_pay2 (k0_pay65 A2(x0)) (ix4 0 0 p q) = outC rd(x0,p,q) rd(x1,p,q) rd(x2,p,q) rd(x3,p,q) 2 3 :=
  (pay2_apply _ p q).trans ((pay65_apply _ p q).trans (ld2 x0 p q))
end Slabs

/-! ## The twelve stores tile the buffer -/

/-- An index of a [1,1,512,128] slab is `(0, 0, p, q)`. -/
theorem slab_idx (x : S1x1x512x128.Idx) : ∃ (p : Fin 512) (q : Fin 128), x = ix4 (0 : Fin 1) (0 : Fin 1) p q := by
  refine ⟨x 2, x 3, funext fun a => ?_⟩
  match a with
  | ⟨0, h⟩ => exact Fin.ext (by have hl : (x ⟨0, h⟩).val < 1 := (x ⟨0, h⟩).isLt; show (x ⟨0, h⟩).val = 0; omega)
  | ⟨1, h⟩ => exact Fin.ext (by have hl : (x ⟨1, h⟩).val < 1 := (x ⟨1, h⟩).isLt; show (x ⟨1, h⟩).val = 0; omega)
  | ⟨2, _⟩ => rfl
  | ⟨3, _⟩ => rfl

/-- The slab stored at offsets `(a, b, 0, 0)` places its index `(0, 0, p, q)` at `(a, b, p, q)`. -/
theorem emb_slab (a b : ℕ) (ha : a < 3) (hb : b < 4)
    (inb : ∀ c, (![a, b, 0, 0] : Fin 4 → ℕ) c + S1x1x512x128.size c ≤ S3x4x512x128.size c) (p : Fin 512) (q : Fin 128) :
    (Rect.unit (s := S3x4x512x128) ![a, b, 0, 0] S1x1x512x128.size inb).emb (ix4 (0 : Fin 1) (0 : Fin 1) p q)
      = ix4 (⟨a, ha⟩ : Fin 3) (⟨b, hb⟩ : Fin 4) p q := by
  funext c
  refine Fin.ext ?_
  match c with
  | ⟨0, _⟩ => show a + 1 * 0 = a; omega
  | ⟨1, _⟩ => show b + 1 * 0 = b; omega
  | ⟨2, _⟩ => show 0 + 1 * p.val = p.val; omega
  | ⟨3, _⟩ => show 0 + 1 * q.val = q.val; omega

/-- Twelve slabs that agree with one function `G` of the buffer's index, each on its own entry, leave `G`. -/
theorem canon_slabs (G : S3x4x512x128.Idx → EReal)
    (w23 w22 w21 w20 w13 w12 w11 w10 w03 w02 w01 w00 : Vec Ideal S1x1x512x128 .f32)
    (h23 : ∀ (p : Fin 512) (q : Fin 128), w23 (ix4 0 0 p q) = G (ix4 2 3 p q))
    (h22 : ∀ (p : Fin 512) (q : Fin 128), w22 (ix4 0 0 p q) = G (ix4 2 2 p q))
    (h21 : ∀ (p : Fin 512) (q : Fin 128), w21 (ix4 0 0 p q) = G (ix4 2 1 p q))
    (h20 : ∀ (p : Fin 512) (q : Fin 128), w20 (ix4 0 0 p q) = G (ix4 2 0 p q))
    (h13 : ∀ (p : Fin 512) (q : Fin 128), w13 (ix4 0 0 p q) = G (ix4 1 3 p q))
    (h12 : ∀ (p : Fin 512) (q : Fin 128), w12 (ix4 0 0 p q) = G (ix4 1 2 p q))
    (h11 : ∀ (p : Fin 512) (q : Fin 128), w11 (ix4 0 0 p q) = G (ix4 1 1 p q))
    (h10 : ∀ (p : Fin 512) (q : Fin 128), w10 (ix4 0 0 p q) = G (ix4 1 0 p q))
    (h03 : ∀ (p : Fin 512) (q : Fin 128), w03 (ix4 0 0 p q) = G (ix4 0 3 p q))
    (h02 : ∀ (p : Fin 512) (q : Fin 128), w02 (ix4 0 0 p q) = G (ix4 0 2 p q))
    (h01 : ∀ (p : Fin 512) (q : Fin 128), w01 (ix4 0 0 p q) = G (ix4 0 1 p q))
    (h00 : ∀ (p : Fin 512) (q : Fin 128), w00 (ix4 0 0 p q) = G (ix4 0 0 p q)) :
    View.canon ([⟨r0_14, w23⟩, ⟨r0_13, w22⟩, ⟨r0_12, w21⟩, ⟨r0_11, w20⟩, ⟨r0_10, w13⟩, ⟨r0_9, w12⟩, ⟨r0_8, w11⟩, ⟨r0_7, w10⟩, ⟨r0_6, w03⟩, ⟨r0_5, w02⟩, ⟨r0_4, w01⟩, ⟨r0_3, w00⟩] : List (View.Piece (Elt Ideal) S3x4x512x128 .f32)) = G := by
  funext y
  refine View.canon_apply_of_pieces G _ ?_ y (cover0_4 w23 w22 w21 w20 w13 w12 w11 w10 w03 w02 w01 w00 y)
  intro pc hpc x
  simp only [List.mem_cons, List.not_mem_nil, or_false] at hpc
  rcases hpc with rfl | rfl | rfl | rfl | rfl | rfl | rfl | rfl | rfl | rfl | rfl | rfl
  · obtain ⟨p, q, rfl⟩ := slab_idx x
    exact (h23 p q).trans (congrArg G (emb_slab 2 3 (by decide) (by decide) inb_S3x4x512x128_S1x1x512x128_2_3_0_0 p q).symm)
  · obtain ⟨p, q, rfl⟩ := slab_idx x
    exact (h22 p q).trans (congrArg G (emb_slab 2 2 (by decide) (by decide) inb_S3x4x512x128_S1x1x512x128_2_2_0_0 p q).symm)
  · obtain ⟨p, q, rfl⟩ := slab_idx x
    exact (h21 p q).trans (congrArg G (emb_slab 2 1 (by decide) (by decide) inb_S3x4x512x128_S1x1x512x128_2_1_0_0 p q).symm)
  · obtain ⟨p, q, rfl⟩ := slab_idx x
    exact (h20 p q).trans (congrArg G (emb_slab 2 0 (by decide) (by decide) inb_S3x4x512x128_S1x1x512x128_2_0_0_0 p q).symm)
  · obtain ⟨p, q, rfl⟩ := slab_idx x
    exact (h13 p q).trans (congrArg G (emb_slab 1 3 (by decide) (by decide) inb_S3x4x512x128_S1x1x512x128_1_3_0_0 p q).symm)
  · obtain ⟨p, q, rfl⟩ := slab_idx x
    exact (h12 p q).trans (congrArg G (emb_slab 1 2 (by decide) (by decide) inb_S3x4x512x128_S1x1x512x128_1_2_0_0 p q).symm)
  · obtain ⟨p, q, rfl⟩ := slab_idx x
    exact (h11 p q).trans (congrArg G (emb_slab 1 1 (by decide) (by decide) inb_S3x4x512x128_S1x1x512x128_1_1_0_0 p q).symm)
  · obtain ⟨p, q, rfl⟩ := slab_idx x
    exact (h10 p q).trans (congrArg G (emb_slab 1 0 (by decide) (by decide) inb_S3x4x512x128_S1x1x512x128_1_0_0_0 p q).symm)
  · obtain ⟨p, q, rfl⟩ := slab_idx x
    exact (h03 p q).trans (congrArg G (emb_slab 0 3 (by decide) (by decide) inb_S3x4x512x128_S1x1x512x128_0_3_0_0 p q).symm)
  · obtain ⟨p, q, rfl⟩ := slab_idx x
    exact (h02 p q).trans (congrArg G (emb_slab 0 2 (by decide) (by decide) inb_S3x4x512x128_S1x1x512x128_0_2_0_0 p q).symm)
  · obtain ⟨p, q, rfl⟩ := slab_idx x
    exact (h01 p q).trans (congrArg G (emb_slab 0 1 (by decide) (by decide) inb_S3x4x512x128_S1x1x512x128_0_1_0_0 p q).symm)
  · obtain ⟨p, q, rfl⟩ := slab_idx x
    exact (h00 p q).trans (congrArg G (emb_slab 0 0 (by decide) (by decide) inb_S3x4x512x128_S1x1x512x128_0_0_0_0 p q).symm)

/-! ## The body at an index -/

/-- Window 4's staging buffer after the body, at `(i, j, p, q)`, is the specification's per-sample result `(i, j)`
    of the four 3-vectors the input windows hold at `(·, p, q)`. -/
theorem out_apply (x0 x1 x2 x3 : Vec Ideal S3x512x128 .f32) (i : Fin 3) (j : Fin 4) (p : Fin 512) (q : Fin 128) :
    Cert.KernelIdeal.Gen.out0_4 (F := Ideal) x0 x1 x2 x3 (ix4 i j p q)
      = Cert.Spec.outC (fun k => x0 (ix3 k p q)) (fun k => x1 (ix3 k p q)) (fun k => x2 (ix3 k p q)) (fun k => x3 (ix3 k p q)) i j := by
  have H : Cert.KernelIdeal.Gen.out0_4 (F := Ideal) x0 x1 x2 x3
      = fun y : S3x4x512x128.Idx => Cert.Spec.outC (fun k => x0 (ix3 k (y 2) (y 3))) (fun k => x1 (ix3 k (y 2) (y 3)))
          (fun k => x2 (ix3 k (y 2) (y 3))) (fun k => x3 (ix3 k (y 2) (y 3))) (y 0) (y 1) := by
    unfold Cert.KernelIdeal.Gen.out0_4
    refine canon_slabs _ _ _ _ _ _ _ _ _ _ _ _ _ ?_ ?_ ?_ ?_ ?_ ?_ ?_ ?_ ?_ ?_ ?_ ?_
    · exact fun p q => slab23 x0 x1 x2 x3 p q
    · exact fun p q => slab22 x0 x1 x2 x3 p q
    · exact fun p q => slab21 x0 x1 x2 x3 p q
    · exact fun p q => slab20 x0 x1 x2 x3 p q
    · exact fun p q => slab13 x0 x1 x2 x3 p q
    · exact fun p q => slab12 x0 x1 x2 x3 p q
    · exact fun p q => slab11 x0 x1 x2 x3 p q
    · exact fun p q => slab10 x0 x1 x2 x3 p q
    · exact fun p q => slab03 x0 x1 x2 x3 p q
    · exact fun p q => slab02 x0 x1 x2 x3 p q
    · exact fun p q => slab01 x0 x1 x2 x3 p q
    · exact fun p q => slab00 x0 x1 x2 x3 p q
  exact congrFun H (ix4 i j p q)

end Cert.KernelIdeal.Body

end
-- ==== Proof.KPrefix.lean ====
import proofs.«170764_j13958643712058_2_alg».proof.Proof.Gen.KernelIdeal.Frame
import proofs.«170764_j13958643712058_2_alg».proof.Proof.Spec
import Idealize.ShloMosaic.Lib.KernelVsHost

/-
  The four arrays the kernel's input windows stage.

  Before the region, the host program lays each `[2000000, 3]` argument out component-major: it appends 97152 rows of
  the integer constant 0 converted to f32 (`2000000 + 97152 = 2097152 = 16384 · 128`), transposes the padded array to
  `[3, 2097152]` and cuts each of its three rows into 16384 rows of 128. Entry `(k, r, l)` of the result is therefore
  component `k` of sample `128 r + l` when that sample exists, and the converted constant — the real 0 — otherwise:
  `Cert.Spec.cmaj` of the argument.
-/

set_option maxRecDepth 16384

noncomputable section

namespace Cert.KernelIdeal.KPrefix

open Idealize.ShloMosaic Idealize.ShloMosaic.TcCoe Idealize.ShloMosaic.ValueIdx Idealize.ShloMosaic.StableHlo

/-- The host's three layout operations on one argument array, as one term: pad with the converted integer 0 to
    2097152 rows, transpose, cut the long axis into rows of 128. -/
def cm (x : S2000000x3.Idx → EReal) : S3x16384x128.Idx → EReal :=
  shapeCast S3x16384x128
    (transpose S3x2097152 [1, 0]
      (pad S2097152x3 ![0, 0] ![97152, 0] ![0, 0] x (sitofp (F := Ideal) .f32 (constantI S_ 32 0#32))
        Gen.pads_S2000000x3_S2097152x3_0971520_000 Gen.h_S_)
      Gen.transposes_S2097152x3_S3x2097152_1_0)
    Gen.shapeCasts_S3x2097152_S3x16384x128

/-- The padding value: the integer 0 converted to f32 is the real 0, which is what the zero word reads as. -/
theorem padValue_eq (i : S_.Idx) : (sitofp (F := Ideal) .f32 (constantI S_ 32 0#32)) i = Cert.Spec.z0 := by
  show (Scalar.sitofp .f32 0#32 : Ideal .f32) = Ideal.ofBits .f32 0x00000000#32
  rw [sitofp_zero, Ideal.ofBits_zero_f32]

/-- The laid-out array at `(k, r, l)`: position `128 r + l` of row `k` of the transposed array, which is row
    `128 r + l`, column `k` of the padded array — the argument's entry there while `128 r + l < 2000000`, the padding
    value from there on. -/
theorem cm_apply (x : S2000000x3.Idx → EReal) (k : Fin 3) (r : Fin 16384) (l : Fin 128) :
    cm x (ix3 k r l)
      = if h : r.val * 128 + l.val < 2000000 then x (ix2 ⟨r.val * 128 + l.val, h⟩ k) else Cert.Spec.z0 := by
  have hlt : r.val * 128 + l.val < 2097152 := by
    have := r.isLt; have := l.isLt; omega
  unfold cm
  refine (shapeCast_apply _ _ (ix3 k r l) (ix2 k (⟨r.val * 128 + l.val, hlt⟩ : Fin 2097152)) ?_).trans ?_
  · rw [Shape.rowMajor_val_three, Shape.rowMajor_val_two]
    show k.val * 2097152 + (r.val * 128 + l.val) = (k.val * 16384 + r.val) * 128 + l.val
    omega
  refine (transpose_apply _ _ _ (ix2 k (⟨r.val * 128 + l.val, hlt⟩ : Fin 2097152))
    (ix2 (⟨r.val * 128 + l.val, hlt⟩ : Fin 2097152) k) ?_).trans ?_
  · intro b
    match b with
    | ⟨0, _⟩ => rfl
    | ⟨1, _⟩ => rfl
  by_cases h : r.val * 128 + l.val < 2000000
  · rw [dif_pos h]
    refine pad_apply_of_inside _ _ _ x _ _ _ _ (ix2 (⟨r.val * 128 + l.val, h⟩ : Fin 2000000) k) ?_
    intro a
    match a with
    | ⟨0, _⟩ => show r.val * 128 + l.val = 0 + (r.val * 128 + l.val) * (0 + 1); omega
    | ⟨1, _⟩ => show k.val = 0 + k.val * (0 + 1); omega
  · rw [dif_neg h]
    refine (pad_apply_of_not_inside _ _ _ x _ _ _ _ (0 : Fin 2) ?_).trans (padValue_eq _)
    intro hin
    have e : (r.val * 128 + l.val - 0) / (0 + 1) < 2000000 := hin.2.2
    rw [Nat.sub_zero, Nat.div_one] at e
    exact h e

/-- The laid-out array is the component-major layout of the argument. -/
theorem cm_eq_cmaj (x : S2000000x3.Idx → EReal) : cm x = Cert.Spec.cmaj x := by
  funext y
  obtain ⟨k, r, l, rfl⟩ : ∃ (k : Fin 3) (r : Fin 16384) (l : Fin 128), y = ix3 k r l := ⟨y 0, y 1, y 2, eq_ix3 y⟩
  rw [cm_apply]
  rfl

/-! ## The arrays as the region finds them

Each window's array is written by the host operations before the region and by nothing else; running those operations
from the launch memory leaves in it the three layout operations applied to the corresponding argument, which no
operation writes. -/

variable (m : (ℓ : Loc nD τ sig) → Buf (Elt Ideal) ℓ) (c : Dev nD)

/-- Window 0's array when the region is entered: the layout of the first argument. -/
theorem V_main_v2 : (Gen.V (F := Ideal) m c main_v2 : S3x16384x128.Idx → EReal)
    = Cert.Spec.cmaj (m ((c.tc : Thread nD τ).loc main_arg0)) := by
  refine Eq.trans ?_ (cm_eq_cmaj _)
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- Window 1's array when the region is entered: the layout of the second argument. -/
theorem V_main_v5 : (Gen.V (F := Ideal) m c main_v5 : S3x16384x128.Idx → EReal)
    = Cert.Spec.cmaj (m ((c.tc : Thread nD τ).loc main_arg1)) := by
  refine Eq.trans ?_ (cm_eq_cmaj _)
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- Window 2's array when the region is entered: the layout of the third argument. -/
theorem V_main_v8 : (Gen.V (F := Ideal) m c main_v8 : S3x16384x128.Idx → EReal)
    = Cert.Spec.cmaj (m ((c.tc : Thread nD τ).loc main_arg2)) := by
  refine Eq.trans ?_ (cm_eq_cmaj _)
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- Window 3's array when the region is entered: the layout of the fourth argument. -/
theorem V_main_v11 : (Gen.V (F := Ideal) m c main_v11 : S3x16384x128.Idx → EReal)
    = Cert.Spec.cmaj (m ((c.tc : Thread nD τ).loc main_arg3)) := by
  refine Eq.trans ?_ (cm_eq_cmaj _)
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

end Cert.KernelIdeal.KPrefix
-- ==== Proof.KValueBlocks.lean ====
/-
  From blocks to the array: the region's result array after the run, as one function of the four input arrays.

  The kernel runs on a grid of 32 points. Point `t`'s block of each input array `[3, 16384, 128]` is rows
  `512 t … 512 t + 511` (all three components, all 128 lanes); its block of the result array `[3, 4, 16384, 128]` is the
  same rows of all twelve entries. The body's result at a block index is, by hypothesis, `Spec.outC` of the four
  inputs' components at the same row and lane; so the blocks written back are the restrictions of ONE function `G` of
  the input arrays, the 32 blocks cover the result array, and the array ends holding `G`.
-/
import proofs.«170764_j13958643712058_2_alg».proof.Proof.Gen.KernelIdeal.Frame
import proofs.«170764_j13958643712058_2_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

/-- The whole result array of the region as one function of the four component-major input arrays:
    entry `(i, j, R, l)` is entry `(i, j)` of the sample whose components sit at `(·, R, l)`. -/
def G (A0 A1 A2 A3 : S3x16384x128.Idx → EReal) : S3x4x16384x128.Idx → EReal := fun y =>
  Cert.Spec.outC (fun k => A0 (ix3 k (y 2) (y 3))) (fun k => A1 (ix3 k (y 2) (y 3)))
    (fun k => A2 (ix3 k (y 2) (y 3))) (fun k => A3 (ix3 k (y 2) (y 3))) (y 0) (y 1)

/-- The printed index maps, decided over the 32 grid points: every window's block index is the point's number on the
    row axis and zero on the others. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0
    ∧ win0_4.index t (0 : Fin 4) = 0 ∧ win0_4.index t (1 : Fin 4) = 0 ∧ win0_4.index t (2 : Fin 4) = t.val ∧ win0_4.index t (3 : Fin 4) = 0 :=
  (by decide +kernel : ∀ t : Fin grid0.N, _)

/-- The body's result at a block index, when the four input blocks are the rows `512 T + ·` of four arrays, is `G` of
    the arrays at the index moved `T` blocks down the row axis. -/
theorem out_point
    (hbody : ∀ (x0 x1 x2 x3 : Vec Ideal S3x512x128 .f32) (i : Fin 3) (j : Fin 4) (p : Fin 512) (q : Fin 128),
      Gen.out0_4 (F := Ideal) x0 x1 x2 x3 (ix4 i j p q) = Cert.Spec.outC (fun k => x0 (ix3 k p q)) (fun k => x1 (ix3 k p q)) (fun k => x2 (ix3 k p q)) (fun k => x3 (ix3 k p q)) i j)
    (A0 A1 A2 A3 : S3x16384x128.Idx → EReal) (x0 x1 x2 x3 : Vec Ideal S3x512x128 .f32)
    (i : Fin 3) (j : Fin 4) (p : Fin 512) (q : Fin 128) (R : Fin 16384)
    (h0 : ∀ k : Fin 3, x0 (ix3 k p q) = A0 (ix3 k R q)) (h1 : ∀ k : Fin 3, x1 (ix3 k p q) = A1 (ix3 k R q))
    (h2 : ∀ k : Fin 3, x2 (ix3 k p q) = A2 (ix3 k R q)) (h3 : ∀ k : Fin 3, x3 (ix3 k p q) = A3 (ix3 k R q)) :
    Gen.out0_4 (F := Ideal) x0 x1 x2 x3 (ix4 i j p q) = G A0 A1 A2 A3 (ix4 i j R q) := by
  rw [hbody]
  unfold G
  have e0 : (fun k => x0 (ix3 k p q)) = fun k : Fin 3 => A0 (ix3 k R q) := funext h0
  have e1 : (fun k => x1 (ix3 k p q)) = fun k : Fin 3 => A1 (ix3 k R q) := funext h1
  have e2 : (fun k => x2 (ix3 k p q)) = fun k : Fin 3 => A2 (ix3 k R q) := funext h2
  have e3 : (fun k => x3 (ix3 k p q)) = fun k : Fin 3 => A3 (ix3 k R q) := funext h3
  rw [e0, e1, e2, e3]

/-- Window 0's block at point `t` sits `t` blocks down the row axis of its array. -/
theorem emb0 (t : Fin cfg0.N) (k : Fin 3) (p : Fin 512) (q : Fin 128) (R : Fin 16384)
    (hR : R.val = t.val * 512 + p.val) : ((cfg0.win 0).blk t).view.emb (ix3 k p q) = (ix3 k R q : S3x16384x128.Idx) := by
  have hf := idx_facts t
  funext a; apply Fin.ext
  match a with
  | ⟨0, _⟩ => show win0_0.index t (0 : Fin 3) * 3 + 1 * k.val = k.val; omega
  | ⟨1, _⟩ => show win0_0.index t (1 : Fin 3) * 512 + 1 * p.val = R.val; omega
  | ⟨2, _⟩ => show win0_0.index t (2 : Fin 3) * 128 + 1 * q.val = q.val; omega

/-- So an array read through that block, at a block index, is the array at the index moved `t` blocks down. -/
theorem read0 (A : S3x16384x128.Idx → EReal) (t : Fin cfg0.N) (k : Fin 3) (p : Fin 512) (q : Fin 128) (R : Fin 16384)
    (hR : R.val = t.val * 512 + p.val) :
    (((cfg0.win 0).blk t).view.read (Elt Ideal) A : Vec Ideal S3x512x128 .f32) (ix3 k p q) = A (ix3 k R q) := by
  show A (((cfg0.win 0).blk t).view.emb (ix3 k p q)) = A (ix3 k R q)
  rw [emb0 t k p q R hR]

/-- Window 1's block at point `t` sits `t` blocks down the row axis of its array. -/
theorem emb1 (t : Fin cfg0.N) (k : Fin 3) (p : Fin 512) (q : Fin 128) (R : Fin 16384)
    (hR : R.val = t.val * 512 + p.val) : ((cfg0.win 1).blk t).view.emb (ix3 k p q) = (ix3 k R q : S3x16384x128.Idx) := by
  have hf := idx_facts t
  funext a; apply Fin.ext
  match a with
  | ⟨0, _⟩ => show win0_1.index t (0 : Fin 3) * 3 + 1 * k.val = k.val; omega
  | ⟨1, _⟩ => show win0_1.index t (1 : Fin 3) * 512 + 1 * p.val = R.val; omega
  | ⟨2, _⟩ => show win0_1.index t (2 : Fin 3) * 128 + 1 * q.val = q.val; omega

/-- So an array read through that block, at a block index, is the array at the index moved `t` blocks down. -/
theorem read1 (A : S3x16384x128.Idx → EReal) (t : Fin cfg0.N) (k : Fin 3) (p : Fin 512) (q : Fin 128) (R : Fin 16384)
    (hR : R.val = t.val * 512 + p.val) :
    (((cfg0.win 1).blk t).view.read (Elt Ideal) A : Vec Ideal S3x512x128 .f32) (ix3 k p q) = A (ix3 k R q) := by
  show A (((cfg0.win 1).blk t).view.emb (ix3 k p q)) = A (ix3 k R q)
  rw [emb1 t k p q R hR]

/-- Window 2's block at point `t` sits `t` blocks down the row axis of its array. -/
theorem emb2 (t : Fin cfg0.N) (k : Fin 3) (p : Fin 512) (q : Fin 128) (R : Fin 16384)
    (hR : R.val = t.val * 512 + p.val) : ((cfg0.win 2).blk t).view.emb (ix3 k p q) = (ix3 k R q : S3x16384x128.Idx) := by
  have hf := idx_facts t
  funext a; apply Fin.ext
  match a with
  | ⟨0, _⟩ => show win0_2.index t (0 : Fin 3) * 3 + 1 * k.val = k.val; omega
  | ⟨1, _⟩ => show win0_2.index t (1 : Fin 3) * 512 + 1 * p.val = R.val; omega
  | ⟨2, _⟩ => show win0_2.index t (2 : Fin 3) * 128 + 1 * q.val = q.val; omega

/-- So an array read through that block, at a block index, is the array at the index moved `t` blocks down. -/
theorem read2 (A : S3x16384x128.Idx → EReal) (t : Fin cfg0.N) (k : Fin 3) (p : Fin 512) (q : Fin 128) (R : Fin 16384)
    (hR : R.val = t.val * 512 + p.val) :
    (((cfg0.win 2).blk t).view.read (Elt Ideal) A : Vec Ideal S3x512x128 .f32) (ix3 k p q) = A (ix3 k R q) := by
  show A (((cfg0.win 2).blk t).view.emb (ix3 k p q)) = A (ix3 k R q)
  rw [emb2 t k p q R hR]

/-- Window 3's block at point `t` sits `t` blocks down the row axis of its array. -/
theorem emb3 (t : Fin cfg0.N) (k : Fin 3) (p : Fin 512) (q : Fin 128) (R : Fin 16384)
    (hR : R.val = t.val * 512 + p.val) : ((cfg0.win 3).blk t).view.emb (ix3 k p q) = (ix3 k R q : S3x16384x128.Idx) := by
  have hf := idx_facts t
  funext a; apply Fin.ext
  match a with
  | ⟨0, _⟩ => show win0_3.index t (0 : Fin 3) * 3 + 1 * k.val = k.val; omega
  | ⟨1, _⟩ => show win0_3.index t (1 : Fin 3) * 512 + 1 * p.val = R.val; omega
  | ⟨2, _⟩ => show win0_3.index t (2 : Fin 3) * 128 + 1 * q.val = q.val; omega

/-- So an array read through that block, at a block index, is the array at the index moved `t` blocks down. -/
theorem read3 (A : S3x16384x128.Idx → EReal) (t : Fin cfg0.N) (k : Fin 3) (p : Fin 512) (q : Fin 128) (R : Fin 16384)
    (hR : R.val = t.val * 512 + p.val) :
    (((cfg0.win 3).blk t).view.read (Elt Ideal) A : Vec Ideal S3x512x128 .f32) (ix3 k p q) = A (ix3 k R q) := by
  show A (((cfg0.win 3).blk t).view.emb (ix3 k p q)) = A (ix3 k R q)
  rw [emb3 t k p q R hR]

/-- The output window's block at point `t` sits `t` blocks down the row axis of the result array. -/
theorem emb4 (t : Fin cfg0.N) (i : Fin 3) (j : Fin 4) (p : Fin 512) (q : Fin 128) (R : Fin 16384)
    (hR : R.val = t.val * 512 + p.val) : ((cfg0.win 4).blk t).view.emb (ix4 i j p q) = (ix4 i j R q : S3x4x16384x128.Idx) := by
  have hf := idx_facts t
  funext a; apply Fin.ext
  match a with
  | ⟨0, _⟩ => show win0_4.index t (0 : Fin 4) * 3 + 1 * i.val = i.val; omega
  | ⟨1, _⟩ => show win0_4.index t (1 : Fin 4) * 4 + 1 * j.val = j.val; omega
  | ⟨2, _⟩ => show win0_4.index t (2 : Fin 4) * 512 + 1 * p.val = R.val; omega
  | ⟨3, _⟩ => show win0_4.index t (3 : Fin 4) * 128 + 1 * q.val = q.val; omega

/-- WHAT POINT `t` WRITES BACK, over arbitrary arrays: if the four input blocks are block `t` of four arrays, the
    body's result is block `t` of `G` of those arrays. -/
theorem flushed_core (hbody : ∀ (x0 x1 x2 x3 : Vec Ideal S3x512x128 .f32) (i : Fin 3) (j : Fin 4) (p : Fin 512) (q : Fin 128),
      Gen.out0_4 (F := Ideal) x0 x1 x2 x3 (ix4 i j p q) = Cert.Spec.outC (fun k => x0 (ix3 k p q)) (fun k => x1 (ix3 k p q)) (fun k => x2 (ix3 k p q)) (fun k => x3 (ix3 k p q)) i j)
    (t : Fin cfg0.N) (A0 A1 A2 A3 : S3x16384x128.Idx → EReal) (x0 x1 x2 x3 : Vec Ideal S3x512x128 .f32)
    (h0 : x0 = ((cfg0.win 0).blk t).view.read (Elt Ideal) A0) (h1 : x1 = ((cfg0.win 1).blk t).view.read (Elt Ideal) A1)
    (h2 : x2 = ((cfg0.win 2).blk t).view.read (Elt Ideal) A2) (h3 : x3 = ((cfg0.win 3).blk t).view.read (Elt Ideal) A3) :
    (cfg0.win 4).cut (grid0.coords t) (Gen.out0_4 (F := Ideal) x0 x1 x2 x3) = ((cfg0.win 4).blk t).view.read (Elt Ideal) (G A0 A1 A2 A3) := by
  have hN : t.val < 32 := lt_of_lt_of_eq t.isLt N_0
  funext y
  obtain ⟨i, j, p, q, rfl⟩ : ∃ (i : Fin 3) (j : Fin 4) (p : Fin 512) (q : Fin 128), y = ix4 i j p q := ⟨y 0, y 1, y 2, y 3, eq_ix4 y⟩
  have hp : t.val * 512 + p.val < 16384 := by have := p.isLt; omega
  show Gen.out0_4 (F := Ideal) x0 x1 x2 x3 (ix4 i j p q) = G A0 A1 A2 A3 (((cfg0.win 4).blk t).view.emb (ix4 i j p q))
  rw [emb4 t i j p q ⟨t.val * 512 + p.val, hp⟩ rfl]
  refine out_point hbody A0 A1 A2 A3 x0 x1 x2 x3 i j p q ⟨t.val * 512 + p.val, hp⟩ (fun k => ?_) (fun k => ?_) (fun k => ?_) (fun k => ?_)
  · rw [h0]; exact read0 A0 t k p q ⟨t.val * 512 + p.val, hp⟩ rfl
  · rw [h1]; exact read1 A1 t k p q ⟨t.val * 512 + p.val, hp⟩ rfl
  · rw [h2]; exact read2 A2 t k p q ⟨t.val * 512 + p.val, hp⟩ rfl
  · rw [h3]; exact read3 A3 t k p q ⟨t.val * 512 + p.val, hp⟩ rfl

variable (m : (ℓ : Loc nD τ sig) → Buf (Elt Ideal) ℓ)

/-- WHAT POINT `t` WRITES BACK is block `t` of `G` of the four input arrays as the region finds them (named `A0 … A3`). -/
theorem flushed_eq (hbody : ∀ (x0 x1 x2 x3 : Vec Ideal S3x512x128 .f32) (i : Fin 3) (j : Fin 4) (p : Fin 512) (q : Fin 128),
      Gen.out0_4 (F := Ideal) x0 x1 x2 x3 (ix4 i j p q) = Cert.Spec.outC (fun k => x0 (ix3 k p q)) (fun k => x1 (ix3 k p q)) (fun k => x2 (ix3 k p q)) (fun k => x3 (ix3 k p q)) i j)
    (c : Dev nD) (A0 A1 A2 A3 : S3x16384x128.Idx → EReal)
    (hA0 : (V m c (Pipeline.arrRef spec0 (0 : Fin cfg0.W)) : S3x16384x128.Idx → EReal) = A0)
    (hA1 : (V m c (Pipeline.arrRef spec0 (1 : Fin cfg0.W)) : S3x16384x128.Idx → EReal) = A1)
    (hA2 : (V m c (Pipeline.arrRef spec0 (2 : Fin cfg0.W)) : S3x16384x128.Idx → EReal) = A2)
    (hA3 : (V m c (Pipeline.arrRef spec0 (3 : Fin cfg0.W)) : S3x16384x128.Idx → EReal) = A3)
    (t : Fin cfg0.N) :
    (dats m 0 c).flushed 4 t = ((cfg0.win 4).blk t).view.read (Elt Ideal) (G A0 A1 A2 A3) := by
  show (cfg0.win 4).cut (grid0.coords t) ((dats m 0 c).after 4 t) = _
  rw [after0_4]
  refine flushed_core hbody t A0 A1 A2 A3 (iblk m c 0 t) (iblk m c 1 t) (iblk m c 2 t) (iblk m c 3 t) ?_ ?_ ?_ ?_
  · unfold iblk; rw [hA0]
  · unfold iblk; rw [hA1]
  · unfold iblk; rw [hA2]
  · unfold iblk; rw [hA3]

/-- An index of the result array is in point `t`'s block iff each coordinate is in the block's range on its axis. -/
theorem mem_blk (t : Fin cfg0.N) (i : S3x4x16384x128.Idx) :
    i ∈ ((cfg0.win 4).blk t).view.set ↔ ∀ a : Fin 4, win0_4.index t a * S3x4x512x128.size a ≤ (i a).val ∧ (i a).val < win0_4.index t a * S3x4x512x128.size a + S3x4x512x128.size a := by
  show i ∈ ((View.whole main_v12).slice (win0_4.rect t)).set ↔ _
  rw [View.set_slice_whole, Rect.mem_set_unit]
  exact Iff.rfl

/-- Every index of the result array is in some point's block: row `R` is in the block of point `R / 512`. -/
theorem cover (i : S3x4x16384x128.Idx) : ∃ t : Fin cfg0.N, (cfg0.win 4).flush t = true ∧ i ∈ ((cfg0.win 4).blk t).view.set := by
  have h0 : (i 0).val < 3 := (i 0).isLt
  have h1 : (i 1).val < 4 := (i 1).isLt
  have h2 : (i 2).val < 16384 := (i 2).isLt
  have h3 : (i 3).val < 128 := (i 3).isLt
  obtain ⟨t, ht⟩ : ∃ t : Fin cfg0.N, t.val = (i 2).val / 512 := ⟨⟨(i 2).val / 512, by rw [show cfg0.N = 32 from N_0]; omega⟩, rfl⟩
  have hf := idx_facts t
  refine ⟨t, flush0_4 t, ?_⟩
  rw [mem_blk]
  intro a
  match a with
  | ⟨0, _⟩ => show win0_4.index t (0 : Fin 4) * 3 ≤ (i 0).val ∧ (i 0).val < win0_4.index t (0 : Fin 4) * 3 + 3; omega
  | ⟨1, _⟩ => show win0_4.index t (1 : Fin 4) * 4 ≤ (i 1).val ∧ (i 1).val < win0_4.index t (1 : Fin 4) * 4 + 4; omega
  | ⟨2, _⟩ => show win0_4.index t (2 : Fin 4) * 512 ≤ (i 2).val ∧ (i 2).val < win0_4.index t (2 : Fin 4) * 512 + 512; omega
  | ⟨3, _⟩ => show win0_4.index t (3 : Fin 4) * 128 ≤ (i 3).val ∧ (i 3).val < win0_4.index t (3 : Fin 4) * 128 + 128; omega

/-- THE RESULT ARRAY OF THE REGION after the run is `G` of the four input arrays as the region finds them. -/
theorem final (hbody : ∀ (x0 x1 x2 x3 : Vec Ideal S3x512x128 .f32) (i : Fin 3) (j : Fin 4) (p : Fin 512) (q : Fin 128),
      Gen.out0_4 (F := Ideal) x0 x1 x2 x3 (ix4 i j p q) = Cert.Spec.outC (fun k => x0 (ix3 k p q)) (fun k => x1 (ix3 k p q)) (fun k => x2 (ix3 k p q)) (fun k => x3 (ix3 k p q)) i j)
    (c : Dev nD) (A0 A1 A2 A3 : S3x16384x128.Idx → EReal)
    (hA0 : (V m c (Pipeline.arrRef spec0 (0 : Fin cfg0.W)) : S3x16384x128.Idx → EReal) = A0)
    (hA1 : (V m c (Pipeline.arrRef spec0 (1 : Fin cfg0.W)) : S3x16384x128.Idx → EReal) = A1)
    (hA2 : (V m c (Pipeline.arrRef spec0 (2 : Fin cfg0.W)) : S3x16384x128.Idx → EReal) = A2)
    (hA3 : (V m c (Pipeline.arrRef spec0 (3 : Fin cfg0.W)) : S3x16384x128.Idx → EReal) = A3) :
    (dats m 0 c).arrAt 4 cfg0.N = G A0 A1 A2 A3 :=
  (dats m 0 c).arrAt_eq_of_cover 4 (G A0 A1 A2 A3) (fun t _ => flushed_eq m hbody c A0 A1 A2 A3 hA0 hA1 hA2 hA3 t) cover

end Cert.KernelIdeal.KValue

end
-- ==== Proof.KValue.lean ====
/-
  The kernel program's result, from the body's value and the region-entry arrays.

  After the region the result array `[3, 4, 16384, 128]` holds `G` of the four input arrays (the blocks-to-array
  module). The host then transposes it to `[16384, 128, 3, 4]`, reshapes it to `[2097152, 3, 4]` and keeps the first
  2000000 rows: entry `(n, i, j)` of the result buffer is entry `(i, j, n / 128, n % 128)` of the region's array.
  The four input arrays are the component-major layouts of the four arguments, whose entry `(k, n / 128, n % 128)` is
  component `k` of sample `n`; so the result buffer is the specification's result array, sample by sample.
-/
import proofs.«170764_j13958643712058_2_alg».proof.Proof.KValueBlocks
import Idealize.ShloMosaic.Lib.StableHlo.Run

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

/-! ## The host operations after the region, read at an index -/

/-- The transpose `[3, 4, 16384, 128] → [16384, 128, 3, 4]` followed by the reshape to `[2097152, 3, 4]`, read at
    `(n, i, j)`: entry `(i, j)` at row `n / 128`, lane `n % 128`. -/
theorem reshape_transpose_apply (X : S3x4x16384x128.Idx → EReal) (n : Fin 2097152) (i : Fin 3) (j : Fin 4)
    (hr : n.val / 128 < 16384) (hl : n.val % 128 < 128) :
    shapeCast S2097152x3x4 (transpose S16384x128x3x4 [2, 3, 0, 1] X transposes_S3x4x16384x128_S16384x128x3x4_2_3_0_1)
        shapeCasts_S16384x128x3x4_S2097152x3x4 (ix3 n i j)
      = X (ix4 i j ⟨n.val / 128, hr⟩ ⟨n.val % 128, hl⟩) := by
  refine (shapeCast_apply _ shapeCasts_S16384x128x3x4_S2097152x3x4 (ix3 n i j)
    (ix4 (⟨n.val / 128, hr⟩ : Fin 16384) (⟨n.val % 128, hl⟩ : Fin 128) i j : S16384x128x3x4.Idx) ?_).trans ?_
  · rw [Shape.rowMajor_val_four, Shape.rowMajor_val_three]
    show ((n.val / 128 * 128 + n.val % 128) * 3 + i.val) * 4 + j.val = (n.val * 3 + i.val) * 4 + j.val
    have hn : n.val / 128 * 128 + n.val % 128 = n.val := by omega
    rw [hn]
  · refine transpose_apply _ X transposes_S3x4x16384x128_S16384x128x3x4_2_3_0_1 _
      (ix4 i j (⟨n.val / 128, hr⟩ : Fin 16384) (⟨n.val % 128, hl⟩ : Fin 128) : S3x4x16384x128.Idx) fun b => ?_
    match b with
    | ⟨0, _⟩ => rfl
    | ⟨1, _⟩ => rfl
    | ⟨2, _⟩ => rfl
    | ⟨3, _⟩ => rfl

/-! ## The component-major layout undone -/

/-- Entry `(k, n / 128, n % 128)` of the component-major layout of a `[2000000, 3]` array is component `k` of row `n`. -/
theorem cmaj_row (x : S2000000x3.Idx → EReal) (n : Fin 2000000) (k : Fin 3) (hr : n.val / 128 < 16384) (hl : n.val % 128 < 128) :
    Cert.Spec.cmaj x (ix3 k ⟨n.val / 128, hr⟩ ⟨n.val % 128, hl⟩) = Cert.Spec.row x n k := by
  have hn : n.val / 128 * 128 + n.val % 128 = n.val := by omega
  have hlt : n.val / 128 * 128 + n.val % 128 < 2000000 := by have := n.isLt; omega
  show (if h : n.val / 128 * 128 + n.val % 128 < 2000000 then x (ix2 ⟨n.val / 128 * 128 + n.val % 128, h⟩ k) else Cert.Spec.z0) = x (ix2 n k)
  rw [dif_pos hlt]
  have e : (⟨n.val / 128 * 128 + n.val % 128, hlt⟩ : Fin 2000000) = n := Fin.ext hn
  rw [e]

/-- So `G` of the four component-major layouts, at `(i, j, n / 128, n % 128)`, is entry `(n, i, j)` of the
    specification's result array. -/
theorem G_cmaj (a0 a1 a2 a3 : S2000000x3.Idx → EReal) (n : Fin 2000000) (i : Fin 3) (j : Fin 4)
    (hr : n.val / 128 < 16384) (hl : n.val % 128 < 128) :
    G (Cert.Spec.cmaj a0) (Cert.Spec.cmaj a1) (Cert.Spec.cmaj a2) (Cert.Spec.cmaj a3) (ix4 i j ⟨n.val / 128, hr⟩ ⟨n.val % 128, hl⟩)
      = Cert.Spec.arrC a0 a1 a2 a3 (ix3 n i j) := by
  show Cert.Spec.outC (fun k => Cert.Spec.cmaj a0 (ix3 k ⟨n.val / 128, hr⟩ ⟨n.val % 128, hl⟩))
        (fun k => Cert.Spec.cmaj a1 (ix3 k ⟨n.val / 128, hr⟩ ⟨n.val % 128, hl⟩))
        (fun k => Cert.Spec.cmaj a2 (ix3 k ⟨n.val / 128, hr⟩ ⟨n.val % 128, hl⟩))
        (fun k => Cert.Spec.cmaj a3 (ix3 k ⟨n.val / 128, hr⟩ ⟨n.val % 128, hl⟩)) i j
      = Cert.Spec.outC (Cert.Spec.row a0 n) (Cert.Spec.row a1 n) (Cert.Spec.row a2 n) (Cert.Spec.row a3 n) i j
  have e0 : (fun k => Cert.Spec.cmaj a0 (ix3 k ⟨n.val / 128, hr⟩ ⟨n.val % 128, hl⟩)) = Cert.Spec.row a0 n := funext fun k => cmaj_row a0 n k hr hl
  have e1 : (fun k => Cert.Spec.cmaj a1 (ix3 k ⟨n.val / 128, hr⟩ ⟨n.val % 128, hl⟩)) = Cert.Spec.row a1 n := funext fun k => cmaj_row a1 n k hr hl
  have e2 : (fun k => Cert.Spec.cmaj a2 (ix3 k ⟨n.val / 128, hr⟩ ⟨n.val % 128, hl⟩)) = Cert.Spec.row a2 n := funext fun k => cmaj_row a2 n k hr hl
  have e3 : (fun k => Cert.Spec.cmaj a3 (ix3 k ⟨n.val / 128, hr⟩ ⟨n.val % 128, hl⟩)) = Cert.Spec.row a3 n := funext fun k => cmaj_row a3 n k hr hl
  rw [e0, e1, e2, e3]

/-! ## The kernel program's result -/

variable (m : (ℓ : Loc nD τ sig) → Buf (Elt Ideal) ℓ)

/-- The arrays the region's windows stage are the four reshaped inputs, by name. -/
theorem V_arr0 (c : Dev nD) : (V m c (Pipeline.arrRef spec0 (0 : Fin cfg0.W)) : S3x16384x128.Idx → EReal) = V m c main_v2 := rfl
theorem V_arr1 (c : Dev nD) : (V m c (Pipeline.arrRef spec0 (1 : Fin cfg0.W)) : S3x16384x128.Idx → EReal) = V m c main_v5 := rfl
theorem V_arr2 (c : Dev nD) : (V m c (Pipeline.arrRef spec0 (2 : Fin cfg0.W)) : S3x16384x128.Idx → EReal) = V m c main_v8 := rfl
theorem V_arr3 (c : Dev nD) : (V m c (Pipeline.arrRef spec0 (3 : Fin cfg0.W)) : S3x16384x128.Idx → EReal) = V m c main_v11 := rfl

/-- What the host operations after the region leave in the result buffer: the region's result array transposed,
    reshaped and cut to the first 2000000 rows, that is `G` of the input arrays at `(i, j, n / 128, n % 128)`. -/
theorem tail_value (hbody : ∀ (x0 x1 x2 x3 : Vec Ideal S3x512x128 .f32) (i : Fin 3) (j : Fin 4) (p : Fin 512) (q : Fin 128),
      Gen.out0_4 (F := Ideal) x0 x1 x2 x3 (ix4 i j p q) = Cert.Spec.outC (fun k => x0 (ix3 k p q)) (fun k => x1 (ix3 k p q)) (fun k => x2 (ix3 k p q)) (fun k => x3 (ix3 k p q)) i j)
    (c : Dev nD) (A0 A1 A2 A3 : S3x16384x128.Idx → EReal)
    (hA0 : (V m c (Pipeline.arrRef spec0 (0 : Fin cfg0.W)) : S3x16384x128.Idx → EReal) = A0)
    (hA1 : (V m c (Pipeline.arrRef spec0 (1 : Fin cfg0.W)) : S3x16384x128.Idx → EReal) = A1)
    (hA2 : (V m c (Pipeline.arrRef spec0 (2 : Fin cfg0.W)) : S3x16384x128.Idx → EReal) = A2)
    (hA3 : (V m c (Pipeline.arrRef spec0 (3 : Fin cfg0.W)) : S3x16384x128.Idx → EReal) = A3)
    (n : Fin 2000000) (i : Fin 3) (j : Fin 4) (hr : n.val / 128 < 16384) (hl : n.val % 128 < 128) :
    (Pipeline.afterTail₀ cfgs (dats m) 0 (V0 m) [hostOps1] c main_v15 : S2000000x3x4.Idx → EReal) (ix3 n i j)
      = G A0 A1 A2 A3 (ix4 i j ⟨n.val / 128, hr⟩ ⟨n.val % 128, hl⟩) := by
  unfold Pipeline.afterTail₀
  show StableHlo.after hostOps1 _ (Proc.devRef .tc main_v15) _ = _
  after_results
  rw [show Pipeline.withArrays (cfgs 0).spec c (V0 m c) (fun w => (dats m 0 c).arrAt w (cfgs 0).N) (Proc.tc.devRef main_v12)
        = G A0 A1 A2 A3 from
      (Pipeline.withArrays_arr spec0 launch0.win.arr_inj c _ _ 4).trans (final m hbody c A0 A1 A2 A3 hA0 hA1 hA2 hA3)]
  have hn : n.val < 2097152 := by have := n.isLt; omega
  refine (extractStridedSlice_apply _ _ slices_S2097152x3x4_S2000000x3x4_0_0_0 (ix3 n i j)
    (ix3 (⟨n.val, hn⟩ : Fin 2097152) i j : S2097152x3x4.Idx) fun a => ?_).trans ?_
  · match a with
    | ⟨0, _⟩ => show n.val = 0 + n.val; omega
    | ⟨1, _⟩ => show i.val = 0 + i.val; omega
    | ⟨2, _⟩ => show j.val = 0 + j.val; omega
  · exact reshape_transpose_apply (G A0 A1 A2 A3) ⟨n.val, hn⟩ i j hr hl

/-- THE RESULT BUFFER after the whole program: the specification's result array of the four argument arrays. -/
theorem result_value (hbody : ∀ (x0 x1 x2 x3 : Vec Ideal S3x512x128 .f32) (i : Fin 3) (j : Fin 4) (p : Fin 512) (q : Fin 128),
      Gen.out0_4 (F := Ideal) x0 x1 x2 x3 (ix4 i j p q) = Cert.Spec.outC (fun k => x0 (ix3 k p q)) (fun k => x1 (ix3 k p q)) (fun k => x2 (ix3 k p q)) (fun k => x3 (ix3 k p q)) i j)
    (hpre : ∀ (m : (ℓ : Loc nD τ sig) → Buf (Elt Ideal) ℓ) (c : Dev nD),
      (Gen.V (F := Ideal) m c main_v2 : S3x16384x128.Idx → EReal) = Cert.Spec.cmaj (m ((c.tc : Thread nD τ).loc main_arg0))
      ∧ (Gen.V (F := Ideal) m c main_v5 : S3x16384x128.Idx → EReal) = Cert.Spec.cmaj (m ((c.tc : Thread nD τ).loc main_arg1))
      ∧ (Gen.V (F := Ideal) m c main_v8 : S3x16384x128.Idx → EReal) = Cert.Spec.cmaj (m ((c.tc : Thread nD τ).loc main_arg2))
      ∧ (Gen.V (F := Ideal) m c main_v11 : S3x16384x128.Idx → EReal) = Cert.Spec.cmaj (m ((c.tc : Thread nD τ).loc main_arg3)))
    (c : Dev nD) :
    (Pipeline.afterTail₀ cfgs (dats m) 0 (V0 m) [hostOps1] c main_v15 : S2000000x3x4.Idx → EReal)
      = Cert.Spec.arrC (m ((c.tc : Thread nD τ).loc main_arg0)) (m ((c.tc : Thread nD τ).loc main_arg1))
          (m ((c.tc : Thread nD τ).loc main_arg2)) (m ((c.tc : Thread nD τ).loc main_arg3)) := by
  obtain ⟨p0, p1, p2, p3⟩ := hpre m c
  funext y
  obtain ⟨n, i, j, rfl⟩ : ∃ (n : Fin 2000000) (i : Fin 3) (j : Fin 4), y = ix3 n i j := ⟨y 0, y 1, y 2, eq_ix3 y⟩
  have hr : n.val / 128 < 16384 := by have := n.isLt; omega
  have hl : n.val % 128 < 128 := Nat.mod_lt _ (by decide)
  rw [tail_value m hbody c _ _ _ _ ((V_arr0 m c).trans p0) ((V_arr1 m c).trans p1) ((V_arr2 m c).trans p2) ((V_arr3 m c).trans p3) n i j hr hl]
  exact G_cmaj _ _ _ _ n i j hr hl

/-- THE KERNEL PROGRAM'S RUN, READ: from any memory, every weakly fair execution terminates with the result buffer at the
    specification's result array of the four argument arrays and the arguments unchanged — given the body's value
    (`hbody`) and the region-entry arrays (`hpre`). -/
theorem run_of (hbody : ∀ (x0 x1 x2 x3 : Vec Ideal S3x512x128 .f32) (i : Fin 3) (j : Fin 4) (p : Fin 512) (q : Fin 128),
      Gen.out0_4 (F := Ideal) x0 x1 x2 x3 (ix4 i j p q) = Cert.Spec.outC (fun k => x0 (ix3 k p q)) (fun k => x1 (ix3 k p q)) (fun k => x2 (ix3 k p q)) (fun k => x3 (ix3 k p q)) i j)
    (hpre : ∀ (m : (ℓ : Loc nD τ sig) → Buf (Elt Ideal) ℓ) (c : Dev nD),
      (Gen.V (F := Ideal) m c main_v2 : S3x16384x128.Idx → EReal) = Cert.Spec.cmaj (m ((c.tc : Thread nD τ).loc main_arg0))
      ∧ (Gen.V (F := Ideal) m c main_v5 : S3x16384x128.Idx → EReal) = Cert.Spec.cmaj (m ((c.tc : Thread nD τ).loc main_arg1))
      ∧ (Gen.V (F := Ideal) m c main_v8 : S3x16384x128.Idx → EReal) = Cert.Spec.cmaj (m ((c.tc : Thread nD τ).loc main_arg2))
      ∧ (Gen.V (F := Ideal) m c main_v11 : S3x16384x128.Idx → EReal) = Cert.Spec.cmaj (m ((c.tc : Thread nD τ).loc main_arg3)))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
          = Cert.Spec.arrC (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).2 main_v15 (Pipeline.mem_restRefs_of main_v15 (by decide) (by decide))).trans (result_value m hbody hpre c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.KValue

end
-- ==== Proof.RefCoef.lean ====
/-
  The reference's scalar stretch, read at a sample: the squared norm of a 3-vector as the reduce-add of its squared
  components, the angle, the comparison with the threshold, and the two guarded coefficients sin θ / θ and
  (1 - cos θ) / θ², for the rotation vector and for the scaling direction.
-/
import proofs.«170764_j13958643712058_2_alg».proof.Proof.RefRead
import proofs.«170764_j13958643712058_2_alg».proof.Proof.Spec

noncomputable section

open scoped BigOperators

namespace Cert.ReferenceIdeal.RefValue

open Cert.ReferenceIdeal Cert.ReferenceIdeal.ReadP Idealize.ShloMosaic Idealize.ShloMosaic.ValueIdx

/-- A `[2000000, 3]` array of extended reals. -/
abbrev Arr : Type := (⟨S2000000x3, .f32⟩ : BufTy).Contents (Elt Ideal)

/-! ## The rotation vector's squared norm and the two coefficients -/

/-- The reduce-add over the three components, started at the zero word, is the specification's squared norm. -/
theorem normSq_r (x : Arr) (n : Fin 2000000) :
    val_main_v1 (F := Ideal) x (ix1 n) = Spec.normSqM (Spec.row x n) := by
  have e : ∀ k : Fin 3, idx_main_v1 (ix1 n) k = ix2 n k := fun k =>
    funext fun a => Fin.ext (by match a with | ⟨0, _⟩ => rfl | ⟨1, _⟩ => rfl)
  rw [val_main_v1_apply]
  simp only [e]
  rfl

/-- The angle. -/
theorem theta_r (x : Arr) (n : Fin 2000000) :
    val_main_v2 (F := Ideal) x (ix1 n) = Ideal.sqrt (Spec.normSqM (Spec.row x n)) := by
  rw [val_main_v2_apply, normSq_r]
  rfl

/-- The comparison of the angle with the threshold. -/
theorem small_r (x : Arr) (n : Fin 2000000) :
    val_main_v4 (F := Ideal) x (ix1 n) = Spec.small (Spec.normSqM (Spec.row x n)) := by
  rw [val_main_v4_apply, theta_r, val_main_v3_apply]
  rfl

/-- `sin θ / θ`, guarded. -/
theorem coefA_r (x : Arr) (n : Fin 2000000) :
    val_main_v9 (F := Ideal) x (ix1 n) = Spec.coefA (Spec.normSqM (Spec.row x n)) := by
  rw [val_main_v9_apply, val_main_v8_apply, val_main_v7_apply, val_main_v5_apply, small_r, theta_r, val_main_call2_v1_apply,
    val_main_call0_v1_apply]
  rfl

/-- `(1 - cos θ) / θ²`, guarded. -/
theorem coefB_r (x : Arr) (n : Fin 2000000) :
    val_main_v14 (F := Ideal) x (ix1 n) = Spec.coefB (Spec.normSqM (Spec.row x n)) := by
  rw [val_main_v14_apply, val_main_v13_apply, val_main_v12_apply, val_main_v10_apply, val_main_v6_apply, small_r, theta_r, normSq_r,
    val_main_call3_v1_apply, val_main_call1_v1_apply, val_main_v11_apply]
  rfl

/-! ## The scaling direction's squared norm and the two coefficients -/

/-- The reduce-add over the three components, started at the zero word, is the specification's squared norm. -/
theorem normSq_w (x : Arr) (n : Fin 2000000) :
    val_main_v67 (F := Ideal) x (ix1 n) = Spec.normSqM (Spec.row x n) := by
  have e : ∀ k : Fin 3, idx_main_v67 (ix1 n) k = ix2 n k := fun k =>
    funext fun a => Fin.ext (by match a with | ⟨0, _⟩ => rfl | ⟨1, _⟩ => rfl)
  rw [val_main_v67_apply]
  simp only [e]
  rfl

/-- The angle. -/
theorem theta_w (x : Arr) (n : Fin 2000000) :
    val_main_v68 (F := Ideal) x (ix1 n) = Ideal.sqrt (Spec.normSqM (Spec.row x n)) := by
  rw [val_main_v68_apply, normSq_w]
  rfl

/-- The comparison of the angle with the threshold. -/
theorem small_w (x : Arr) (n : Fin 2000000) :
    val_main_v70 (F := Ideal) x (ix1 n) = Spec.small (Spec.normSqM (Spec.row x n)) := by
  rw [val_main_v70_apply, theta_w, val_main_v69_apply]
  rfl

/-- `sin θ / θ`, guarded. -/
theorem coefA_w (x : Arr) (n : Fin 2000000) :
    val_main_v75 (F := Ideal) x (ix1 n) = Spec.coefA (Spec.normSqM (Spec.row x n)) := by
  rw [val_main_v75_apply, val_main_v74_apply, val_main_v73_apply, val_main_v71_apply, small_w, theta_w, val_main_call6_v1_apply,
    val_main_call4_v1_apply]
  rfl

/-- `(1 - cos θ) / θ²`, guarded. -/
theorem coefB_w (x : Arr) (n : Fin 2000000) :
    val_main_v80 (F := Ideal) x (ix1 n) = Spec.coefB (Spec.normSqM (Spec.row x n)) := by
  rw [val_main_v80_apply, val_main_v79_apply, val_main_v78_apply, val_main_v76_apply, val_main_v72_apply, small_w, theta_w, normSq_w,
    val_main_call7_v1_apply, val_main_call5_v1_apply, val_main_v77_apply]
  rfl

end Cert.ReferenceIdeal.RefValue

end
-- ==== Proof.RefConcat.lean ====
/-
  Rank-3 concatenations read at an index given by coordinates.

  Three slabs [R, 1, C] stacked along the middle axis give an [R, 3, C] array whose entry (r, g, c) is slab g at
  (r, 0, c). Two arrays [R, M, C₁] and [R, M, C₂] joined along the last axis give an [R, M, C] array whose entry
  (r, m, g) is the first array at (r, m, g) for a column g of the first, and the second at (r, m, g - C₁) otherwise;
  the coordinate inside the piece is given with the equation that ties it to the joined coordinate.
-/
import Idealize.ShloMosaic.Lib.Pipeline.Value
import Idealize.ShloMosaic.Lib.ValueIdx

namespace Cert.ReferenceIdeal.RefConcat

open Idealize.ShloMosaic Idealize.ShloMosaic.ValueIdx

variable {α : Type}

section Slabs

variable {R C N : ℕ} (A B D : (⟨3, ![R, 1, C]⟩ : Shape).Idx → α)
  (h : Shape.Concatenates [(⟨3, ![R, 1, C]⟩ : Shape), ⟨3, ![R, 1, C]⟩, ⟨3, ![R, 1, C]⟩] ⟨3, ![R, N, C]⟩ 1)

/-- Row 0 of the middle axis is the first slab. -/
theorem slab_first (r : Fin R) (g : Fin N) (c : Fin C) (hg : g.val = 0) :
    concatenate ⟨3, ![R, N, C]⟩ 1 [⟨⟨3, ![R, 1, C]⟩, A⟩, ⟨⟨3, ![R, 1, C]⟩, B⟩, ⟨⟨3, ![R, 1, C]⟩, D⟩] h (ix3 r g c)
      = A (ix3 r 0 c) :=
  concatenate_apply_piece 1 [⟨⟨3, ![R, 1, C]⟩, A⟩, ⟨⟨3, ![R, 1, C]⟩, B⟩, ⟨⟨3, ![R, 1, C]⟩, D⟩] h (ix3 r g c) 0 (by simp) _ A rfl rfl
    0 rfl (ix3 r 0 c)
    (fun b hb => by match b with | ⟨0, _⟩ => rfl | ⟨1, _⟩ => exact absurd rfl hb | ⟨2, _⟩ => rfl)
    (by show 0 + 0 = g.val; omega)

/-- Row 1 of the middle axis is the second slab. -/
theorem slab_second (r : Fin R) (g : Fin N) (c : Fin C) (hg : g.val = 1) :
    concatenate ⟨3, ![R, N, C]⟩ 1 [⟨⟨3, ![R, 1, C]⟩, A⟩, ⟨⟨3, ![R, 1, C]⟩, B⟩, ⟨⟨3, ![R, 1, C]⟩, D⟩] h (ix3 r g c)
      = B (ix3 r 0 c) :=
  concatenate_apply_piece 1 [⟨⟨3, ![R, 1, C]⟩, A⟩, ⟨⟨3, ![R, 1, C]⟩, B⟩, ⟨⟨3, ![R, 1, C]⟩, D⟩] h (ix3 r g c) 1 (by simp) _ B rfl rfl
    1 (by simp) (ix3 r 0 c)
    (fun b hb => by match b with | ⟨0, _⟩ => rfl | ⟨1, _⟩ => exact absurd rfl hb | ⟨2, _⟩ => rfl)
    (by show 1 + 0 = g.val; omega)

/-- Row 2 of the middle axis is the third slab. -/
theorem slab_third (r : Fin R) (g : Fin N) (c : Fin C) (hg : g.val = 2) :
    concatenate ⟨3, ![R, N, C]⟩ 1 [⟨⟨3, ![R, 1, C]⟩, A⟩, ⟨⟨3, ![R, 1, C]⟩, B⟩, ⟨⟨3, ![R, 1, C]⟩, D⟩] h (ix3 r g c)
      = D (ix3 r 0 c) :=
  concatenate_apply_piece 1 [⟨⟨3, ![R, 1, C]⟩, A⟩, ⟨⟨3, ![R, 1, C]⟩, B⟩, ⟨⟨3, ![R, 1, C]⟩, D⟩] h (ix3 r g c) 2 (by simp) _ D rfl rfl
    2 (by simp) (ix3 r 0 c)
    (fun b hb => by match b with | ⟨0, _⟩ => rfl | ⟨1, _⟩ => exact absurd rfl hb | ⟨2, _⟩ => rfl)
    (by show 2 + 0 = g.val; omega)

end Slabs

section LastAxis

variable {R M C₁ C₂ C : ℕ} (a : (⟨3, ![R, M, C₁]⟩ : Shape).Idx → α) (b : (⟨3, ![R, M, C₂]⟩ : Shape).Idx → α)
  (h : Shape.Concatenates [(⟨3, ![R, M, C₁]⟩ : Shape), ⟨3, ![R, M, C₂]⟩] ⟨3, ![R, M, C]⟩ 2)

/-- Joined along the last axis, a column of the first piece. -/
theorem last_left (r : Fin R) (m : Fin M) (g : Fin C) (g' : Fin C₁) (hg : g'.val = g.val) :
    concatenate ⟨3, ![R, M, C]⟩ 2 [⟨⟨3, ![R, M, C₁]⟩, a⟩, ⟨⟨3, ![R, M, C₂]⟩, b⟩] h (ix3 r m g) = a (ix3 r m g') :=
  concatenate_pair_apply_left 2 a b h (ix3 r m g) rfl (ix3 r m g') fun ax => by
    match ax with
    | ⟨0, _⟩ => rfl
    | ⟨1, _⟩ => rfl
    | ⟨2, _⟩ => exact hg

/-- Joined along the last axis, a column of the second piece. -/
theorem last_right (r : Fin R) (m : Fin M) (g : Fin C) (g' : Fin C₂) (hg : g'.val + C₁ = g.val) :
    concatenate ⟨3, ![R, M, C]⟩ 2 [⟨⟨3, ![R, M, C₁]⟩, a⟩, ⟨⟨3, ![R, M, C₂]⟩, b⟩] h (ix3 r m g) = b (ix3 r m g') :=
  concatenate_pair_apply_right 2 a b h (ix3 r m g) rfl rfl (ix3 r m g')
    (fun ax hne => by
      match ax with
      | ⟨0, _⟩ => rfl
      | ⟨1, _⟩ => rfl
      | ⟨2, _⟩ => exact absurd rfl hne)
    hg

end LastAxis

end Cert.ReferenceIdeal.RefConcat
-- ==== Proof.LibConcat3.lean ====
/-
  Three pieces of one shape laid side by side, read at an index.

  A concatenation of three R x C matrices along the columns reads, at (r, g), piece k at (r, c) when g = k·C + c;
  a concatenation of three length-C vectors reads, at g, piece k at c when g = k·C + c. Stated piece by piece.
-/
import Idealize.ShloMosaic.Lib.Pipeline.Value
import Idealize.ShloMosaic.Lib.ValueIdx

namespace Cert.LibConcat3

open Idealize.ShloMosaic Idealize.ShloMosaic.ValueIdx

variable {α : Type}

section Columns

variable {R C N : ℕ} (A B D : (⟨2, ![R, C]⟩ : Shape).Idx → α)
  (h : Shape.Concatenates [(⟨2, ![R, C]⟩ : Shape), ⟨2, ![R, C]⟩, ⟨2, ![R, C]⟩] ⟨2, ![R, N]⟩ 1)

/-- Columns 0 … C-1 are the first piece. -/
theorem cols_first (r : Fin R) (c : Fin C) (g : Fin N) (hg : g.val = c.val) :
    concatenate ⟨2, ![R, N]⟩ 1 [⟨⟨2, ![R, C]⟩, A⟩, ⟨⟨2, ![R, C]⟩, B⟩, ⟨⟨2, ![R, C]⟩, D⟩] h (ix2 r g) = A (ix2 r c) :=
  concatenate_apply_piece 1 [⟨⟨2, ![R, C]⟩, A⟩, ⟨⟨2, ![R, C]⟩, B⟩, ⟨⟨2, ![R, C]⟩, D⟩] h (ix2 r g) 0 (by simp) _ A rfl rfl 0 rfl (ix2 r c)
    (fun b hb => by match b with | ⟨0, _⟩ => rfl | ⟨1, _⟩ => exact absurd rfl hb)
    (by show 0 + c.val = g.val; omega)

/-- Columns C … 2C-1 are the second piece. -/
theorem cols_second (r : Fin R) (c : Fin C) (g : Fin N) (hg : g.val = C + c.val) :
    concatenate ⟨2, ![R, N]⟩ 1 [⟨⟨2, ![R, C]⟩, A⟩, ⟨⟨2, ![R, C]⟩, B⟩, ⟨⟨2, ![R, C]⟩, D⟩] h (ix2 r g) = B (ix2 r c) :=
  concatenate_apply_piece 1 [⟨⟨2, ![R, C]⟩, A⟩, ⟨⟨2, ![R, C]⟩, B⟩, ⟨⟨2, ![R, C]⟩, D⟩] h (ix2 r g) 1 (by simp) _ B rfl rfl C (by simp) (ix2 r c)
    (fun b hb => by match b with | ⟨0, _⟩ => rfl | ⟨1, _⟩ => exact absurd rfl hb)
    (by show C + c.val = g.val; omega)

/-- Columns 2C … 3C-1 are the third piece. -/
theorem cols_third (r : Fin R) (c : Fin C) (g : Fin N) (hg : g.val = C + C + c.val) :
    concatenate ⟨2, ![R, N]⟩ 1 [⟨⟨2, ![R, C]⟩, A⟩, ⟨⟨2, ![R, C]⟩, B⟩, ⟨⟨2, ![R, C]⟩, D⟩] h (ix2 r g) = D (ix2 r c) :=
  concatenate_apply_piece 1 [⟨⟨2, ![R, C]⟩, A⟩, ⟨⟨2, ![R, C]⟩, B⟩, ⟨⟨2, ![R, C]⟩, D⟩] h (ix2 r g) 2 (by simp) _ D rfl rfl (C + C) (by simp) (ix2 r c)
    (fun b hb => by match b with | ⟨0, _⟩ => rfl | ⟨1, _⟩ => exact absurd rfl hb)
    (by show C + C + c.val = g.val; omega)

end Columns

section Vectors

variable {C N : ℕ} (a b d : (⟨1, ![C]⟩ : Shape).Idx → α)
  (h : Shape.Concatenates [(⟨1, ![C]⟩ : Shape), ⟨1, ![C]⟩, ⟨1, ![C]⟩] ⟨1, ![N]⟩ 0)

/-- Entries 0 … C-1 are the first piece. -/
theorem vec_first (c : Fin C) (g : Fin N) (hg : g.val = c.val) :
    concatenate ⟨1, ![N]⟩ 0 [⟨⟨1, ![C]⟩, a⟩, ⟨⟨1, ![C]⟩, b⟩, ⟨⟨1, ![C]⟩, d⟩] h (ix1 g) = a (ix1 c) :=
  concatenate_apply_piece 0 [⟨⟨1, ![C]⟩, a⟩, ⟨⟨1, ![C]⟩, b⟩, ⟨⟨1, ![C]⟩, d⟩] h (ix1 g) 0 (by simp) _ a rfl rfl 0 rfl (ix1 c)
    (fun b hb => by match b with | ⟨0, _⟩ => exact absurd rfl hb)
    (by show 0 + c.val = g.val; omega)

/-- Entries C … 2C-1 are the second piece. -/
theorem vec_second (c : Fin C) (g : Fin N) (hg : g.val = C + c.val) :
    concatenate ⟨1, ![N]⟩ 0 [⟨⟨1, ![C]⟩, a⟩, ⟨⟨1, ![C]⟩, b⟩, ⟨⟨1, ![C]⟩, d⟩] h (ix1 g) = b (ix1 c) :=
  concatenate_apply_piece 0 [⟨⟨1, ![C]⟩, a⟩, ⟨⟨1, ![C]⟩, b⟩, ⟨⟨1, ![C]⟩, d⟩] h (ix1 g) 1 (by simp) _ b rfl rfl C (by simp) (ix1 c)
    (fun b hb => by match b with | ⟨0, _⟩ => exact absurd rfl hb)
    (by show C + c.val = g.val; omega)

/-- Entries 2C … 3C-1 are the third piece. -/
theorem vec_third (c : Fin C) (g : Fin N) (hg : g.val = C + C + c.val) :
    concatenate ⟨1, ![N]⟩ 0 [⟨⟨1, ![C]⟩, a⟩, ⟨⟨1, ![C]⟩, b⟩, ⟨⟨1, ![C]⟩, d⟩] h (ix1 g) = d (ix1 c) :=
  concatenate_apply_piece 0 [⟨⟨1, ![C]⟩, a⟩, ⟨⟨1, ![C]⟩, b⟩, ⟨⟨1, ![C]⟩, d⟩] h (ix1 g) 2 (by simp) _ d rfl rfl (C + C) (by simp) (ix1 c)
    (fun b hb => by match b with | ⟨0, _⟩ => exact absurd rfl hb)
    (by show C + C + c.val = g.val; omega)

end Vectors

end Cert.LibConcat3
-- ==== Proof.RefSkew.lean ====
/-
  The reference's skew matrix, read at a sample: each entry of the `[2000000, 3, 3]` array built from slices,
  reshapes, negations, broadcasts and concatenations is the corresponding entry of the skew matrix of the sample's
  3-vector, for the rotation vector and for the scaling direction.
-/
import proofs.«170764_j13958643712058_2_alg».proof.Proof.RefCoef
import proofs.«170764_j13958643712058_2_alg».proof.Proof.RefConcat
import proofs.«170764_j13958643712058_2_alg».proof.Proof.LibConcat3

noncomputable section

open scoped BigOperators

namespace Cert.ReferenceIdeal.RefValue

open Cert.ReferenceIdeal Cert.ReferenceIdeal.ReadP Idealize.ShloMosaic Idealize.ShloMosaic.ValueIdx

/-! ## The skew matrix of the rotation vector -/

/-- A slice of column 0 reshaped to a vector reads component 0 of the sample. -/
theorem comp16_r (x : Arr) (n : Fin 2000000) :
    val_main_v16 (F := Ideal) x (ix1 n) = x (ix2 n 0) := by
  rw [val_main_v16_apply, val_main_v15_apply]
  exact congrArg x (funext fun a => Fin.ext (by
    match a with
    | ⟨0, _⟩ => exact Nat.div_one _
    | ⟨1, _⟩ => rfl))

/-- A slice of column 2 reshaped to a vector reads component 2 of the sample. -/
theorem comp19_r (x : Arr) (n : Fin 2000000) :
    val_main_v19 (F := Ideal) x (ix1 n) = x (ix2 n 2) := by
  rw [val_main_v19_apply, val_main_v18_apply]
  exact congrArg x (funext fun a => Fin.ext (by
    match a with
    | ⟨0, _⟩ => exact Nat.div_one _
    | ⟨1, _⟩ => rfl))

/-- A slice of column 1 reshaped to a vector reads component 1 of the sample. -/
theorem comp22_r (x : Arr) (n : Fin 2000000) :
    val_main_v22 (F := Ideal) x (ix1 n) = x (ix2 n 1) := by
  rw [val_main_v22_apply, val_main_v21_apply]
  exact congrArg x (funext fun a => Fin.ext (by
    match a with
    | ⟨0, _⟩ => exact Nat.div_one _
    | ⟨1, _⟩ => rfl))

/-- A slice of column 2 reshaped to a vector reads component 2 of the sample. -/
theorem comp28_r (x : Arr) (n : Fin 2000000) :
    val_main_v28 (F := Ideal) x (ix1 n) = x (ix2 n 2) := by
  rw [val_main_v28_apply, val_main_v27_apply]
  exact congrArg x (funext fun a => Fin.ext (by
    match a with
    | ⟨0, _⟩ => exact Nat.div_one _
    | ⟨1, _⟩ => rfl))

/-- A slice of column 0 reshaped to a vector reads component 0 of the sample. -/
theorem comp30_r (x : Arr) (n : Fin 2000000) :
    val_main_v30 (F := Ideal) x (ix1 n) = x (ix2 n 0) := by
  rw [val_main_v30_apply, val_main_v29_apply]
  exact congrArg x (funext fun a => Fin.ext (by
    match a with
    | ⟨0, _⟩ => exact Nat.div_one _
    | ⟨1, _⟩ => rfl))

/-- A slice of column 1 reshaped to a vector reads component 1 of the sample. -/
theorem comp37_r (x : Arr) (n : Fin 2000000) :
    val_main_v37 (F := Ideal) x (ix1 n) = x (ix2 n 1) := by
  rw [val_main_v37_apply, val_main_v36_apply]
  exact congrArg x (funext fun a => Fin.ext (by
    match a with
    | ⟨0, _⟩ => exact Nat.div_one _
    | ⟨1, _⟩ => rfl))

/-- A slice of column 0 reshaped to a vector reads component 0 of the sample. -/
theorem comp40_r (x : Arr) (n : Fin 2000000) :
    val_main_v40 (F := Ideal) x (ix1 n) = x (ix2 n 0) := by
  rw [val_main_v40_apply, val_main_v39_apply]
  exact congrArg x (funext fun a => Fin.ext (by
    match a with
    | ⟨0, _⟩ => exact Nat.div_one _
    | ⟨1, _⟩ => rfl))

/-- A column of zero words. -/
theorem col23_r (n : Fin 2000000) (g : Fin 1) :
    val_main_v23 (F := Ideal) (ix2 n g) = Spec.z0 := by
  rw [val_main_v23_apply, val_main_v17_apply]
  rfl

/-- The column of component 2, negated. -/
theorem col24_r (x : Arr) (n : Fin 2000000) (g : Fin 1) :
    val_main_v24 (F := Ideal) x (ix2 n g) = -(x (ix2 n 2)) := by
  have e : idx_main_v24 (ix2 n g) = ix1 n := funext fun a => Fin.ext (by match a with | ⟨0, _⟩ => rfl)
  rw [val_main_v24_apply, e, val_main_v20_apply, comp19_r]
  rfl

/-- The column of component 1. -/
theorem col25_r (x : Arr) (n : Fin 2000000) (g : Fin 1) :
    val_main_v25 (F := Ideal) x (ix2 n g) = x (ix2 n 1) := by
  have e : idx_main_v25 (ix2 n g) = ix1 n := funext fun a => Fin.ext (by match a with | ⟨0, _⟩ => rfl)
  rw [val_main_v25_apply, e, comp22_r]

/-- The column of component 2. -/
theorem col32_r (x : Arr) (n : Fin 2000000) (g : Fin 1) :
    val_main_v32 (F := Ideal) x (ix2 n g) = x (ix2 n 2) := by
  have e : idx_main_v32 (ix2 n g) = ix1 n := funext fun a => Fin.ext (by match a with | ⟨0, _⟩ => rfl)
  rw [val_main_v32_apply, e, comp28_r]

/-- A column of zero words. -/
theorem col33_r (n : Fin 2000000) (g : Fin 1) :
    val_main_v33 (F := Ideal) (ix2 n g) = Spec.z0 := by
  rw [val_main_v33_apply, val_main_v17_apply]
  rfl

/-- The column of component 0, negated. -/
theorem col34_r (x : Arr) (n : Fin 2000000) (g : Fin 1) :
    val_main_v34 (F := Ideal) x (ix2 n g) = -(x (ix2 n 0)) := by
  have e : idx_main_v34 (ix2 n g) = ix1 n := funext fun a => Fin.ext (by match a with | ⟨0, _⟩ => rfl)
  rw [val_main_v34_apply, e, val_main_v31_apply, comp30_r]
  rfl

/-- The column of component 1, negated. -/
theorem col41_r (x : Arr) (n : Fin 2000000) (g : Fin 1) :
    val_main_v41 (F := Ideal) x (ix2 n g) = -(x (ix2 n 1)) := by
  have e : idx_main_v41 (ix2 n g) = ix1 n := funext fun a => Fin.ext (by match a with | ⟨0, _⟩ => rfl)
  rw [val_main_v41_apply, e, val_main_v38_apply, comp37_r]
  rfl

/-- The column of component 0. -/
theorem col42_r (x : Arr) (n : Fin 2000000) (g : Fin 1) :
    val_main_v42 (F := Ideal) x (ix2 n g) = x (ix2 n 0) := by
  have e : idx_main_v42 (ix2 n g) = ix1 n := funext fun a => Fin.ext (by match a with | ⟨0, _⟩ => rfl)
  rw [val_main_v42_apply, e, comp40_r]

/-- A column of zero words. -/
theorem col43_r (n : Fin 2000000) (g : Fin 1) :
    val_main_v43 (F := Ideal) (ix2 n g) = Spec.z0 := by
  rw [val_main_v43_apply, val_main_v17_apply]
  rfl

/-- Row 0 of the skew matrix: three columns side by side. -/
theorem row0_r (x : Arr) (n : Fin 2000000) (j : Fin 3) :
    val_main_v26 (F := Ideal) x (ix2 n j) = Spec.skew (Spec.row x n) 0 j := by
  unfold val_main_v26
  match j with
  | ⟨0, h0⟩ => exact (LibConcat3.cols_first (C := 1) _ _ _ _ n 0 ⟨0, h0⟩ rfl).trans (col23_r n 0)
  | ⟨1, h1⟩ => exact (LibConcat3.cols_second (C := 1) _ _ _ _ n 0 ⟨1, h1⟩ rfl).trans (col24_r x n 0)
  | ⟨2, h2⟩ => exact (LibConcat3.cols_third (C := 1) _ _ _ _ n 0 ⟨2, h2⟩ rfl).trans (col25_r x n 0)

/-- Row 1 of the skew matrix: three columns side by side. -/
theorem row1_r (x : Arr) (n : Fin 2000000) (j : Fin 3) :
    val_main_v35 (F := Ideal) x (ix2 n j) = Spec.skew (Spec.row x n) 1 j := by
  unfold val_main_v35
  match j with
  | ⟨0, h0⟩ => exact (LibConcat3.cols_first (C := 1) _ _ _ _ n 0 ⟨0, h0⟩ rfl).trans (col32_r x n 0)
  | ⟨1, h1⟩ => exact (LibConcat3.cols_second (C := 1) _ _ _ _ n 0 ⟨1, h1⟩ rfl).trans (col33_r n 0)
  | ⟨2, h2⟩ => exact (LibConcat3.cols_third (C := 1) _ _ _ _ n 0 ⟨2, h2⟩ rfl).trans (col34_r x n 0)

/-- Row 2 of the skew matrix: three columns side by side. -/
theorem row2_r (x : Arr) (n : Fin 2000000) (j : Fin 3) :
    val_main_v44 (F := Ideal) x (ix2 n j) = Spec.skew (Spec.row x n) 2 j := by
  unfold val_main_v44
  match j with
  | ⟨0, h0⟩ => exact (LibConcat3.cols_first (C := 1) _ _ _ _ n 0 ⟨0, h0⟩ rfl).trans (col41_r x n 0)
  | ⟨1, h1⟩ => exact (LibConcat3.cols_second (C := 1) _ _ _ _ n 0 ⟨1, h1⟩ rfl).trans (col42_r x n 0)
  | ⟨2, h2⟩ => exact (LibConcat3.cols_third (C := 1) _ _ _ _ n 0 ⟨2, h2⟩ rfl).trans (col43_r n 0)

/-- Row 0 as a `[2000000, 1, 3]` slab. -/
theorem slab0_r (x : Arr) (n : Fin 2000000) (g : Fin 1) (j : Fin 3) :
    val_main_v45 (F := Ideal) x (ix3 n g j) = Spec.skew (Spec.row x n) 0 j := by
  have e : idx_main_v45 (ix3 n g j) = ix2 n j :=
    funext fun a => Fin.ext (by match a with | ⟨0, _⟩ => rfl | ⟨1, _⟩ => rfl)
  rw [val_main_v45_apply, e, row0_r]

/-- Row 1 as a `[2000000, 1, 3]` slab. -/
theorem slab1_r (x : Arr) (n : Fin 2000000) (g : Fin 1) (j : Fin 3) :
    val_main_v46 (F := Ideal) x (ix3 n g j) = Spec.skew (Spec.row x n) 1 j := by
  have e : idx_main_v46 (ix3 n g j) = ix2 n j :=
    funext fun a => Fin.ext (by match a with | ⟨0, _⟩ => rfl | ⟨1, _⟩ => rfl)
  rw [val_main_v46_apply, e, row1_r]

/-- Row 2 as a `[2000000, 1, 3]` slab. -/
theorem slab2_r (x : Arr) (n : Fin 2000000) (g : Fin 1) (j : Fin 3) :
    val_main_v47 (F := Ideal) x (ix3 n g j) = Spec.skew (Spec.row x n) 2 j := by
  have e : idx_main_v47 (ix3 n g j) = ix2 n j :=
    funext fun a => Fin.ext (by match a with | ⟨0, _⟩ => rfl | ⟨1, _⟩ => rfl)
  rw [val_main_v47_apply, e, row2_r]

/-- The three slabs stacked: the skew matrix of the sample's vector. -/
theorem skew_r (x : Arr) (n : Fin 2000000) (i j : Fin 3) :
    val_main_v48 (F := Ideal) x (ix3 n i j) = Spec.skew (Spec.row x n) i j := by
  unfold val_main_v48
  match i with
  | ⟨0, h0⟩ => exact (RefConcat.slab_first _ _ _ _ n ⟨0, h0⟩ j rfl).trans (slab0_r x n 0 j)
  | ⟨1, h1⟩ => exact (RefConcat.slab_second _ _ _ _ n ⟨1, h1⟩ j rfl).trans (slab1_r x n 0 j)
  | ⟨2, h2⟩ => exact (RefConcat.slab_third _ _ _ _ n ⟨2, h2⟩ j rfl).trans (slab2_r x n 0 j)

/-! ## The skew matrix of the scaling direction -/

/-- A slice of column 0 reshaped to a vector reads component 0 of the sample. -/
theorem comp16_w (x : Arr) (n : Fin 2000000) :
    val_main_v82 (F := Ideal) x (ix1 n) = x (ix2 n 0) := by
  rw [val_main_v82_apply, val_main_v81_apply]
  exact congrArg x (funext fun a => Fin.ext (by
    match a with
    | ⟨0, _⟩ => exact Nat.div_one _
    | ⟨1, _⟩ => rfl))

/-- A slice of column 2 reshaped to a vector reads component 2 of the sample. -/
theorem comp19_w (x : Arr) (n : Fin 2000000) :
    val_main_v85 (F := Ideal) x (ix1 n) = x (ix2 n 2) := by
  rw [val_main_v85_apply, val_main_v84_apply]
  exact congrArg x (funext fun a => Fin.ext (by
    match a with
    | ⟨0, _⟩ => exact Nat.div_one _
    | ⟨1, _⟩ => rfl))

/-- A slice of column 1 reshaped to a vector reads component 1 of the sample. -/
theorem comp22_w (x : Arr) (n : Fin 2000000) :
    val_main_v88 (F := Ideal) x (ix1 n) = x (ix2 n 1) := by
  rw [val_main_v88_apply, val_main_v87_apply]
  exact congrArg x (funext fun a => Fin.ext (by
    match a with
    | ⟨0, _⟩ => exact Nat.div_one _
    | ⟨1, _⟩ => rfl))

/-- A slice of column 2 reshaped to a vector reads component 2 of the sample. -/
theorem comp28_w (x : Arr) (n : Fin 2000000) :
    val_main_v94 (F := Ideal) x (ix1 n) = x (ix2 n 2) := by
  rw [val_main_v94_apply, val_main_v93_apply]
  exact congrArg x (funext fun a => Fin.ext (by
    match a with
    | ⟨0, _⟩ => exact Nat.div_one _
    | ⟨1, _⟩ => rfl))

/-- A slice of column 0 reshaped to a vector reads component 0 of the sample. -/
theorem comp30_w (x : Arr) (n : Fin 2000000) :
    val_main_v96 (F := Ideal) x (ix1 n) = x (ix2 n 0) := by
  rw [val_main_v96_apply, val_main_v95_apply]
  exact congrArg x (funext fun a => Fin.ext (by
    match a with
    | ⟨0, _⟩ => exact Nat.div_one _
    | ⟨1, _⟩ => rfl))

/-- A slice of column 1 reshaped to a vector reads component 1 of the sample. -/
theorem comp37_w (x : Arr) (n : Fin 2000000) :
    val_main_v103 (F := Ideal) x (ix1 n) = x (ix2 n 1) := by
  rw [val_main_v103_apply, val_main_v102_apply]
  exact congrArg x (funext fun a => Fin.ext (by
    match a with
    | ⟨0, _⟩ => exact Nat.div_one _
    | ⟨1, _⟩ => rfl))

/-- A slice of column 0 reshaped to a vector reads component 0 of the sample. -/
theorem comp40_w (x : Arr) (n : Fin 2000000) :
    val_main_v106 (F := Ideal) x (ix1 n) = x (ix2 n 0) := by
  rw [val_main_v106_apply, val_main_v105_apply]
  exact congrArg x (funext fun a => Fin.ext (by
    match a with
    | ⟨0, _⟩ => exact Nat.div_one _
    | ⟨1, _⟩ => rfl))

/-- A column of zero words. -/
theorem col23_w (n : Fin 2000000) (g : Fin 1) :
    val_main_v89 (F := Ideal) (ix2 n g) = Spec.z0 := by
  rw [val_main_v89_apply, val_main_v83_apply]
  rfl

/-- The column of component 2, negated. -/
theorem col24_w (x : Arr) (n : Fin 2000000) (g : Fin 1) :
    val_main_v90 (F := Ideal) x (ix2 n g) = -(x (ix2 n 2)) := by
  have e : idx_main_v90 (ix2 n g) = ix1 n := funext fun a => Fin.ext (by match a with | ⟨0, _⟩ => rfl)
  rw [val_main_v90_apply, e, val_main_v86_apply, comp19_w]
  rfl

/-- The column of component 1. -/
theorem col25_w (x : Arr) (n : Fin 2000000) (g : Fin 1) :
    val_main_v91 (F := Ideal) x (ix2 n g) = x (ix2 n 1) := by
  have e : idx_main_v91 (ix2 n g) = ix1 n := funext fun a => Fin.ext (by match a with | ⟨0, _⟩ => rfl)
  rw [val_main_v91_apply, e, comp22_w]

/-- The column of component 2. -/
theorem col32_w (x : Arr) (n : Fin 2000000) (g : Fin 1) :
    val_main_v98 (F := Ideal) x (ix2 n g) = x (ix2 n 2) := by
  have e : idx_main_v98 (ix2 n g) = ix1 n := funext fun a => Fin.ext (by match a with | ⟨0, _⟩ => rfl)
  rw [val_main_v98_apply, e, comp28_w]

/-- A column of zero words. -/
theorem col33_w (n : Fin 2000000) (g : Fin 1) :
    val_main_v99 (F := Ideal) (ix2 n g) = Spec.z0 := by
  rw [val_main_v99_apply, val_main_v83_apply]
  rfl

/-- The column of component 0, negated. -/
theorem col34_w (x : Arr) (n : Fin 2000000) (g : Fin 1) :
    val_main_v100 (F := Ideal) x (ix2 n g) = -(x (ix2 n 0)) := by
  have e : idx_main_v100 (ix2 n g) = ix1 n := funext fun a => Fin.ext (by match a with | ⟨0, _⟩ => rfl)
  rw [val_main_v100_apply, e, val_main_v97_apply, comp30_w]
  rfl

/-- The column of component 1, negated. -/
theorem col41_w (x : Arr) (n : Fin 2000000) (g : Fin 1) :
    val_main_v107 (F := Ideal) x (ix2 n g) = -(x (ix2 n 1)) := by
  have e : idx_main_v107 (ix2 n g) = ix1 n := funext fun a => Fin.ext (by match a with | ⟨0, _⟩ => rfl)
  rw [val_main_v107_apply, e, val_main_v104_apply, comp37_w]
  rfl

/-- The column of component 0. -/
theorem col42_w (x : Arr) (n : Fin 2000000) (g : Fin 1) :
    val_main_v108 (F := Ideal) x (ix2 n g) = x (ix2 n 0) := by
  have e : idx_main_v108 (ix2 n g) = ix1 n := funext fun a => Fin.ext (by match a with | ⟨0, _⟩ => rfl)
  rw [val_main_v108_apply, e, comp40_w]

/-- A column of zero words. -/
theorem col43_w (n : Fin 2000000) (g : Fin 1) :
    val_main_v109 (F := Ideal) (ix2 n g) = Spec.z0 := by
  rw [val_main_v109_apply, val_main_v83_apply]
  rfl

/-- Row 0 of the skew matrix: three columns side by side. -/
theorem row0_w (x : Arr) (n : Fin 2000000) (j : Fin 3) :
    val_main_v92 (F := Ideal) x (ix2 n j) = Spec.skew (Spec.row x n) 0 j := by
  unfold val_main_v92
  match j with
  | ⟨0, h0⟩ => exact (LibConcat3.cols_first (C := 1) _ _ _ _ n 0 ⟨0, h0⟩ rfl).trans (col23_w n 0)
  | ⟨1, h1⟩ => exact (LibConcat3.cols_second (C := 1) _ _ _ _ n 0 ⟨1, h1⟩ rfl).trans (col24_w x n 0)
  | ⟨2, h2⟩ => exact (LibConcat3.cols_third (C := 1) _ _ _ _ n 0 ⟨2, h2⟩ rfl).trans (col25_w x n 0)

/-- Row 1 of the skew matrix: three columns side by side. -/
theorem row1_w (x : Arr) (n : Fin 2000000) (j : Fin 3) :
    val_main_v101 (F := Ideal) x (ix2 n j) = Spec.skew (Spec.row x n) 1 j := by
  unfold val_main_v101
  match j with
  | ⟨0, h0⟩ => exact (LibConcat3.cols_first (C := 1) _ _ _ _ n 0 ⟨0, h0⟩ rfl).trans (col32_w x n 0)
  | ⟨1, h1⟩ => exact (LibConcat3.cols_second (C := 1) _ _ _ _ n 0 ⟨1, h1⟩ rfl).trans (col33_w n 0)
  | ⟨2, h2⟩ => exact (LibConcat3.cols_third (C := 1) _ _ _ _ n 0 ⟨2, h2⟩ rfl).trans (col34_w x n 0)

/-- Row 2 of the skew matrix: three columns side by side. -/
theorem row2_w (x : Arr) (n : Fin 2000000) (j : Fin 3) :
    val_main_v110 (F := Ideal) x (ix2 n j) = Spec.skew (Spec.row x n) 2 j := by
  unfold val_main_v110
  match j with
  | ⟨0, h0⟩ => exact (LibConcat3.cols_first (C := 1) _ _ _ _ n 0 ⟨0, h0⟩ rfl).trans (col41_w x n 0)
  | ⟨1, h1⟩ => exact (LibConcat3.cols_second (C := 1) _ _ _ _ n 0 ⟨1, h1⟩ rfl).trans (col42_w x n 0)
  | ⟨2, h2⟩ => exact (LibConcat3.cols_third (C := 1) _ _ _ _ n 0 ⟨2, h2⟩ rfl).trans (col43_w n 0)

/-- Row 0 as a `[2000000, 1, 3]` slab. -/
theorem slab0_w (x : Arr) (n : Fin 2000000) (g : Fin 1) (j : Fin 3) :
    val_main_v111 (F := Ideal) x (ix3 n g j) = Spec.skew (Spec.row x n) 0 j := by
  have e : idx_main_v111 (ix3 n g j) = ix2 n j :=
    funext fun a => Fin.ext (by match a with | ⟨0, _⟩ => rfl | ⟨1, _⟩ => rfl)
  rw [val_main_v111_apply, e, row0_w]

/-- Row 1 as a `[2000000, 1, 3]` slab. -/
theorem slab1_w (x : Arr) (n : Fin 2000000) (g : Fin 1) (j : Fin 3) :
    val_main_v112 (F := Ideal) x (ix3 n g j) = Spec.skew (Spec.row x n) 1 j := by
  have e : idx_main_v112 (ix3 n g j) = ix2 n j :=
    funext fun a => Fin.ext (by match a with | ⟨0, _⟩ => rfl | ⟨1, _⟩ => rfl)
  rw [val_main_v112_apply, e, row1_w]

/-- Row 2 as a `[2000000, 1, 3]` slab. -/
theorem slab2_w (x : Arr) (n : Fin 2000000) (g : Fin 1) (j : Fin 3) :
    val_main_v113 (F := Ideal) x (ix3 n g j) = Spec.skew (Spec.row x n) 2 j := by
  have e : idx_main_v113 (ix3 n g j) = ix2 n j :=
    funext fun a => Fin.ext (by match a with | ⟨0, _⟩ => rfl | ⟨1, _⟩ => rfl)
  rw [val_main_v113_apply, e, row2_w]

/-- The three slabs stacked: the skew matrix of the sample's vector. -/
theorem skew_w (x : Arr) (n : Fin 2000000) (i j : Fin 3) :
    val_main_v114 (F := Ideal) x (ix3 n i j) = Spec.skew (Spec.row x n) i j := by
  unfold val_main_v114
  match i with
  | ⟨0, h0⟩ => exact (RefConcat.slab_first _ _ _ _ n ⟨0, h0⟩ j rfl).trans (slab0_w x n 0 j)
  | ⟨1, h1⟩ => exact (RefConcat.slab_second _ _ _ _ n ⟨1, h1⟩ j rfl).trans (slab1_w x n 0 j)
  | ⟨2, h2⟩ => exact (RefConcat.slab_third _ _ _ _ n ⟨2, h2⟩ j rfl).trans (slab2_w x n 0 j)

end Cert.ReferenceIdeal.RefValue

end
-- ==== Proof.RefRot.lean ====
/-
  The reference's matrix exponential, read at a sample: the identity matrix as a comparison of coordinates, the
  two coefficients broadcast over the entries, the square of the skew matrix as a batched product, and their
  combination `(I + a·K) + b·K²`, for the rotation vector and for the scaling direction.
-/
import proofs.«170764_j13958643712058_2_alg».proof.Proof.RefSkew

noncomputable section

open scoped BigOperators

namespace Cert.ReferenceIdeal.RefValue

open Cert.ReferenceIdeal Cert.ReferenceIdeal.ReadP Idealize.ShloMosaic Idealize.ShloMosaic.ValueIdx

/-- The comparison of two coordinates below 3, as 32-bit words, converted to a number, is the identity matrix's
    entry. -/
theorem eye_entry (i j : Fin 3) :
    FloatOps.uitofp (F := Ideal) .f32
        (IntOp.cmpi .eq (IntOp.addi (BitVec.ofNat 32 i.val) 0#32) (BitVec.ofNat 32 j.val)) = Spec.eye i j := by
  have key : ∀ a b : Fin 3,
      IntOp.cmpi .eq (IntOp.addi (BitVec.ofNat 32 a.val) 0#32) (BitVec.ofNat 32 b.val)
        = if a = b then 1#1 else 0#1 := by decide
  rw [key]
  unfold Spec.eye
  by_cases h : i = j
  · rw [if_pos h, if_pos h]
    show (((1#1 : BitVec 1).toNat : ℝ) : EReal) = 1
    simp
  · rw [if_neg h, if_neg h]
    show (((0#1 : BitVec 1).toNat : ℝ) : EReal) = 0
    simp

/-! ## The exponential of the rotation vector's skew matrix -/

/-- The first coefficient broadcast over the nine entries. -/
theorem bcA_r (x : Arr) (n : Fin 2000000) (i j : Fin 3) :
    val_main_v56 (F := Ideal) x (ix3 n i j) = Spec.coefA (Spec.normSqM (Spec.row x n)) := by
  have e : idx_main_v55 (idx_main_v56 (ix3 n i j)) = ix1 n := funext fun a => Fin.ext (by match a with | ⟨0, _⟩ => rfl)
  rw [val_main_v56_apply, val_main_v55_apply, e, coefA_r]

/-- The second coefficient broadcast over the nine entries. -/
theorem bcB_r (x : Arr) (n : Fin 2000000) (i j : Fin 3) :
    val_main_v63 (F := Ideal) x (ix3 n i j) = Spec.coefB (Spec.normSqM (Spec.row x n)) := by
  have e : idx_main_v61 (idx_main_v63 (ix3 n i j)) = ix1 n := funext fun a => Fin.ext (by match a with | ⟨0, _⟩ => rfl)
  rw [val_main_v63_apply, val_main_v61_apply, e, coefB_r]

/-- The identity matrix: the comparison of the two coordinates, converted to a number. -/
theorem eye_r (n : Fin 2000000) (i j : Fin 3) :
    val_main_v59 (F := Ideal) (ix3 n i j) = Spec.eye i j := by
  rw [val_main_v59_apply, val_main_v58_apply, val_main_v54_apply, val_main_v53_apply, val_main_v52_apply, val_main_v51_apply, val_main_v50_apply, val_main_v49_apply]
  exact eye_entry i j

/-- The square of the skew matrix: the batched product at a sample. -/
theorem sq_r (x : Arr) (n : Fin 2000000) (i j : Fin 3) :
    val_main_v62 (F := Ideal) x (ix3 n i j)
      = ∑ k : Fin 3, Spec.skew (Spec.row x n) i k * Spec.skew (Spec.row x n) k j := by
  have el : ∀ k : Fin 3, lidx_main_v62 (ix3 n i j) k = ix3 n i k := fun k =>
    funext fun a => Fin.ext (by match a with | ⟨0, _⟩ => rfl | ⟨1, _⟩ => rfl | ⟨2, _⟩ => rfl)
  have er : ∀ k : Fin 3, ridx_main_v62 (ix3 n i j) k = ix3 n k j := fun k =>
    funext fun a => Fin.ext (by match a with | ⟨0, _⟩ => rfl | ⟨1, _⟩ => rfl | ⟨2, _⟩ => rfl)
  rw [val_main_v62_apply]
  simp only [el, er, skew_r]

/-- `(I + a·K) + b·K²` at a sample. -/
theorem rot_r (x : Arr) (n : Fin 2000000) (i j : Fin 3) :
    val_main_v65 (F := Ideal) x (ix3 n i j) = Spec.rotOfM (Spec.row x n) i j := by
  rw [val_main_v65_apply, val_main_v60_apply, val_main_v64_apply, val_main_v57_apply, eye_r, bcA_r, bcB_r, sq_r, skew_r]
  rfl

/-! ## The exponential of the scaling direction's skew matrix -/

/-- The first coefficient broadcast over the nine entries. -/
theorem bcA_w (x : Arr) (n : Fin 2000000) (i j : Fin 3) :
    val_main_v122 (F := Ideal) x (ix3 n i j) = Spec.coefA (Spec.normSqM (Spec.row x n)) := by
  have e : idx_main_v121 (idx_main_v122 (ix3 n i j)) = ix1 n := funext fun a => Fin.ext (by match a with | ⟨0, _⟩ => rfl)
  rw [val_main_v122_apply, val_main_v121_apply, e, coefA_w]

/-- The second coefficient broadcast over the nine entries. -/
theorem bcB_w (x : Arr) (n : Fin 2000000) (i j : Fin 3) :
    val_main_v129 (F := Ideal) x (ix3 n i j) = Spec.coefB (Spec.normSqM (Spec.row x n)) := by
  have e : idx_main_v127 (idx_main_v129 (ix3 n i j)) = ix1 n := funext fun a => Fin.ext (by match a with | ⟨0, _⟩ => rfl)
  rw [val_main_v129_apply, val_main_v127_apply, e, coefB_w]

/-- The identity matrix: the comparison of the two coordinates, converted to a number. -/
theorem eye_w (n : Fin 2000000) (i j : Fin 3) :
    val_main_v125 (F := Ideal) (ix3 n i j) = Spec.eye i j := by
  rw [val_main_v125_apply, val_main_v124_apply, val_main_v120_apply, val_main_v119_apply, val_main_v118_apply, val_main_v117_apply, val_main_v116_apply, val_main_v115_apply]
  exact eye_entry i j

/-- The square of the skew matrix: the batched product at a sample. -/
theorem sq_w (x : Arr) (n : Fin 2000000) (i j : Fin 3) :
    val_main_v128 (F := Ideal) x (ix3 n i j)
      = ∑ k : Fin 3, Spec.skew (Spec.row x n) i k * Spec.skew (Spec.row x n) k j := by
  have el : ∀ k : Fin 3, lidx_main_v128 (ix3 n i j) k = ix3 n i k := fun k =>
    funext fun a => Fin.ext (by match a with | ⟨0, _⟩ => rfl | ⟨1, _⟩ => rfl | ⟨2, _⟩ => rfl)
  have er : ∀ k : Fin 3, ridx_main_v128 (ix3 n i j) k = ix3 n k j := fun k =>
    funext fun a => Fin.ext (by match a with | ⟨0, _⟩ => rfl | ⟨1, _⟩ => rfl | ⟨2, _⟩ => rfl)
  rw [val_main_v128_apply]
  simp only [el, er, skew_w]

/-- `(I + a·K) + b·K²` at a sample. -/
theorem rot_w (x : Arr) (n : Fin 2000000) (i j : Fin 3) :
    val_main_v131 (F := Ideal) x (ix3 n i j) = Spec.rotOfM (Spec.row x n) i j := by
  rw [val_main_v131_apply, val_main_v126_apply, val_main_v130_apply, val_main_v123_apply, eye_w, bcA_w, bcB_w, sq_w, skew_w]
  rfl

end Cert.ReferenceIdeal.RefValue

end
-- ==== Proof.RefValue.lean ====
/-
  The reference program's result, read at an index, is the specification's matrix form.

  After the two matrix exponentials: the exponentials of the log-scales, the transpose of the scaling rotation scaled
  row by row, the two batched products `U · (diag D · Uᵀ)` and `R · M` as sums over `Fin 3`, and the last
  concatenation, which puts the translation in column 3.
-/
import proofs.«170764_j13958643712058_2_alg».proof.Proof.RefRot

noncomputable section

open scoped BigOperators

namespace Cert.ReferenceIdeal.RefValue

open Cert.ReferenceIdeal Cert.ReferenceIdeal.ReadP Idealize.ShloMosaic Idealize.ShloMosaic.ValueIdx

/-! ## The scales, the products and the last column -/

/-- The log-scales' exponentials broadcast along the rows: entry `(i, j)` is the scale of row `i`. -/
theorem bcScale (s : Arr) (n : Fin 2000000) (i j : Fin 3) :
    val_main_v135 (F := Ideal) s (ix3 n i j) = Ideal.exp (Spec.row s n i) := by
  have e : idx_main_v134 (idx_main_v135 (ix3 n i j)) = ix2 n i :=
    funext fun a => Fin.ext (by match a with | ⟨0, _⟩ => rfl | ⟨1, _⟩ => rfl)
  rw [val_main_v135_apply, val_main_v134_apply, e]
  rfl

/-- The scaling rotation, transposed. -/
theorem transp (w : Arr) (n : Fin 2000000) (i j : Fin 3) :
    val_main_v133 (F := Ideal) w (ix3 n i j) = Spec.rotOfM (Spec.row w n) j i := by
  have e : idx_main_v133 (ix3 n i j) = ix3 n j i :=
    funext fun a => Fin.ext (by match a with | ⟨0, _⟩ => rfl | ⟨1, _⟩ => rfl | ⟨2, _⟩ => rfl)
  rw [val_main_v133_apply, e, rot_w]

/-- `diag D · Uᵀ`: row `k` of the transpose scaled by `exp s_k`. -/
theorem scaledT (w s : Arr) (n : Fin 2000000) (k j : Fin 3) :
    val_main_v136 (F := Ideal) w s (ix3 n k j)
      = Ideal.exp (Spec.row s n k) * Spec.rotOfM (Spec.row w n) j k := by
  rw [val_main_v136_apply, bcScale, transp]
  rfl

/-- `U · (diag D · Uᵀ)` at a sample. -/
theorem mid (w s : Arr) (n : Fin 2000000) (i j : Fin 3) :
    val_main_v137 (F := Ideal) w s (ix3 n i j)
      = Spec.midM (Spec.rotOfM (Spec.row w n)) (fun k => Ideal.exp (Spec.row s n k)) i j := by
  have el : ∀ k : Fin 3, lidx_main_v137 (ix3 n i j) k = ix3 n i k := fun k =>
    funext fun a => Fin.ext (by match a with | ⟨0, _⟩ => rfl | ⟨1, _⟩ => rfl | ⟨2, _⟩ => rfl)
  have er : ∀ k : Fin 3, ridx_main_v137 (ix3 n i j) k = ix3 n k j := fun k =>
    funext fun a => Fin.ext (by match a with | ⟨0, _⟩ => rfl | ⟨1, _⟩ => rfl | ⟨2, _⟩ => rfl)
  rw [val_main_v137_apply]
  simp only [el, er, rot_w, scaledT]
  rfl

/-- `R · M` at a sample. -/
theorem prod (r w s : Arr) (n : Fin 2000000) (i j : Fin 3) :
    val_main_v138 (F := Ideal) r w s (ix3 n i j)
      = Spec.mulM (Spec.rotOfM (Spec.row r n))
          (Spec.midM (Spec.rotOfM (Spec.row w n)) (fun k => Ideal.exp (Spec.row s n k))) i j := by
  have el : ∀ k : Fin 3, lidx_main_v138 (ix3 n i j) k = ix3 n i k := fun k =>
    funext fun a => Fin.ext (by match a with | ⟨0, _⟩ => rfl | ⟨1, _⟩ => rfl | ⟨2, _⟩ => rfl)
  have er : ∀ k : Fin 3, ridx_main_v138 (ix3 n i j) k = ix3 n k j := fun k =>
    funext fun a => Fin.ext (by match a with | ⟨0, _⟩ => rfl | ⟨1, _⟩ => rfl | ⟨2, _⟩ => rfl)
  rw [val_main_v138_apply]
  simp only [el, er, rot_r, mid]
  rfl

/-- The translation as a `[2000000, 3, 1]` column. -/
theorem lastCol (t : Arr) (n : Fin 2000000) (i : Fin 3) (g : Fin 1) :
    val_main_v139 (F := Ideal) t (ix3 n i g) = Spec.row t n i := by
  rw [val_main_v139_apply]
  exact congrArg t (funext fun a => Fin.ext (by match a with | ⟨0, _⟩ => rfl | ⟨1, _⟩ => rfl))

/-! ## The result -/

/-- The reference's result array is the specification's matrix form of the four argument arrays
    (translation, rotation vector, scaling direction, log-scales). -/
theorem result_eq (x0 x1 x2 x3 : (⟨Cert.ReferenceIdeal.S2000000x3, .f32⟩ : BufTy).Contents (Elt Ideal)) :
    Cert.ReferenceIdeal.ReadP.val_main_v140 (F := Ideal) x0 x1 x2 x3 = Cert.Spec.arrM x0 x1 x2 x3 := by
  funext y
  obtain ⟨n, i, j, rfl⟩ : ∃ n i j, y = ix3 n i j := ⟨y 0, y 1, y 2, eq_ix3 y⟩
  show _ = Spec.outM (Spec.row x0 n) (Spec.row x1 n) (Spec.row x2 n) (Spec.row x3 n) i j
  unfold val_main_v140 Spec.outM
  by_cases h : j.val < 3
  · rw [dif_pos h]
    exact (RefConcat.last_left _ _ _ n i j ⟨j.val, h⟩ rfl).trans (prod x1 x2 x3 n i ⟨j.val, h⟩)
  · rw [dif_neg h]
    exact (RefConcat.last_right _ _ _ n i j 0 (by show 0 + 3 = j.val; have := j.isLt; omega)).trans
      (lastCol x0 n i 0)

end Cert.ReferenceIdeal.RefValue

end
-- ==== Proof.LibNary3.lean ====
/-
  A three-operand operation over a literal family of references (a concatenation of three arrays), read back from a
  straight line of host operations: its result with each operand's contents at that operand's own reference, so
  that the operands' contents can be read back in turn. The library states the same for four operands.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of a three-operand operation at its own result reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rewrite index, for one simplification pass over a whole line. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.RefStages.lean ====
/-
  The reference program's straight line of host operations, cut into stretches, and what each stretch leaves in the
  buffers a later stretch reads, as the stage functions of the reference's operation-by-operation reading.

  The program computes, per sample, the rotation of its second argument (stretches 1 to 3: the two coefficients, the
  skew matrix, their combination), the same for its third argument, and the two matrix products with the exponentials
  of the fourth, joined with the first as last column (the last stretch here). Each stretch is read back over an
  arbitrary starting valuation, so that the stretches compose.
-/
import proofs.«170764_j13958643712058_2_alg».proof.Proof.RefRead
import proofs.«170764_j13958643712058_2_alg».proof.Proof.LibNary3
import proofs.«170764_j13958643712058_2_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- One simplification pass that reads a literal line of operations back at a literal reference: each operation's
    result at its own result buffer is its function's value, at any other reference what was there. -/
local macro "stage_results" : tactic =>
  `(tactic| (simp (disch := decide) only [after_cons, after_nil,
      nullary_result', unary_result', binary_result', ternary_result', quaternary_result', reshape_result',
      Cert.LibNary3.nary3_result',
      nullary_result_ne', unary_result_ne', binary_result_ne', ternary_result_ne', quaternary_result_ne', reshape_result_ne',
      nary_result_ne']))

/-- Operations 0 to 29: the squared angle of the second argument and its two coefficients. -/
abbrev P1 : List (HloOp τ sig (Elt F)) :=
  [ binary main_arg1 main_arg1 main_v0 (mulf : (⟨S2000000x3, .f32⟩ : BufTy).Contents (Elt F) → (⟨S2000000x3, .f32⟩ : BufTy).Contents (Elt F) → (⟨S2000000x3, .f32⟩ : BufTy).Contents (Elt F)),
    nullary main_cst (constant S_ .f32 0x00000000#32),
    binary main_v0 main_cst main_v1 ((fun x v => Host.reduceAdd x v reducesTo_S2000000x3_S2000000_d1 h_S_) : (⟨S2000000x3, .f32⟩ : BufTy).Contents (Elt F) → (⟨S_, .f32⟩ : BufTy).Contents (Elt F) → (⟨S2000000, .f32⟩ : BufTy).Contents (Elt F)),
    unary main_v1 main_v2 (Host.sqrt : (⟨S2000000, .f32⟩ : BufTy).Contents (Elt F) → (⟨S2000000, .f32⟩ : BufTy).Contents (Elt F)),
    nullary main_cst_0 (constant S_ .f32 0x358637BD#32),
    unary main_cst_0 main_v3 (broadcastInDim S2000000 ![] bcast_S_S2000000 : (⟨S_, .f32⟩ : BufTy).Contents (Elt F) → (⟨S2000000, .f32⟩ : BufTy).Contents (Elt F)),
    binary main_v2 main_v3 main_v4 (cmpf .olt : (⟨S2000000, .f32⟩ : BufTy).Contents (Elt F) → (⟨S2000000, .f32⟩ : BufTy).Contents (Elt F) → (⟨S2000000, .i1⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S2000000, .f32⟩) main_call0_v1) (broadcastInDim S2000000 ![] bcast_S_S2000000),
    TRef.ternary (TRef.of (T := ⟨S2000000, .i1⟩) main_v4) (TRef.of (T := ⟨S2000000, .f32⟩) main_call0_v1) (TRef.of (T := ⟨S2000000, .f32⟩) main_v2) (TRef.of (T := ⟨S2000000, .f32⟩) main_v5) select,
    nullary main_cst_2 (constant S_ .f32 0x3F800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S2000000, .f32⟩) main_call1_v1) (broadcastInDim S2000000 ![] bcast_S_S2000000),
    TRef.ternary (TRef.of (T := ⟨S2000000, .i1⟩) main_v4) (TRef.of (T := ⟨S2000000, .f32⟩) main_call1_v1) (TRef.of (T := ⟨S2000000, .f32⟩) main_v1) (TRef.of (T := ⟨S2000000, .f32⟩) main_v6) select,
    unary main_v2 main_v7 (Host.sin : (⟨S2000000, .f32⟩ : BufTy).Contents (Elt F) → (⟨S2000000, .f32⟩ : BufTy).Contents (Elt F)),
    binary main_v7 main_v5 main_v8 (Host.divf : (⟨S2000000, .f32⟩ : BufTy).Contents (Elt F) → (⟨S2000000, .f32⟩ : BufTy).Contents (Elt F) → (⟨S2000000, .f32⟩ : BufTy).Contents (Elt F)),
    nullary main_cst_3 (constant S_ .f32 0x3F800000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S2000000, .f32⟩) main_call2_v1) (broadcastInDim S2000000 ![] bcast_S_S2000000),
    TRef.ternary (TRef.of (T := ⟨S2000000, .i1⟩) main_v4) (TRef.of (T := ⟨S2000000, .f32⟩) main_call2_v1) (TRef.of (T := ⟨S2000000, .f32⟩) main_v8) (TRef.of (T := ⟨S2000000, .f32⟩) main_v9) select,
    unary main_v2 main_v10 (Host.cos : (⟨S2000000, .f32⟩ : BufTy).Contents (Elt F) → (⟨S2000000, .f32⟩ : BufTy).Contents (Elt F)),
    nullary main_cst_4 (constant S_ .f32 0x3F800000#32),
    unary main_cst_4 main_v11 (broadcastInDim S2000000 ![] bcast_S_S2000000 : (⟨S_, .f32⟩ : BufTy).Contents (Elt F) → (⟨S2000000, .f32⟩ : BufTy).Contents (Elt F)),
    binary main_v11 main_v10 main_v12 (subf : (⟨S2000000, .f32⟩ : BufTy).Contents (Elt F) → (⟨S2000000, .f32⟩ : BufTy).Contents (Elt F) → (⟨S2000000, .f32⟩ : BufTy).Contents (Elt F)),
    binary main_v12 main_v6 main_v13 (Host.divf : (⟨S2000000, .f32⟩ : BufTy).Contents (Elt F) → (⟨S2000000, .f32⟩ : BufTy).Contents (Elt F) → (⟨S2000000, .f32⟩ : BufTy).Contents (Elt F)),
    nullary main_cst_5 (constant S_ .f32 0x3F000000#32),
    TRef.unary (TRef.of (T := ⟨S_, .f32⟩) main_cst_5) (TRef.of (T := ⟨S_, .f32⟩) main_call3_v0) id,
    TRef.unary (TRef.of (T := ⟨S_, .f32⟩) main_call3_v0) (TRef.of (T := ⟨S2000000, .f32⟩) main_call3_v1) (broadcastInDim S2000000 ![] bcast_S_S2000000),
    TRef.ternary (TRef.of (T := ⟨S2000000, .i1⟩) main_v4) (TRef.of (T := ⟨S2000000, .f32⟩) main_call3_v1) (TRef.of (T := ⟨S2000000, .f32⟩) main_v13) (TRef.of (T := ⟨S2000000, .f32⟩) main_v14) select ]

/-- Operations 30 to 64: the skew matrix of the second argument. -/
abbrev P2 : List (HloOp τ sig (Elt F)) :=
  [ unary main_arg1 main_v15 ((extractStridedSlice S2000000x1 ![0, 0] · slices_S2000000x3_S2000000x1_0_0) : (⟨S2000000x3, .f32⟩ : BufTy).Contents (Elt F) → (⟨S2000000x1, .f32⟩ : BufTy).Contents (Elt F)),
    reshape main_v15 main_v16 rfl shapeCasts_S2000000x1_S2000000,
    nullary main_cst_6 (constant S_ .f32 0x00000000#32),
    unary main_cst_6 main_v17 (broadcastInDim S2000000 ![] bcast_S_S2000000 : (⟨S_, .f32⟩ : BufTy).Contents (Elt F) → (⟨S2000000, .f32⟩ : BufTy).Contents (Elt F)),
    unary main_arg1 main_v18 ((extractStridedSlice S2000000x1 ![0, 2] · slices_S2000000x3_S2000000x1_0_2) : (⟨S2000000x3, .f32⟩ : BufTy).Contents (Elt F) → (⟨S2000000x1, .f32⟩ : BufTy).Contents (Elt F)),
    reshape main_v18 main_v19 rfl shapeCasts_S2000000x1_S2000000,
    unary main_v19 main_v20 (Host.negf : (⟨S2000000, .f32⟩ : BufTy).Contents (Elt F) → (⟨S2000000, .f32⟩ : BufTy).Contents (Elt F)),
    unary main_arg1 main_v21 ((extractStridedSlice S2000000x1 ![0, 1] · slices_S2000000x3_S2000000x1_0_1) : (⟨S2000000x3, .f32⟩ : BufTy).Contents (Elt F) → (⟨S2000000x1, .f32⟩ : BufTy).Contents (Elt F)),
    reshape main_v21 main_v22 rfl shapeCasts_S2000000x1_S2000000,
    unary main_v17 main_v23 (broadcastInDim S2000000x1 ![0] bcast_S2000000_S2000000x1_0 : (⟨S2000000, .f32⟩ : BufTy).Contents (Elt F) → (⟨S2000000x1, .f32⟩ : BufTy).Contents (Elt F)),
    unary main_v20 main_v24 (broadcastInDim S2000000x1 ![0] bcast_S2000000_S2000000x1_0 : (⟨S2000000, .f32⟩ : BufTy).Contents (Elt F) → (⟨S2000000x1, .f32⟩ : BufTy).Contents (Elt F)),
    unary main_v22 main_v25 (broadcastInDim S2000000x1 ![0] bcast_S2000000_S2000000x1_0 : (⟨S2000000, .f32⟩ : BufTy).Contents (Elt F) → (⟨S2000000x1, .f32⟩ : BufTy).Contents (Elt F)),
    nary ![main_v23, main_v24, main_v25] main_v26 (fun u => concatenate S2000000x3 1 [⟨S2000000x1, u 0⟩, ⟨S2000000x1, u 1⟩, ⟨S2000000x1, u 2⟩] concatenates_S2000000x1_S2000000x1_S2000000x1_S2000000x3_d1),
    unary main_arg1 main_v27 ((extractStridedSlice S2000000x1 ![0, 2] · slices_S2000000x3_S2000000x1_0_2) : (⟨S2000000x3, .f32⟩ : BufTy).Contents (Elt F) → (⟨S2000000x1, .f32⟩ : BufTy).Contents (Elt F)),
    reshape main_v27 main_v28 rfl shapeCasts_S2000000x1_S2000000,
    unary main_arg1 main_v29 ((extractStridedSlice S2000000x1 ![0, 0] · slices_S2000000x3_S2000000x1_0_0) : (⟨S2000000x3, .f32⟩ : BufTy).Contents (Elt F) → (⟨S2000000x1, .f32⟩ : BufTy).Contents (Elt F)),
    reshape main_v29 main_v30 rfl shapeCasts_S2000000x1_S2000000,
    unary main_v30 main_v31 (Host.negf : (⟨S2000000, .f32⟩ : BufTy).Contents (Elt F) → (⟨S2000000, .f32⟩ : BufTy).Contents (Elt F)),
    unary main_v28 main_v32 (broadcastInDim S2000000x1 ![0] bcast_S2000000_S2000000x1_0 : (⟨S2000000, .f32⟩ : BufTy).Contents (Elt F) → (⟨S2000000x1, .f32⟩ : BufTy).Contents (Elt F)),
    unary main_v17 main_v33 (broadcastInDim S2000000x1 ![0] bcast_S2000000_S2000000x1_0 : (⟨S2000000, .f32⟩ : BufTy).Contents (Elt F) → (⟨S2000000x1, .f32⟩ : BufTy).Contents (Elt F)),
    unary main_v31 main_v34 (broadcastInDim S2000000x1 ![0] bcast_S2000000_S2000000x1_0 : (⟨S2000000, .f32⟩ : BufTy).Contents (Elt F) → (⟨S2000000x1, .f32⟩ : BufTy).Contents (Elt F)),
    nary ![main_v32, main_v33, main_v34] main_v35 (fun u => concatenate S2000000x3 1 [⟨S2000000x1, u 0⟩, ⟨S2000000x1, u 1⟩, ⟨S2000000x1, u 2⟩] concatenates_S2000000x1_S2000000x1_S2000000x1_S2000000x3_d1),
    unary main_arg1 main_v36 ((extractStridedSlice S2000000x1 ![0, 1] · slices_S2000000x3_S2000000x1_0_1) : (⟨S2000000x3, .f32⟩ : BufTy).Contents (Elt F) → (⟨S2000000x1, .f32⟩ : BufTy).Contents (Elt F)),
    reshape main_v36 main_v37 rfl shapeCasts_S2000000x1_S2000000,
    unary main_v37 main_v38 (Host.negf : (⟨S2000000, .f32⟩ : BufTy).Contents (Elt F) → (⟨S2000000, .f32⟩ : BufTy).Contents (Elt F)),
    unary main_arg1 main_v39 ((extractStridedSlice S2000000x1 ![0, 0] · slices_S2000000x3_S2000000x1_0_0) : (⟨S2000000x3, .f32⟩ : BufTy).Contents (Elt F) → (⟨S2000000x1, .f32⟩ : BufTy).Contents (Elt F)),
    reshape main_v39 main_v40 rfl shapeCasts_S2000000x1_S2000000,
    unary main_v38 main_v41 (broadcastInDim S2000000x1 ![0] bcast_S2000000_S2000000x1_0 : (⟨S2000000, .f32⟩ : BufTy).Contents (Elt F) → (⟨S2000000x1, .f32⟩ : BufTy).Contents (Elt F)),
    unary main_v40 main_v42 (broadcastInDim S2000000x1 ![0] bcast_S2000000_S2000000x1_0 : (⟨S2000000, .f32⟩ : BufTy).Contents (Elt F) → (⟨S2000000x1, .f32⟩ : BufTy).Contents (Elt F)),
    unary main_v17 main_v43 (broadcastInDim S2000000x1 ![0] bcast_S2000000_S2000000x1_0 : (⟨S2000000, .f32⟩ : BufTy).Contents (Elt F) → (⟨S2000000x1, .f32⟩ : BufTy).Contents (Elt F)),
    nary ![main_v41, main_v42, main_v43] main_v44 (fun u => concatenate S2000000x3 1 [⟨S2000000x1, u 0⟩, ⟨S2000000x1, u 1⟩, ⟨S2000000x1, u 2⟩] concatenates_S2000000x1_S2000000x1_S2000000x1_S2000000x3_d1),
    unary main_v26 main_v45 (broadcastInDim S2000000x1x3 ![0, 2] bcast_S2000000x3_S2000000x1x3_0_2 : (⟨S2000000x3, .f32⟩ : BufTy).Contents (Elt F) → (⟨S2000000x1x3, .f32⟩ : BufTy).Contents (Elt F)),
    unary main_v35 main_v46 (broadcastInDim S2000000x1x3 ![0, 2] bcast_S2000000x3_S2000000x1x3_0_2 : (⟨S2000000x3, .f32⟩ : BufTy).Contents (Elt F) → (⟨S2000000x1x3, .f32⟩ : BufTy).Contents (Elt F)),
    unary main_v44 main_v47 (broadcastInDim S2000000x1x3 ![0, 2] bcast_S2000000x3_S2000000x1x3_0_2 : (⟨S2000000x3, .f32⟩ : BufTy).Contents (Elt F) → (⟨S2000000x1x3, .f32⟩ : BufTy).Contents (Elt F)),
    nary ![main_v45, main_v46, main_v47] main_v48 (fun u => concatenate S2000000x3x3 1 [⟨S2000000x1x3, u 0⟩, ⟨S2000000x1x3, u 1⟩, ⟨S2000000x1x3, u 2⟩] concatenates_S2000000x1x3_S2000000x1x3_S2000000x1x3_S2000000x3x3_d1) ]

/-- Operations 65 to 82: the rotation of the second argument, from the coefficients and the skew matrix. -/
abbrev P3 : List (HloOp τ sig (Elt F)) :=
  [ nullary main_v49 (iotaInDim S3x3 32 0),
    nullary main_v50 (iotaInDim S3x3 32 1),
    nullary main_c (constantI S_ 32 0#32),
    unary main_c main_v51 (broadcastInDim S3x3 ![] bcast_S_S3x3 : (⟨S_, .i32⟩ : BufTy).Contents (Elt F) → (⟨S3x3, .i32⟩ : BufTy).Contents (Elt F)),
    binary main_v49 main_v51 main_v52 (addi : (⟨S3x3, .i32⟩ : BufTy).Contents (Elt F) → (⟨S3x3, .i32⟩ : BufTy).Contents (Elt F) → (⟨S3x3, .i32⟩ : BufTy).Contents (Elt F)),
    binary main_v52 main_v50 main_v53 (cmpi .eq : (⟨S3x3, .i32⟩ : BufTy).Contents (Elt F) → (⟨S3x3, .i32⟩ : BufTy).Contents (Elt F) → (⟨S3x3, .i1⟩ : BufTy).Contents (Elt F)),
    unary main_v53 main_v54 (uitofp .f32 : (⟨S3x3, .i1⟩ : BufTy).Contents (Elt F) → (⟨S3x3, .f32⟩ : BufTy).Contents (Elt F)),
    unary main_v9 main_v55 (broadcastInDim S2000000x1x1 ![0] bcast_S2000000_S2000000x1x1_0 : (⟨S2000000, .f32⟩ : BufTy).Contents (Elt F) → (⟨S2000000x1x1, .f32⟩ : BufTy).Contents (Elt F)),
    unary main_v55 main_v56 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    binary main_v56 main_v48 main_v57 (mulf : (⟨S2000000x3x3, .f32⟩ : BufTy).Contents (Elt F) → (⟨S2000000x3x3, .f32⟩ : BufTy).Contents (Elt F) → (⟨S2000000x3x3, .f32⟩ : BufTy).Contents (Elt F)),
    unary main_v54 main_v58 (broadcastInDim S1x3x3 ![1, 2] bcast_S3x3_S1x3x3_1_2 : (⟨S3x3, .f32⟩ : BufTy).Contents (Elt F) → (⟨S1x3x3, .f32⟩ : BufTy).Contents (Elt F)),
    unary main_v58 main_v59 (broadcastInDim S2000000x3x3 ![0, 1, 2] bcast_S1x3x3_S2000000x3x3_0_1_2 : (⟨S1x3x3, .f32⟩ : BufTy).Contents (Elt F) → (⟨S2000000x3x3, .f32⟩ : BufTy).Contents (Elt F)),
    binary main_v59 main_v57 main_v60 (addf : (⟨S2000000x3x3, .f32⟩ : BufTy).Contents (Elt F) → (⟨S2000000x3x3, .f32⟩ : BufTy).Contents (Elt F) → (⟨S2000000x3x3, .f32⟩ : BufTy).Contents (Elt F)),
    unary main_v14 main_v61 (broadcastInDim S2000000x1x1 ![0] bcast_S2000000_S2000000x1x1_0 : (⟨S2000000, .f32⟩ : BufTy).Contents (Elt F) → (⟨S2000000x1x1, .f32⟩ : BufTy).Contents (Elt F)),
    binary main_v48 main_v48 main_v62 ((fun l r => Host.dotGeneral dot_S2000000x3x3_S2000000x3x3_S2000000x3x3_2_1_1_2_0_0 none l r) : (⟨S2000000x3x3, .f32⟩ : BufTy).Contents (Elt F) → (⟨S2000000x3x3, .f32⟩ : BufTy).Contents (Elt F) → (⟨S2000000x3x3, .f32⟩ : BufTy).Contents (Elt F)),
    unary main_v61 main_v63 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    binary main_v63 main_v62 main_v64 (mulf : (⟨S2000000x3x3, .f32⟩ : BufTy).Contents (Elt F) → (⟨S2000000x3x3, .f32⟩ : BufTy).Contents (Elt F) → (⟨S2000000x3x3, .f32⟩ : BufTy).Contents (Elt F)),
    binary main_v60 main_v64 main_v65 (addf : (⟨S2000000x3x3, .f32⟩ : BufTy).Contents (Elt F) → (⟨S2000000x3x3, .f32⟩ : BufTy).Contents (Elt F) → (⟨S2000000x3x3, .f32⟩ : BufTy).Contents (Elt F)) ]

/-- Operations 166 to 174: the two products with the exponentials of the fourth argument, and the first argument joined as last column. -/
abbrev P7 : List (HloOp τ sig (Elt F)) :=
  [ unary main_arg3 main_v132 (Host.exp : (⟨S2000000x3, .f32⟩ : BufTy).Contents (Elt F) → (⟨S2000000x3, .f32⟩ : BufTy).Contents (Elt F)),
    unary main_v131 main_v133 ((transpose S2000000x3x3 [0, 2, 1] · transposes_S2000000x3x3_S2000000x3x3_0_2_1) : (⟨S2000000x3x3, .f32⟩ : BufTy).Contents (Elt F) → (⟨S2000000x3x3, .f32⟩ : BufTy).Contents (Elt F)),
    unary main_v132 main_v134 (broadcastInDim S2000000x3x1 ![0, 1] bcast_S2000000x3_S2000000x3x1_0_1 : (⟨S2000000x3, .f32⟩ : BufTy).Contents (Elt F) → (⟨S2000000x3x1, .f32⟩ : BufTy).Contents (Elt F)),
    unary main_v134 main_v135 (broadcastInDim S2000000x3x3 ![0, 1, 2] bcast_S2000000x3x1_S2000000x3x3_0_1_2 : (⟨S2000000x3x1, .f32⟩ : BufTy).Contents (Elt F) → (⟨S2000000x3x3, .f32⟩ : BufTy).Contents (Elt F)),
    binary main_v135 main_v133 main_v136 (mulf : (⟨S2000000x3x3, .f32⟩ : BufTy).Contents (Elt F) → (⟨S2000000x3x3, .f32⟩ : BufTy).Contents (Elt F) → (⟨S2000000x3x3, .f32⟩ : BufTy).Contents (Elt F)),
    binary main_v131 main_v136 main_v137 ((fun l r => Host.dotGeneral dot_S2000000x3x3_S2000000x3x3_S2000000x3x3_2_1_1_2_0_0 none l r) : (⟨S2000000x3x3, .f32⟩ : BufTy).Contents (Elt F) → (⟨S2000000x3x3, .f32⟩ : BufTy).Contents (Elt F) → (⟨S2000000x3x3, .f32⟩ : BufTy).Contents (Elt F)),
    binary main_v65 main_v137 main_v138 ((fun l r => Host.dotGeneral dot_S2000000x3x3_S2000000x3x3_S2000000x3x3_2_1_1_2_0_0 none l r) : (⟨S2000000x3x3, .f32⟩ : BufTy).Contents (Elt F) → (⟨S2000000x3x3, .f32⟩ : BufTy).Contents (Elt F) → (⟨S2000000x3x3, .f32⟩ : BufTy).Contents (Elt F)),
    unary main_arg0 main_v139 (broadcastInDim S2000000x3x1 ![0, 1] bcast_S2000000x3_S2000000x3x1_0_1 : (⟨S2000000x3, .f32⟩ : BufTy).Contents (Elt F) → (⟨S2000000x3x1, .f32⟩ : BufTy).Contents (Elt F)),
    binary main_v138 main_v139 main_v140 ((fun a b => concatenate S2000000x3x4 2 [⟨S2000000x3x3, a⟩, ⟨S2000000x3x1, b⟩] concatenates_S2000000x3x3_S2000000x3x1_S2000000x3x4_d2) : (⟨S2000000x3x3, .f32⟩ : BufTy).Contents (Elt F) → (⟨S2000000x3x1, .f32⟩ : BufTy).Contents (Elt F) → (⟨S2000000x3x4, .f32⟩ : BufTy).Contents (Elt F)) ]

set_option maxRecDepth 8192 in
set_option maxHeartbeats 4000000 in
/-- The first stretch leaves the two coefficients. -/
theorem stage1 (W : Valuation τ sig (Elt F)) :
    after P1 W (Proc.devRef .tc main_v9) = ReadP.val_main_v9 (F := F) (W (Proc.devRef .tc main_arg1))
      ∧ after P1 W (Proc.devRef .tc main_v14) = ReadP.val_main_v14 (F := F) (W (Proc.devRef .tc main_arg1)) := by
  constructor
  · stage_results <;> rfl
  · stage_results <;> rfl

set_option maxRecDepth 8192 in
set_option maxHeartbeats 4000000 in
/-- The second stretch leaves the skew matrix. -/
theorem stage2 (W : Valuation τ sig (Elt F)) :
    after P2 W (Proc.devRef .tc main_v48) = ReadP.val_main_v48 (F := F) (W (Proc.devRef .tc main_arg1)) := by
  stage_results <;> rfl

set_option maxRecDepth 8192 in
set_option maxHeartbeats 4000000 in
/-- The third stretch combines them into the rotation. -/
theorem stage3 (W : Valuation τ sig (Elt F)) (x1 : (⟨S2000000x3, .f32⟩ : BufTy).Contents (Elt F))
    (h9 : W (Proc.devRef .tc main_v9) = ReadP.val_main_v9 (F := F) x1)
    (h14 : W (Proc.devRef .tc main_v14) = ReadP.val_main_v14 (F := F) x1)
    (h48 : W (Proc.devRef .tc main_v48) = ReadP.val_main_v48 (F := F) x1) :
    after P3 W (Proc.devRef .tc main_v65) = ReadP.val_main_v65 (F := F) x1 := by
  stage_results
  rw [h9, h14, h48]
  rfl

set_option maxRecDepth 8192 in
set_option maxHeartbeats 4000000 in
/-- The last stretch forms the products and joins the translation. -/
theorem stage7 (W : Valuation τ sig (Elt F)) (x0 x1 x2 x3 : (⟨S2000000x3, .f32⟩ : BufTy).Contents (Elt F))
    (h65 : W (Proc.devRef .tc main_v65) = ReadP.val_main_v65 (F := F) x1)
    (h131 : W (Proc.devRef .tc main_v131) = ReadP.val_main_v131 (F := F) x2)
    (h3 : W (Proc.devRef .tc main_arg3) = x3) (h0 : W (Proc.devRef .tc main_arg0) = x0) :
    after P7 W (Proc.devRef .tc main_v140) = ReadP.val_main_v140 (F := F) x0 x1 x2 x3 := by
  after_results
  rw [h65, h131, h3, h0]
  rfl

end Cert.ReferenceIdeal.Stages

end
-- ==== Proof.RefNary3.lean ====
/-
  A three-operand operation's result, with each operand's contents at its own reference.

  An operation over a literal family of three references (a concatenation of three operands) writes, at its result
  reference, its function of the three operands' contents. Stated with the contents listed one by one, so that each
  of them can be read further; at any other reference the contents are unchanged (the library's own rule).
-/
import Idealize.ShloMosaic.Lib.StableHlo.Run

noncomputable section

namespace Cert.ReferenceIdeal.Stages

open Idealize.ShloMosaic Idealize.ShloMosaic.StableHlo

variable {τ : Topo} {sig : RefSig} {Val : EltTy → Type} {x a b y : Ref sig .tc}

/-- The result of an operation over the three references `x`, `a`, `b`, at its own result reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference left out of the rewriting index, for use as a simplification rule. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.ReferenceIdeal.Stages

end
-- ==== Proof.RefStagesB.lean ====
/-
  The second matrix exponential's operations, read off the fold of the operation list.

  The operations that compute the scaling direction's two coefficients, its skew matrix, and the exponential
  `(I + a·K) + b·K²`, as three literal sub-lists of the reference program's operation list (entries 83–112, 113–147
  and 148–165, in program order), and, for each sub-list run from an arbitrary valuation of the buffers, what its
  result buffers hold afterwards: the stages `val_main_v75`, `val_main_v80`, `val_main_v114`, `val_main_v131` of the
  buffers it reads.
-/
import proofs.«170764_j13958643712058_2_alg».proof.Proof.RefRead
import proofs.«170764_j13958643712058_2_alg».proof.Proof.RefNary3
import proofs.«170764_j13958643712058_2_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Entries 83–112: the scaling direction's squared norm, angle, comparison and the two guarded coefficients. -/
abbrev P4 : List (HloOp τ sig (Elt F)) :=
  [ binary main_arg2 main_arg2 main_v66 (mulf : (⟨S2000000x3, .f32⟩ : BufTy).Contents (Elt F) → (⟨S2000000x3, .f32⟩ : BufTy).Contents (Elt F) → (⟨S2000000x3, .f32⟩ : BufTy).Contents (Elt F)),
    nullary main_cst_7 (constant S_ .f32 0x00000000#32),
    binary main_v66 main_cst_7 main_v67 ((fun x v => Host.reduceAdd x v reducesTo_S2000000x3_S2000000_d1 h_S_) : (⟨S2000000x3, .f32⟩ : BufTy).Contents (Elt F) → (⟨S_, .f32⟩ : BufTy).Contents (Elt F) → (⟨S2000000, .f32⟩ : BufTy).Contents (Elt F)),
    unary main_v67 main_v68 (Host.sqrt : (⟨S2000000, .f32⟩ : BufTy).Contents (Elt F) → (⟨S2000000, .f32⟩ : BufTy).Contents (Elt F)),
    nullary main_cst_8 (constant S_ .f32 0x358637BD#32),
    unary main_cst_8 main_v69 (broadcastInDim S2000000 ![] bcast_S_S2000000 : (⟨S_, .f32⟩ : BufTy).Contents (Elt F) → (⟨S2000000, .f32⟩ : BufTy).Contents (Elt F)),
    binary main_v68 main_v69 main_v70 (cmpf .olt : (⟨S2000000, .f32⟩ : BufTy).Contents (Elt F) → (⟨S2000000, .f32⟩ : BufTy).Contents (Elt F) → (⟨S2000000, .i1⟩ : BufTy).Contents (Elt F)),
    nullary main_cst_9 (constant S_ .f32 0x3F800000#32),
    TRef.unary (TRef.of (T := ⟨S_, .f32⟩) main_cst_9) (TRef.of (T := ⟨S_, .f32⟩) main_call4_v0) id,
    TRef.unary (TRef.of (T := ⟨S_, .f32⟩) main_call4_v0) (TRef.of (T := ⟨S2000000, .f32⟩) main_call4_v1) (broadcastInDim S2000000 ![] bcast_S_S2000000),
    TRef.ternary (TRef.of (T := ⟨S2000000, .i1⟩) main_v70) (TRef.of (T := ⟨S2000000, .f32⟩) main_call4_v1) (TRef.of (T := ⟨S2000000, .f32⟩) main_v68) (TRef.of (T := ⟨S2000000, .f32⟩) main_v71) select,
    nullary main_cst_10 (constant S_ .f32 0x3F800000#32),
    TRef.unary (TRef.of (T := ⟨S_, .f32⟩) main_cst_10) (TRef.of (T := ⟨S_, .f32⟩) main_call5_v0) id,
    TRef.unary (TRef.of (T := ⟨S_, .f32⟩) main_call5_v0) (TRef.of (T := ⟨S2000000, .f32⟩) main_call5_v1) (broadcastInDim S2000000 ![] bcast_S_S2000000),
    TRef.ternary (TRef.of (T := ⟨S2000000, .i1⟩) main_v70) (TRef.of (T := ⟨S2000000, .f32⟩) main_call5_v1) (TRef.of (T := ⟨S2000000, .f32⟩) main_v67) (TRef.of (T := ⟨S2000000, .f32⟩) main_v72) select,
    unary main_v68 main_v73 (Host.sin : (⟨S2000000, .f32⟩ : BufTy).Contents (Elt F) → (⟨S2000000, .f32⟩ : BufTy).Contents (Elt F)),
    binary main_v73 main_v71 main_v74 (Host.divf : (⟨S2000000, .f32⟩ : BufTy).Contents (Elt F) → (⟨S2000000, .f32⟩ : BufTy).Contents (Elt F) → (⟨S2000000, .f32⟩ : BufTy).Contents (Elt F)),
    nullary main_cst_11 (constant S_ .f32 0x3F800000#32),
    TRef.unary (TRef.of (T := ⟨S_, .f32⟩) main_cst_11) (TRef.of (T := ⟨S_, .f32⟩) main_call6_v0) id,
    TRef.unary (TRef.of (T := ⟨S_, .f32⟩) main_call6_v0) (TRef.of (T := ⟨S2000000, .f32⟩) main_call6_v1) (broadcastInDim S2000000 ![] bcast_S_S2000000),
    TRef.ternary (TRef.of (T := ⟨S2000000, .i1⟩) main_v70) (TRef.of (T := ⟨S2000000, .f32⟩) main_call6_v1) (TRef.of (T := ⟨S2000000, .f32⟩) main_v74) (TRef.of (T := ⟨S2000000, .f32⟩) main_v75) select,
    unary main_v68 main_v76 (Host.cos : (⟨S2000000, .f32⟩ : BufTy).Contents (Elt F) → (⟨S2000000, .f32⟩ : BufTy).Contents (Elt F)),
    nullary main_cst_12 (constant S_ .f32 0x3F800000#32),
    unary main_cst_12 main_v77 (broadcastInDim S2000000 ![] bcast_S_S2000000 : (⟨S_, .f32⟩ : BufTy).Contents (Elt F) → (⟨S2000000, .f32⟩ : BufTy).Contents (Elt F)),
    binary main_v77 main_v76 main_v78 (subf : (⟨S2000000, .f32⟩ : BufTy).Contents (Elt F) → (⟨S2000000, .f32⟩ : BufTy).Contents (Elt F) → (⟨S2000000, .f32⟩ : BufTy).Contents (Elt F)),
    binary main_v78 main_v72 main_v79 (Host.divf : (⟨S2000000, .f32⟩ : BufTy).Contents (Elt F) → (⟨S2000000, .f32⟩ : BufTy).Contents (Elt F) → (⟨S2000000, .f32⟩ : BufTy).Contents (Elt F)),
    nullary main_cst_13 (constant S_ .f32 0x3F000000#32),
    TRef.unary (TRef.of (T := ⟨S_, .f32⟩) main_cst_13) (TRef.of (T := ⟨S_, .f32⟩) main_call7_v0) id,
    TRef.unary (TRef.of (T := ⟨S_, .f32⟩) main_call7_v0) (TRef.of (T := ⟨S2000000, .f32⟩) main_call7_v1) (broadcastInDim S2000000 ![] bcast_S_S2000000),
    TRef.ternary (TRef.of (T := ⟨S2000000, .i1⟩) main_v70) (TRef.of (T := ⟨S2000000, .f32⟩) main_call7_v1) (TRef.of (T := ⟨S2000000, .f32⟩) main_v79) (TRef.of (T := ⟨S2000000, .f32⟩) main_v80) select ]

/-- Entries 113–147: the scaling direction's skew matrix, from slices, reshapes, negations, broadcasts and concatenations. -/
abbrev P5 : List (HloOp τ sig (Elt F)) :=
  [ unary main_arg2 main_v81 ((extractStridedSlice S2000000x1 ![0, 0] · slices_S2000000x3_S2000000x1_0_0) : (⟨S2000000x3, .f32⟩ : BufTy).Contents (Elt F) → (⟨S2000000x1, .f32⟩ : BufTy).Contents (Elt F)),
    reshape main_v81 main_v82 rfl shapeCasts_S2000000x1_S2000000,
    nullary main_cst_14 (constant S_ .f32 0x00000000#32),
    unary main_cst_14 main_v83 (broadcastInDim S2000000 ![] bcast_S_S2000000 : (⟨S_, .f32⟩ : BufTy).Contents (Elt F) → (⟨S2000000, .f32⟩ : BufTy).Contents (Elt F)),
    unary main_arg2 main_v84 ((extractStridedSlice S2000000x1 ![0, 2] · slices_S2000000x3_S2000000x1_0_2) : (⟨S2000000x3, .f32⟩ : BufTy).Contents (Elt F) → (⟨S2000000x1, .f32⟩ : BufTy).Contents (Elt F)),
    reshape main_v84 main_v85 rfl shapeCasts_S2000000x1_S2000000,
    unary main_v85 main_v86 (Host.negf : (⟨S2000000, .f32⟩ : BufTy).Contents (Elt F) → (⟨S2000000, .f32⟩ : BufTy).Contents (Elt F)),
    unary main_arg2 main_v87 ((extractStridedSlice S2000000x1 ![0, 1] · slices_S2000000x3_S2000000x1_0_1) : (⟨S2000000x3, .f32⟩ : BufTy).Contents (Elt F) → (⟨S2000000x1, .f32⟩ : BufTy).Contents (Elt F)),
    reshape main_v87 main_v88 rfl shapeCasts_S2000000x1_S2000000,
    unary main_v83 main_v89 (broadcastInDim S2000000x1 ![0] bcast_S2000000_S2000000x1_0 : (⟨S2000000, .f32⟩ : BufTy).Contents (Elt F) → (⟨S2000000x1, .f32⟩ : BufTy).Contents (Elt F)),
    unary main_v86 main_v90 (broadcastInDim S2000000x1 ![0] bcast_S2000000_S2000000x1_0 : (⟨S2000000, .f32⟩ : BufTy).Contents (Elt F) → (⟨S2000000x1, .f32⟩ : BufTy).Contents (Elt F)),
    unary main_v88 main_v91 (broadcastInDim S2000000x1 ![0] bcast_S2000000_S2000000x1_0 : (⟨S2000000, .f32⟩ : BufTy).Contents (Elt F) → (⟨S2000000x1, .f32⟩ : BufTy).Contents (Elt F)),
    nary ![main_v89, main_v90, main_v91] main_v92 (fun u => concatenate S2000000x3 1 [⟨S2000000x1, u 0⟩, ⟨S2000000x1, u 1⟩, ⟨S2000000x1, u 2⟩] concatenates_S2000000x1_S2000000x1_S2000000x1_S2000000x3_d1),
    unary main_arg2 main_v93 ((extractStridedSlice S2000000x1 ![0, 2] · slices_S2000000x3_S2000000x1_0_2) : (⟨S2000000x3, .f32⟩ : BufTy).Contents (Elt F) → (⟨S2000000x1, .f32⟩ : BufTy).Contents (Elt F)),
    reshape main_v93 main_v94 rfl shapeCasts_S2000000x1_S2000000,
    unary main_arg2 main_v95 ((extractStridedSlice S2000000x1 ![0, 0] · slices_S2000000x3_S2000000x1_0_0) : (⟨S2000000x3, .f32⟩ : BufTy).Contents (Elt F) → (⟨S2000000x1, .f32⟩ : BufTy).Contents (Elt F)),
    reshape main_v95 main_v96 rfl shapeCasts_S2000000x1_S2000000,
    unary main_v96 main_v97 (Host.negf : (⟨S2000000, .f32⟩ : BufTy).Contents (Elt F) → (⟨S2000000, .f32⟩ : BufTy).Contents (Elt F)),
    unary main_v94 main_v98 (broadcastInDim S2000000x1 ![0] bcast_S2000000_S2000000x1_0 : (⟨S2000000, .f32⟩ : BufTy).Contents (Elt F) → (⟨S2000000x1, .f32⟩ : BufTy).Contents (Elt F)),
    unary main_v83 main_v99 (broadcastInDim S2000000x1 ![0] bcast_S2000000_S2000000x1_0 : (⟨S2000000, .f32⟩ : BufTy).Contents (Elt F) → (⟨S2000000x1, .f32⟩ : BufTy).Contents (Elt F)),
    unary main_v97 main_v100 (broadcastInDim S2000000x1 ![0] bcast_S2000000_S2000000x1_0 : (⟨S2000000, .f32⟩ : BufTy).Contents (Elt F) → (⟨S2000000x1, .f32⟩ : BufTy).Contents (Elt F)),
    nary ![main_v98, main_v99, main_v100] main_v101 (fun u => concatenate S2000000x3 1 [⟨S2000000x1, u 0⟩, ⟨S2000000x1, u 1⟩, ⟨S2000000x1, u 2⟩] concatenates_S2000000x1_S2000000x1_S2000000x1_S2000000x3_d1),
    unary main_arg2 main_v102 ((extractStridedSlice S2000000x1 ![0, 1] · slices_S2000000x3_S2000000x1_0_1) : (⟨S2000000x3, .f32⟩ : BufTy).Contents (Elt F) → (⟨S2000000x1, .f32⟩ : BufTy).Contents (Elt F)),
    reshape main_v102 main_v103 rfl shapeCasts_S2000000x1_S2000000,
    unary main_v103 main_v104 (Host.negf : (⟨S2000000, .f32⟩ : BufTy).Contents (Elt F) → (⟨S2000000, .f32⟩ : BufTy).Contents (Elt F)),
    unary main_arg2 main_v105 ((extractStridedSlice S2000000x1 ![0, 0] · slices_S2000000x3_S2000000x1_0_0) : (⟨S2000000x3, .f32⟩ : BufTy).Contents (Elt F) → (⟨S2000000x1, .f32⟩ : BufTy).Contents (Elt F)),
    reshape main_v105 main_v106 rfl shapeCasts_S2000000x1_S2000000,
    unary main_v104 main_v107 (broadcastInDim S2000000x1 ![0] bcast_S2000000_S2000000x1_0 : (⟨S2000000, .f32⟩ : BufTy).Contents (Elt F) → (⟨S2000000x1, .f32⟩ : BufTy).Contents (Elt F)),
    unary main_v106 main_v108 (broadcastInDim S2000000x1 ![0] bcast_S2000000_S2000000x1_0 : (⟨S2000000, .f32⟩ : BufTy).Contents (Elt F) → (⟨S2000000x1, .f32⟩ : BufTy).Contents (Elt F)),
    unary main_v83 main_v109 (broadcastInDim S2000000x1 ![0] bcast_S2000000_S2000000x1_0 : (⟨S2000000, .f32⟩ : BufTy).Contents (Elt F) → (⟨S2000000x1, .f32⟩ : BufTy).Contents (Elt F)),
    nary ![main_v107, main_v108, main_v109] main_v110 (fun u => concatenate S2000000x3 1 [⟨S2000000x1, u 0⟩, ⟨S2000000x1, u 1⟩, ⟨S2000000x1, u 2⟩] concatenates_S2000000x1_S2000000x1_S2000000x1_S2000000x3_d1),
    unary main_v92 main_v111 (broadcastInDim S2000000x1x3 ![0, 2] bcast_S2000000x3_S2000000x1x3_0_2 : (⟨S2000000x3, .f32⟩ : BufTy).Contents (Elt F) → (⟨S2000000x1x3, .f32⟩ : BufTy).Contents (Elt F)),
    unary main_v101 main_v112 (broadcastInDim S2000000x1x3 ![0, 2] bcast_S2000000x3_S2000000x1x3_0_2 : (⟨S2000000x3, .f32⟩ : BufTy).Contents (Elt F) → (⟨S2000000x1x3, .f32⟩ : BufTy).Contents (Elt F)),
    unary main_v110 main_v113 (broadcastInDim S2000000x1x3 ![0, 2] bcast_S2000000x3_S2000000x1x3_0_2 : (⟨S2000000x3, .f32⟩ : BufTy).Contents (Elt F) → (⟨S2000000x1x3, .f32⟩ : BufTy).Contents (Elt F)),
    nary ![main_v111, main_v112, main_v113] main_v114 (fun u => concatenate S2000000x3x3 1 [⟨S2000000x1x3, u 0⟩, ⟨S2000000x1x3, u 1⟩, ⟨S2000000x1x3, u 2⟩] concatenates_S2000000x1x3_S2000000x1x3_S2000000x1x3_S2000000x3x3_d1) ]

/-- Entries 148–165: the identity matrix, the coefficients broadcast, the square of the skew matrix and their combination. -/
abbrev P6 : List (HloOp τ sig (Elt F)) :=
  [ nullary main_v115 (iotaInDim S3x3 32 0),
    nullary main_v116 (iotaInDim S3x3 32 1),
    nullary main_c_15 (constantI S_ 32 0#32),
    unary main_c_15 main_v117 (broadcastInDim S3x3 ![] bcast_S_S3x3 : (⟨S_, .i32⟩ : BufTy).Contents (Elt F) → (⟨S3x3, .i32⟩ : BufTy).Contents (Elt F)),
    binary main_v115 main_v117 main_v118 (addi : (⟨S3x3, .i32⟩ : BufTy).Contents (Elt F) → (⟨S3x3, .i32⟩ : BufTy).Contents (Elt F) → (⟨S3x3, .i32⟩ : BufTy).Contents (Elt F)),
    binary main_v118 main_v116 main_v119 (cmpi .eq : (⟨S3x3, .i32⟩ : BufTy).Contents (Elt F) → (⟨S3x3, .i32⟩ : BufTy).Contents (Elt F) → (⟨S3x3, .i1⟩ : BufTy).Contents (Elt F)),
    unary main_v119 main_v120 (uitofp .f32 : (⟨S3x3, .i1⟩ : BufTy).Contents (Elt F) → (⟨S3x3, .f32⟩ : BufTy).Contents (Elt F)),
    unary main_v75 main_v121 (broadcastInDim S2000000x1x1 ![0] bcast_S2000000_S2000000x1x1_0 : (⟨S2000000, .f32⟩ : BufTy).Contents (Elt F) → (⟨S2000000x1x1, .f32⟩ : BufTy).Contents (Elt F)),
    unary main_v121 main_v122 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    binary main_v122 main_v114 main_v123 (mulf : (⟨S2000000x3x3, .f32⟩ : BufTy).Contents (Elt F) → (⟨S2000000x3x3, .f32⟩ : BufTy).Contents (Elt F) → (⟨S2000000x3x3, .f32⟩ : BufTy).Contents (Elt F)),
    unary main_v120 main_v124 (broadcastInDim S1x3x3 ![1, 2] bcast_S3x3_S1x3x3_1_2 : (⟨S3x3, .f32⟩ : BufTy).Contents (Elt F) → (⟨S1x3x3, .f32⟩ : BufTy).Contents (Elt F)),
    unary main_v124 main_v125 (broadcastInDim S2000000x3x3 ![0, 1, 2] bcast_S1x3x3_S2000000x3x3_0_1_2 : (⟨S1x3x3, .f32⟩ : BufTy).Contents (Elt F) → (⟨S2000000x3x3, .f32⟩ : BufTy).Contents (Elt F)),
    binary main_v125 main_v123 main_v126 (addf : (⟨S2000000x3x3, .f32⟩ : BufTy).Contents (Elt F) → (⟨S2000000x3x3, .f32⟩ : BufTy).Contents (Elt F) → (⟨S2000000x3x3, .f32⟩ : BufTy).Contents (Elt F)),
    unary main_v80 main_v127 (broadcastInDim S2000000x1x1 ![0] bcast_S2000000_S2000000x1x1_0 : (⟨S2000000, .f32⟩ : BufTy).Contents (Elt F) → (⟨S2000000x1x1, .f32⟩ : BufTy).Contents (Elt F)),
    binary main_v114 main_v114 main_v128 ((fun l r => Host.dotGeneral dot_S2000000x3x3_S2000000x3x3_S2000000x3x3_2_1_1_2_0_0 none l r) : (⟨S2000000x3x3, .f32⟩ : BufTy).Contents (Elt F) → (⟨S2000000x3x3, .f32⟩ : BufTy).Contents (Elt F) → (⟨S2000000x3x3, .f32⟩ : BufTy).Contents (Elt F)),
    unary main_v127 main_v129 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    binary main_v129 main_v128 main_v130 (mulf : (⟨S2000000x3x3, .f32⟩ : BufTy).Contents (Elt F) → (⟨S2000000x3x3, .f32⟩ : BufTy).Contents (Elt F) → (⟨S2000000x3x3, .f32⟩ : BufTy).Contents (Elt F)),
    binary main_v126 main_v130 main_v131 (addf : (⟨S2000000x3x3, .f32⟩ : BufTy).Contents (Elt F) → (⟨S2000000x3x3, .f32⟩ : BufTy).Contents (Elt F) → (⟨S2000000x3x3, .f32⟩ : BufTy).Contents (Elt F)) ]

/-- After the coefficient operations, the two coefficient buffers hold the stages of the scaling direction. -/
theorem stage4 (W : Valuation τ sig (Elt F)) :
    after P4 W (Proc.devRef .tc main_v75) = ReadP.val_main_v75 (F := F) (W (Proc.devRef .tc main_arg2))
    ∧ after P4 W (Proc.devRef .tc main_v80) = ReadP.val_main_v80 (F := F) (W (Proc.devRef .tc main_arg2)) := by
  constructor
  · simp (disch := decide) only [after_cons, after_nil,
      nullary_result', unary_result', binary_result', ternary_result', reshape_result', nary3_result',
      nullary_result_ne', unary_result_ne', binary_result_ne', ternary_result_ne', reshape_result_ne', nary_result_ne']
    rfl
  · simp (disch := decide) only [after_cons, after_nil,
      nullary_result', unary_result', binary_result', ternary_result', reshape_result', nary3_result',
      nullary_result_ne', unary_result_ne', binary_result_ne', ternary_result_ne', reshape_result_ne', nary_result_ne']
    rfl

/-- After the skew-matrix operations, the matrix buffer holds the stage of the scaling direction. -/
theorem stage5 (W : Valuation τ sig (Elt F)) :
    after P5 W (Proc.devRef .tc main_v114) = ReadP.val_main_v114 (F := F) (W (Proc.devRef .tc main_arg2)) := by
  simp (disch := decide) only [after_cons, after_nil,
      nullary_result', unary_result', binary_result', ternary_result', reshape_result', nary3_result',
      nullary_result_ne', unary_result_ne', binary_result_ne', ternary_result_ne', reshape_result_ne', nary_result_ne']
  rfl

/-- After the combination's operations, run from buffers that hold the coefficients and the skew matrix of `x2`, the
    result buffer holds the exponential's stage of `x2`. -/
theorem stage6 (W : Valuation τ sig (Elt F)) (x2 : (⟨S2000000x3, .f32⟩ : BufTy).Contents (Elt F))
    (h75 : W (Proc.devRef .tc main_v75) = ReadP.val_main_v75 (F := F) x2)
    (h80 : W (Proc.devRef .tc main_v80) = ReadP.val_main_v80 (F := F) x2)
    (h114 : W (Proc.devRef .tc main_v114) = ReadP.val_main_v114 (F := F) x2) :
    after P6 W (Proc.devRef .tc main_v131) = ReadP.val_main_v131 (F := F) x2 := by
  simp (disch := decide) only [after_cons, after_nil,
      nullary_result', unary_result', binary_result', ternary_result', reshape_result', nary3_result',
      nullary_result_ne', unary_result_ne', binary_result_ne', ternary_result_ne', reshape_result_ne', nary_result_ne']
  rw [h75, h80, h114]
  rfl

end Cert.ReferenceIdeal.Stages

end
-- ==== Proof.RefCompose.lean ====
import proofs.«170764_j13958643712058_2_alg».proof.Proof.RefRun
import proofs.«170764_j13958643712058_2_alg».proof.Proof.RefStages
import proofs.«170764_j13958643712058_2_alg».proof.Proof.RefStagesB

/-
  The reference program's result, read off the fold of its 175 operations.

  The operation list is seven stretches in a row. Each rotation matrix takes three of them — the two coefficients
  `sin θ / θ` and `(1 - cos θ) / θ²` of one argument, the skew matrix of that argument, and their combination
  `I + a·K + b·K²` — and the last stretch multiplies the pieces together and appends the translation column. A stretch
  reads only the arguments and the named results of earlier stretches, and nothing between a result's stretch and its
  reader writes it; so the result buffer after the whole list is the last stage function of the four arguments.
-/

noncomputable section

namespace Cert.ReferenceIdeal.Compose

open Cert.ReferenceIdeal Cert.ReferenceIdeal.Gen Idealize.ShloMosaic Idealize.ShloMosaic.TcCoe Idealize.SL.Sem Idealize.ShloMosaic.StableHlo

variable {F : FTy → Type} [FloatOps F]

/-! ## The operation list in seven stretches -/

/-- The program's operation list is the seven stretches one after the other. -/
theorem ops_split : (RunP.ops : List (HloOp τ sig (Elt F)))
    = Stages.P1 ++ (Stages.P2 ++ (Stages.P3 ++ (Stages.P4 ++ (Stages.P5 ++ (Stages.P6 ++ Stages.P7))))) := rfl

/-- Running two lists in a row: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## Buffers a stretch leaves alone

A stretch that holds no operation writing a buffer leaves the buffer's contents as it found them. The argument arrays
are written by no operation at all; a stretch's named result is written by that stretch only. -/

/-- Closes `after P W (Proc.devRef .tc b) = W (Proc.devRef .tc b)` for a literal stretch `P` none of whose operations
    writes `b`: each operation's written buffer is read off, and differs from `b` by computation. -/
local macro "unwritten" "[" P:ident "]" : tactic =>
  `(tactic| exact after_of_forall_not_mem _ _ (List.forall_iff_forall_mem.mp (by
      simp only [$P:ident, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))

section Keep
variable (W : Valuation τ sig (Elt F))

theorem P1_arg0 : after Stages.P1 W (Proc.devRef .tc main_arg0) = W (Proc.devRef .tc main_arg0) := by unwritten [Stages.P1]
theorem P1_arg1 : after Stages.P1 W (Proc.devRef .tc main_arg1) = W (Proc.devRef .tc main_arg1) := by unwritten [Stages.P1]
theorem P1_arg2 : after Stages.P1 W (Proc.devRef .tc main_arg2) = W (Proc.devRef .tc main_arg2) := by unwritten [Stages.P1]
theorem P1_arg3 : after Stages.P1 W (Proc.devRef .tc main_arg3) = W (Proc.devRef .tc main_arg3) := by unwritten [Stages.P1]
theorem P2_arg0 : after Stages.P2 W (Proc.devRef .tc main_arg0) = W (Proc.devRef .tc main_arg0) := by unwritten [Stages.P2]
theorem P2_arg1 : after Stages.P2 W (Proc.devRef .tc main_arg1) = W (Proc.devRef .tc main_arg1) := by unwritten [Stages.P2]
theorem P2_arg2 : after Stages.P2 W (Proc.devRef .tc main_arg2) = W (Proc.devRef .tc main_arg2) := by unwritten [Stages.P2]
theorem P2_arg3 : after Stages.P2 W (Proc.devRef .tc main_arg3) = W (Proc.devRef .tc main_arg3) := by unwritten [Stages.P2]
theorem P3_arg0 : after Stages.P3 W (Proc.devRef .tc main_arg0) = W (Proc.devRef .tc main_arg0) := by unwritten [Stages.P3]
theorem P3_arg1 : after Stages.P3 W (Proc.devRef .tc main_arg1) = W (Proc.devRef .tc main_arg1) := by unwritten [Stages.P3]
theorem P3_arg2 : after Stages.P3 W (Proc.devRef .tc main_arg2) = W (Proc.devRef .tc main_arg2) := by unwritten [Stages.P3]
theorem P3_arg3 : after Stages.P3 W (Proc.devRef .tc main_arg3) = W (Proc.devRef .tc main_arg3) := by unwritten [Stages.P3]
theorem P4_arg0 : after Stages.P4 W (Proc.devRef .tc main_arg0) = W (Proc.devRef .tc main_arg0) := by unwritten [Stages.P4]
theorem P4_arg1 : after Stages.P4 W (Proc.devRef .tc main_arg1) = W (Proc.devRef .tc main_arg1) := by unwritten [Stages.P4]
theorem P4_arg2 : after Stages.P4 W (Proc.devRef .tc main_arg2) = W (Proc.devRef .tc main_arg2) := by unwritten [Stages.P4]
theorem P4_arg3 : after Stages.P4 W (Proc.devRef .tc main_arg3) = W (Proc.devRef .tc main_arg3) := by unwritten [Stages.P4]
theorem P5_arg0 : after Stages.P5 W (Proc.devRef .tc main_arg0) = W (Proc.devRef .tc main_arg0) := by unwritten [Stages.P5]
theorem P5_arg1 : after Stages.P5 W (Proc.devRef .tc main_arg1) = W (Proc.devRef .tc main_arg1) := by unwritten [Stages.P5]
theorem P5_arg2 : after Stages.P5 W (Proc.devRef .tc main_arg2) = W (Proc.devRef .tc main_arg2) := by unwritten [Stages.P5]
theorem P5_arg3 : after Stages.P5 W (Proc.devRef .tc main_arg3) = W (Proc.devRef .tc main_arg3) := by unwritten [Stages.P5]
theorem P6_arg0 : after Stages.P6 W (Proc.devRef .tc main_arg0) = W (Proc.devRef .tc main_arg0) := by unwritten [Stages.P6]
theorem P6_arg1 : after Stages.P6 W (Proc.devRef .tc main_arg1) = W (Proc.devRef .tc main_arg1) := by unwritten [Stages.P6]
theorem P6_arg2 : after Stages.P6 W (Proc.devRef .tc main_arg2) = W (Proc.devRef .tc main_arg2) := by unwritten [Stages.P6]
theorem P6_arg3 : after Stages.P6 W (Proc.devRef .tc main_arg3) = W (Proc.devRef .tc main_arg3) := by unwritten [Stages.P6]
theorem P7_arg0 : after Stages.P7 W (Proc.devRef .tc main_arg0) = W (Proc.devRef .tc main_arg0) := by unwritten [Stages.P7]
theorem P7_arg1 : after Stages.P7 W (Proc.devRef .tc main_arg1) = W (Proc.devRef .tc main_arg1) := by unwritten [Stages.P7]
theorem P7_arg2 : after Stages.P7 W (Proc.devRef .tc main_arg2) = W (Proc.devRef .tc main_arg2) := by unwritten [Stages.P7]
theorem P7_arg3 : after Stages.P7 W (Proc.devRef .tc main_arg3) = W (Proc.devRef .tc main_arg3) := by unwritten [Stages.P7]
theorem P2_v9 : after Stages.P2 W (Proc.devRef .tc main_v9) = W (Proc.devRef .tc main_v9) := by unwritten [Stages.P2]
theorem P2_v14 : after Stages.P2 W (Proc.devRef .tc main_v14) = W (Proc.devRef .tc main_v14) := by unwritten [Stages.P2]
theorem P4_v65 : after Stages.P4 W (Proc.devRef .tc main_v65) = W (Proc.devRef .tc main_v65) := by unwritten [Stages.P4]
theorem P5_v65 : after Stages.P5 W (Proc.devRef .tc main_v65) = W (Proc.devRef .tc main_v65) := by unwritten [Stages.P5]
theorem P6_v65 : after Stages.P6 W (Proc.devRef .tc main_v65) = W (Proc.devRef .tc main_v65) := by unwritten [Stages.P6]
theorem P5_v75 : after Stages.P5 W (Proc.devRef .tc main_v75) = W (Proc.devRef .tc main_v75) := by unwritten [Stages.P5]
theorem P5_v80 : after Stages.P5 W (Proc.devRef .tc main_v80) = W (Proc.devRef .tc main_v80) := by unwritten [Stages.P5]

end Keep

/-! ## The valuations between the stretches

`Wk W` is what the buffers hold after the first `k` stretches, from `W`. Each fact below says what one buffer holds
at one of these moments, in terms of `W` at the argument arrays: an argument is what it was; a stretch's result is the
stage function of the arguments it depends on, and stays so through the stretches that do not write it. -/

section Between
variable (W : Valuation τ sig (Elt F))

abbrev W1 : Valuation τ sig (Elt F) := after Stages.P1 W
abbrev W2 : Valuation τ sig (Elt F) := after Stages.P2 (W1 W)
abbrev W3 : Valuation τ sig (Elt F) := after Stages.P3 (W2 W)
abbrev W4 : Valuation τ sig (Elt F) := after Stages.P4 (W3 W)
abbrev W5 : Valuation τ sig (Elt F) := after Stages.P5 (W4 W)
abbrev W6 : Valuation τ sig (Elt F) := after Stages.P6 (W5 W)

/-- The whole list run from `W` is the last stretch run from `W6 W`. -/
theorem after_ops : after RunP.ops W = after Stages.P7 (W6 W) := by
  rw [ops_split, after_append, after_append, after_append, after_append, after_append, after_append]

theorem arg1_W1 : W1 W (Proc.devRef .tc main_arg1) = W (Proc.devRef .tc main_arg1) := P1_arg1 W
theorem arg2_W3 : W3 W (Proc.devRef .tc main_arg2) = W (Proc.devRef .tc main_arg2) :=
  (P3_arg2 _).trans ((P2_arg2 _).trans (P1_arg2 W))
theorem arg2_W4 : W4 W (Proc.devRef .tc main_arg2) = W (Proc.devRef .tc main_arg2) := (P4_arg2 _).trans (arg2_W3 W)
theorem arg0_W6 : W6 W (Proc.devRef .tc main_arg0) = W (Proc.devRef .tc main_arg0) :=
  (P6_arg0 _).trans ((P5_arg0 _).trans ((P4_arg0 _).trans ((P3_arg0 _).trans ((P2_arg0 _).trans (P1_arg0 W)))))
theorem arg1_W6 : W6 W (Proc.devRef .tc main_arg1) = W (Proc.devRef .tc main_arg1) :=
  (P6_arg1 _).trans ((P5_arg1 _).trans ((P4_arg1 _).trans ((P3_arg1 _).trans ((P2_arg1 _).trans (P1_arg1 W)))))
theorem arg2_W6 : W6 W (Proc.devRef .tc main_arg2) = W (Proc.devRef .tc main_arg2) :=
  (P6_arg2 _).trans ((P5_arg2 _).trans (arg2_W4 W))
theorem arg3_W6 : W6 W (Proc.devRef .tc main_arg3) = W (Proc.devRef .tc main_arg3) :=
  (P6_arg3 _).trans ((P5_arg3 _).trans ((P4_arg3 _).trans ((P3_arg3 _).trans ((P2_arg3 _).trans (P1_arg3 W)))))

/-- No operation writes an argument array: the whole list leaves each as it was. -/
theorem ops_arg0 : after RunP.ops W (Proc.devRef .tc main_arg0) = W (Proc.devRef .tc main_arg0) := by
  rw [after_ops]; exact (P7_arg0 _).trans (arg0_W6 W)
theorem ops_arg1 : after RunP.ops W (Proc.devRef .tc main_arg1) = W (Proc.devRef .tc main_arg1) := by
  rw [after_ops]; exact (P7_arg1 _).trans (arg1_W6 W)
theorem ops_arg2 : after RunP.ops W (Proc.devRef .tc main_arg2) = W (Proc.devRef .tc main_arg2) := by
  rw [after_ops]; exact (P7_arg2 _).trans (arg2_W6 W)
theorem ops_arg3 : after RunP.ops W (Proc.devRef .tc main_arg3) = W (Proc.devRef .tc main_arg3) := by
  rw [after_ops]; exact (P7_arg3 _).trans (arg3_W6 W)

/-! The first rotation: stretches 1 to 3, of the second argument. -/

theorem v9_W2 : W2 W (Proc.devRef .tc main_v9) = ReadP.val_main_v9 (W (Proc.devRef .tc main_arg1)) :=
  (P2_v9 _).trans (Stages.stage1 W).1
theorem v14_W2 : W2 W (Proc.devRef .tc main_v14) = ReadP.val_main_v14 (W (Proc.devRef .tc main_arg1)) :=
  (P2_v14 _).trans (Stages.stage1 W).2
theorem v48_W2 : W2 W (Proc.devRef .tc main_v48) = ReadP.val_main_v48 (W (Proc.devRef .tc main_arg1)) :=
  (Stages.stage2 (W1 W)).trans (congrArg (ReadP.val_main_v48 (F := F)) (arg1_W1 W))
theorem v65_W3 : W3 W (Proc.devRef .tc main_v65) = ReadP.val_main_v65 (W (Proc.devRef .tc main_arg1)) :=
  Stages.stage3 (W2 W) (W (Proc.devRef .tc main_arg1)) (v9_W2 W) (v14_W2 W) (v48_W2 W)
theorem v65_W6 : W6 W (Proc.devRef .tc main_v65) = ReadP.val_main_v65 (W (Proc.devRef .tc main_arg1)) :=
  (P6_v65 _).trans ((P5_v65 _).trans ((P4_v65 _).trans (v65_W3 W)))

/-! The second rotation: stretches 4 to 6, of the third argument. -/

theorem v75_W5 : W5 W (Proc.devRef .tc main_v75) = ReadP.val_main_v75 (W (Proc.devRef .tc main_arg2)) :=
  (P5_v75 _).trans ((Stages.stage4 (W3 W)).1.trans (congrArg (ReadP.val_main_v75 (F := F)) (arg2_W3 W)))
theorem v80_W5 : W5 W (Proc.devRef .tc main_v80) = ReadP.val_main_v80 (W (Proc.devRef .tc main_arg2)) :=
  (P5_v80 _).trans ((Stages.stage4 (W3 W)).2.trans (congrArg (ReadP.val_main_v80 (F := F)) (arg2_W3 W)))
theorem v114_W5 : W5 W (Proc.devRef .tc main_v114) = ReadP.val_main_v114 (W (Proc.devRef .tc main_arg2)) :=
  (Stages.stage5 (W4 W)).trans (congrArg (ReadP.val_main_v114 (F := F)) (arg2_W4 W))
theorem v131_W6 : W6 W (Proc.devRef .tc main_v131) = ReadP.val_main_v131 (W (Proc.devRef .tc main_arg2)) :=
  Stages.stage6 (W5 W) (W (Proc.devRef .tc main_arg2)) (v75_W5 W) (v80_W5 W) (v114_W5 W)

/-- The result buffer after the whole list: the last stage function of the four argument arrays as the list found
    them. -/
theorem result : after RunP.ops W (Proc.devRef .tc main_v140)
    = ReadP.val_main_v140 (W (Proc.devRef .tc main_arg0)) (W (Proc.devRef .tc main_arg1)) (W (Proc.devRef .tc main_arg2)) (W (Proc.devRef .tc main_arg3)) := by
  rw [after_ops]
  exact Stages.stage7 (W6 W) (W (Proc.devRef .tc main_arg0)) (W (Proc.devRef .tc main_arg1)) (W (Proc.devRef .tc main_arg2)) (W (Proc.devRef .tc main_arg3))
    (v65_W6 W) (v131_W6 W) (arg3_W6 W) (arg0_W6 W)

end Between

/-! ## The run -/

/-- On every device, from any memory with zero counters: every weakly fair execution of the reference's @main
    terminates with the result at the last stage function of the arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v140)
          = ReadP.val_main_v140 (F := Ideal) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v140).trans (result (launchContents m c)),
       (h c main_arg0).trans (ops_arg0 (launchContents m c)),
       (h c main_arg1).trans (ops_arg1 (launchContents m c)),
       (h c main_arg2).trans (ops_arg2 (launchContents m c)),
       (h c main_arg3).trans (ops_arg3 (launchContents m c))⟩)
    (RunP.run (F := Ideal) m ρ)

end Cert.ReferenceIdeal.Compose

end
-- ==== Proof.lean ====
/-
  The proof of `Cert.Claim`: the three frames, `preserves` (nothing to preserve: the idealization rewrote no operation)
  and the algebraic claim between the idealized kernel and the idealized reference.

  Both programs compute, per sample, the 3×4 matrix `[ R(r) · (R(w) · diag(exp s) · R(w)ᵀ) | t ]` with `R` Rodrigues'
  rotation matrix (Proof/Spec.lean). The kernel pads the batch to 2097152 samples, lays it out component-major in rows
  of 128 samples, evaluates the closed form of every matrix entry on 32 blocks of 512 rows, and undoes the layout on
  the first 2000000 samples: its result array is the closed form `Spec.arrC` of the argument arrays (Proof/KValue.lean,
  over the body's value Proof/Body.lean and the layout Proof/KPrefix.lean). The reference builds the skew matrices and
  multiplies 3×3 matrices by batched contractions: its result array is the matrix form `Spec.arrM`
  (Proof/RefValue.lean, over the run Proof/RefCompose.lean). The two forms agree when the rotation vectors and the
  scaling directions are real (Proof/SpecLaw.lean: `K² = v vᵀ - θ² I` needs distributivity), which the precondition
  says (Proof/Finite.lean).
-/
import proofs.«170764_j13958643712058_2_alg».proof.Defs
import proofs.«170764_j13958643712058_2_alg».proof.Proof.Gen.Kernel
import proofs.«170764_j13958643712058_2_alg».proof.Proof.Gen.Kernel.Skeleton
import proofs.«170764_j13958643712058_2_alg».proof.Proof.Gen.Kernel.Launch
import proofs.«170764_j13958643712058_2_alg».proof.Proof.Gen.Kernel.Points
import proofs.«170764_j13958643712058_2_alg».proof.Proof.Gen.Kernel.Frame
import proofs.«170764_j13958643712058_2_alg».proof.Proof.Gen.KernelIdeal
import proofs.«170764_j13958643712058_2_alg».proof.Proof.Gen.KernelIdeal.Skeleton
import proofs.«170764_j13958643712058_2_alg».proof.Proof.Gen.KernelIdeal.Launch
import proofs.«170764_j13958643712058_2_alg».proof.Proof.Gen.KernelIdeal.Points
import proofs.«170764_j13958643712058_2_alg».proof.Proof.Gen.KernelIdeal.Frame
import proofs.«170764_j13958643712058_2_alg».proof.Proof.Gen.ReferenceIdeal
import proofs.«170764_j13958643712058_2_alg».proof.Proof.Gen.Pre_finite_inputs
import proofs.«170764_j13958643712058_2_alg».proof.Proof.Spec
import proofs.«170764_j13958643712058_2_alg».proof.Proof.SpecLaw
import proofs.«170764_j13958643712058_2_alg».proof.Proof.Finite
import proofs.«170764_j13958643712058_2_alg».proof.Proof.Body
import proofs.«170764_j13958643712058_2_alg».proof.Proof.KPrefix
import proofs.«170764_j13958643712058_2_alg».proof.Proof.KValue
import proofs.«170764_j13958643712058_2_alg».proof.Proof.RefValue
import proofs.«170764_j13958643712058_2_alg».proof.Proof.RefCompose
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Compose.run m ρ)

theorem preserves : Cert.preserves_Kernel_KernelIdeal := trivial

/-- The kernel's result array is the closed form of the arguments, the reference's the matrix form of arguments that
    agree with them; the precondition makes the rotation vectors and scaling directions real, where the two forms are
    one function. -/
theorem algebraic : Cert.algebraic_KernelIdeal_ReferenceIdeal := by
  intro m ρ m' ρ' hpre hagree
  refine ⟨_, Cert.KernelIdeal.KValue.run_of Cert.KernelIdeal.Body.out_apply
    (fun m c => ⟨Cert.KernelIdeal.KPrefix.V_main_v2 m c, Cert.KernelIdeal.KPrefix.V_main_v5 m c,
      Cert.KernelIdeal.KPrefix.V_main_v8 m c, Cert.KernelIdeal.KPrefix.V_main_v11 m c⟩) m ρ, ?_⟩
  refine (θ_run Cert.ReferenceIdeal.defs _ _).mono (fun _ h c => ⟨(h c).1.trans ?_, (h c).2⟩)
    (Cert.ReferenceIdeal.Compose.run m' ρ')
  rw [Cert.ReferenceIdeal.RefValue.result_eq, (hagree c).1, (hagree c).2.1, (hagree c).2.2.1, (hagree c).2.2.2]
  obtain ⟨h1, h2⟩ := Cert.Finite.real_of_fn _ _ _ _ (hpre c)
  exact (Cert.Spec.arrC_eq_arrM _ _ _ _ h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
